-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel

variable [Facts]

def fn {F : FTy → Type} [FloatOps F] (main_arg0 : FVec F S16x4096x64 .f32) (main_arg1 : FVec F S16x4096x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  main_v8
-- ==== Kernel.lean ====
abbrev S16x4096x64 : Shape := ⟨3, ![16, 4096, 64]⟩
abbrev S16x64x4096 : Shape := ⟨3, ![16, 64, 4096]⟩
abbrev S16x1x1 : Shape := ⟨3, ![16, 1, 1]⟩
abbrev S1x2048x64 : Shape := ⟨3, ![1, 2048, 64]⟩
abbrev S1x64x2048 : Shape := ⟨3, ![1, 64, 2048]⟩
abbrev S1x1x1 : Shape := ⟨3, ![1, 1, 1]⟩
abbrev S2048x1 : Shape := ⟨2, ![2048, 1]⟩
abbrev S1x4096 : Shape := ⟨2, ![1, 4096]⟩
abbrev S1x1 : Shape := ⟨2, ![1, 1]⟩
abbrev S2048x64 : Shape := ⟨2, ![2048, 64]⟩
abbrev S64x2048 : Shape := ⟨2, ![64, 2048]⟩
abbrev S2048 : Shape := ⟨1, ![2048]⟩
abbrev S1x2048 : Shape := ⟨2, ![1, 2048]⟩
abbrev S2048x2048 : Shape := ⟨2, ![2048, 2048]⟩
abbrev S1 : Shape := ⟨1, ![1]⟩
abbrev S_ : Shape := ⟨0, ![]⟩

abbrev nBuf : Space → Nat
  | .hbm => 14
  | .vmem => 12
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x64x4096, .f32⟩
  | .hbm, ⟨3, _⟩ => ⟨S16x1x1, .f32⟩
  | .hbm, ⟨4, _⟩ => ⟨S16x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x2048x64, .f32⟩
  | .local _ .vmem, ⟨1, _⟩ => ⟨S1x2048x64, .f32⟩
  | .local _ .vmem, ⟨2, _⟩ => ⟨S1x64x2048, .f32⟩
  | .local _ .vmem, ⟨3, _⟩ => ⟨S1x64x2048, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S2048x1, .f32⟩
  | .local _ .vmem, ⟨9, _⟩ => ⟨S1x4096, .f32⟩
  | .local _ .vmem, ⟨10, _⟩ => ⟨S1x4096, .f32⟩
  | .local _ .vmem, ⟨11, _⟩ => ⟨S1x1, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_mult1 (i : grid0.Coords) : BitVec 32 :=
  let arg2 : BitVec 32 := BitVec.ofNat 32 (i 2).val
  let c2048_i32 : BitVec 32 := 2048#32
  let v18 : BitVec 32 := Scalar.muli arg2 c2048_i32
  v18
def k0_off1 (i : grid0.Coords) : Fin 2 → Nat :=
  let c0_10 : Index := 0#32
  let arg2 : BitVec 32 := BitVec.ofNat 32 (i 2).val
  let c2048_i32 : BitVec 32 := 2048#32
  let v18 : BitVec 32 := Scalar.muli arg2 c2048_i32
  let v19 : BitVec 32 := v18
  let v20 : Index := Scalar.indexCast v19
  ![0, v20.toNat]
def k0_cond4 (i : grid0.Coords) : BitVec 1 :=
  let arg1 : BitVec 32 := BitVec.ofNat 32 (i 1).val
  let c1_i32_22 : BitVec 32 := 1#32
  let v52 : BitVec 1 := Scalar.cmpi .eq arg1 c1_i32_22
  let arg2 : BitVec 32 := BitVec.ofNat 32 (i 2).val
  let c1_i32_23 : BitVec 32 := 1#32
  let v53 : BitVec 1 := Scalar.cmpi .eq arg2 c1_i32_23
  let v54 : BitVec 1 := Scalar.andi v52 v53
  let v55 : BitVec 32 := Scalar.extui v54
  let c0_i32_24 : BitVec 32 := 0#32
  let v56 : BitVec 1 := Scalar.cmpi .ne v55 c0_i32_24
  v56

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S16x4096x64_S16x64x4096_0_2_1 : S16x4096x64.Transposes [0, 2, 1] S16x64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  reduces_S2048x64_S2048 : S2048x64.Reduces [1] S2048
  shapeCasts_S2048_S2048x1 : S2048.ShapeCasts S2048x1
  reduces_S64x2048_S2048 : S64x2048.Reduces [0] S2048
  shapeCasts_S2048_S1x2048 : S2048.ShapeCasts S1x2048
  h_S1x2048 : 0 < S1x2048.numel
  shapeCasts_S1x2048_S1x2048 : S1x2048.ShapeCasts S1x2048
  bitsLt_bf16_f32 : FTy.bits .bf16 < FTy.bits .f32
  broadcasts_S1x2048_S2048x2048 : S1x2048.Broadcasts S2048x2048
  reduces_S2048x2048_S2048 : S2048x2048.Reduces [1] S2048
  broadcasts_S2048x1_S2048x2048 : S2048x1.Broadcasts S2048x2048
  reduces_S2048x2048_S2048_2 : S2048x2048.Reduces [0] S2048
  reduces_S2048x1_S1 : S2048x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reduces_S1x4096_S1 : S1x4096.Reduces [1] S1
  reducesTo_S16x1x1_S_d0_1_2 : S16x1x1.ReducesTo [0, 1, 2] S_
  h_S_ : 0 < S_.numel
  dot_S2048x64_S64x2048_S2048x2048_1_0_0_1_n_n_wf : DotDims.WF S2048x64 S64x2048 S2048x2048 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S1x2048.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x4096x64.size a
  hwx0_0 : ∀ i : grid0.Coords, EltTy.bits .f32 = 32 ∨ (Rect.block (s := S16x4096x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S16x64x4096.size a
  hwx0_1 : ∀ i : grid0.Coords, EltTy.bits .f32 = 32 ∨ (Rect.block (s := S16x64x4096) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond4 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S16x4096x64 : Shape := ⟨3, ![16, 4096, 64]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S_, .f32⟩
  | .hbm, ⟨4, _⟩ => ⟨S16x4096, .f32⟩
  | .hbm, ⟨5, _⟩ => ⟨S16x4096x64, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096, .f32⟩
  | .hbm, ⟨23, _⟩ => ⟨S_, .f32⟩
  | .hbm, ⟨24, _⟩ => ⟨S16x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S16x4096x64_S16x4096_d2 : S16x4096x64.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S_d0_1 : S16x4096.ReducesTo [0, 1] S_
  dot_S16x4096x64_S16x4096x64_S16x4096x4096_2_2_1_1_0_0_wf : DotDims.WF S16x4096x64 S16x4096x64 S16x4096x4096 [2] [2] [1] [1] [0] [0]

variable [Facts₀]

def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf

class Facts : Prop extends Facts₀ where

variable [Facts]
-- ==== Proof.WStep.lean ====
import proofs.«114531_j51814485459453_2_alg».proof.Proof.Gen.Kernel.Frame
import proofs.«114531_j51814485459453_2_alg».proof.Proof.Gen.Kernel.Skeleton
import Idealize.ShloMosaic.Lib.WritesUnit
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through whole buffers and through half rows, read as values

A buffer held whole reads back, through the rectangle of all its indices, what it holds; a store through that
rectangle leaves its payload whatever was stored before; a store through the rectangle of one half of a
[1, 4096] row replaces that half and keeps the other. -/

theorem zero2 : (![0, 0] : Fin 2 → ℕ) = fun _ => 0 := by funext a; fin_cases a <;> rfl
theorem zero3 : (![0, 0, 0] : Fin 3 → ℕ) = fun _ => 0 := by funext a; fin_cases a <;> rfl

section Whole

variable {κ : Kind} {sp : Space} {S : Shape} {e : EltTy}

/-- A whole buffer read through the rectangle of all its indices. -/
theorem readAt_whole (M : Memref sig κ sp S e) (hM : M.IsWhole) {off : Fin S.rank → ℕ} (h : off = fun _ => 0)
    (inb : ∀ a, off a + S.size a ≤ S.size a) (x : S.Idx → Elt F e) :
    View.readAt (Elt F) M.view (Rect.unit off S.size inb).toLoadRect (hM.unread x) = x := by
  rw [View.readAt_eq_ld, hM.read_unread, View.ld_unit_zero h inb]

/-- The last store through the rectangle of all indices is what the buffer then reads. -/
theorem read_writes_last_whole (v : View sig κ sp S e) (f : v.ty.Contents (Elt F)) {off : Fin S.rank → ℕ}
    (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

/-- A load of everything after such a store reads the payload. -/
theorem readAt_writes_last_whole (v : View sig κ sp S e) (f : v.ty.Contents (Elt F)) {off : Fin S.rank → ℕ}
    (h : off = fun _ => 0) (inb : ∀ a, off a + S.size a ≤ S.size a) (w : S.Idx → Elt F e)
    (L : List (View.Piece (Elt F) S e)) :
    View.readAt (Elt F) v (Rect.unit off S.size inb).toLoadRect
      (v.writes (Elt F) f ((⟨Rect.unit off S.size inb, w⟩ : View.Piece (Elt F) S e) :: L)) = w := by
  rw [View.readAt_eq_ld, read_writes_last_whole v f h inb, View.ld_unit_zero h inb]

end Whole

/-- A load through the rectangle of all indices reads what the buffer holds. -/
theorem readAt_all {κ : Kind} {sp : Space} {S : Shape} {e : EltTy} (v : View sig κ sp S e) {off : Fin S.rank → ℕ} (h : off = fun _ => 0)
    (inb : ∀ a, off a + S.size a ≤ S.size a) (g : v.ty.Contents (Elt F)) :
    View.readAt (Elt F) v (Rect.unit off S.size inb).toLoadRect g = v.read (Elt F) g := by
  rw [View.readAt_eq_ld, View.ld_unit_zero h inb]

/-! ## The half row a point works on -/

/-- The offsets of the half of a [1, 4096] row the point's second block covers, as the body's integer words give them:
    column 2048 times the point's last coordinate. -/
abbrev hOff (i : grid0.Coords) : Fin 2 → ℕ :=
  ![0, BitVec.toNat (Scalar.indexCast (Scalar.muli (BitVec.ofNat 32 (i 2).val) 2048#32))]

/-- The half lies inside the row. -/
theorem hOff_inb (i : grid0.Coords) : ∀ a : Fin 2, hOff i a + (![1, 2048] : Fin 2 → ℕ) a ≤ S1x4096.size a := k0_off1_inb i

/-- The half of a [1, 4096] row the point's second block covers, read out. -/
def getHalf (i : grid0.Coords) (d : Vec F S1x4096 .f32) : Vec F S1x2048 .f32 :=
  View.ld d (Rect.unit (s := S1x4096) (hOff i) ![1, 2048] (hOff_inb i))

/-- A [1, 4096] row with that half replaced. -/
def setHalf (i : grid0.Coords) (d : Vec F S1x4096 .f32) (p : Vec F S1x2048 .f32) : Vec F S1x4096 .f32 := fun y =>
  if h : ∀ a, hOff i a ≤ (y a).val ∧ (y a).val < hOff i a + (![1, 2048] : Fin 2 → ℕ) a then
    p (Rect.unitLocal (s := S1x4096) (off := hOff i) (size := ![1, 2048]) y h)
  else d y

/-- A store through the half's rectangle replaces the half of what the earlier stores left. -/
theorem read_writes_half {κ : Kind} {sp : Space} (v : View sig κ sp S1x4096 .f32) (f : v.ty.Contents (Elt F)) (i : grid0.Coords)
    (w : Vec F S1x2048 .f32) (L : List (View.Piece (Elt F) S1x4096 .f32)) :
    v.read (Elt F) (v.writes (Elt F) f ((⟨Rect.unit (s := S1x4096) (hOff i) ![1, 2048] (hOff_inb i), w⟩ : View.Piece (Elt F) S1x4096 .f32) :: L))
      = setHalf i (v.read (Elt F) (v.writes (Elt F) f L)) w := by
  funext y
  rw [View.read_writes_cons_unit v f (hOff_inb i) w L y rfl]
  rfl

/-- A load of the half reads the half of what the buffer holds. -/
theorem readAt_half {κ : Kind} {sp : Space} (v : View sig κ sp S1x4096 .f32) (f : v.ty.Contents (Elt F)) (i : grid0.Coords) :
    View.readAt (Elt F) v (Rect.unit (s := S1x4096) (hOff i) ![1, 2048] (hOff_inb i)).toLoadRect f
      = getHalf i (v.read (Elt F) f) := rfl

/-! ## What one point leaves in the four scratch buffers

`b7`, `b8`, `b10` are what the running row minimum, the running column minimum and the running sum hold when the
point's arithmetic starts (what the point before left, or the reset value at a point that resets them). -/

/-- The running row minimum after the point: the minimum of what it held and the tile's row minima. -/
def nx7 (b7 : Vec F S2048x1 .f32) (x0 : Vec F S1x2048x64 .f32) (x1 : Vec F S1x64x2048 .f32) : Vec F S2048x1 .f32 :=
  k0_pay1 (k0_pay15 x0 x1) b7

/-- The running column minimum after the point: its half replaced by the minimum of the half and the tile's column minima. -/
def nx8 (i : grid0.Coords) (b8 : Vec F S1x4096 .f32) (x0 : Vec F S1x2048x64 .f32) (x1 : Vec F S1x64x2048 .f32) : Vec F S1x4096 .f32 :=
  setHalf i b8 (k0_pay2 (k0_pay11 x0) (k0_pay14 x0 x1) (getHalf i b8))

/-- The row of squared norms of the second cloud after the point: its half replaced by the block's. -/
def nx9 (i : grid0.Coords) (b9 : Vec F S1x4096 .f32) (x1 : Vec F S1x64x2048 .f32) : Vec F S1x4096 .f32 :=
  setHalf i b9 (k0_pay13 x1)

/-- The running sum after a point that adds its rows' clamped distances. -/
def nx10 (b10 : Vec F S1x1 .f32) (n7 : Vec F S2048x1 .f32) (x0 : Vec F S1x2048x64 .f32) : Vec F S1x1 .f32 :=
  k0_pay3 (k0_pay11 x0) n7 b10

end Cert.Kernel.Gen

end
-- ==== Proof.WCond.lean ====
import proofs.«114531_j51814485459453_2_alg».proof.Proof.WStep

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions

Over the grid 16 × 2 × 2 (batch, row tile, column tile), point `t = 4·batch + 2·row tile + column tile`: the first
condition holds at the first point of a batch, the second at the first column tile, the third at the last column
tile, the fourth at the last point of a batch. -/

abbrev cnd0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev cnd1 (i : grid0.Coords) : Prop := (Scalar.cmpi .ne (Scalar.extui (Scalar.cmpi .eq (BitVec.ofNat 32 (i 2).val) 0#32)) 0#32) = 1#1
abbrev cnd2 (i : grid0.Coords) : Prop := (Scalar.cmpi .ne (Scalar.extui (Scalar.cmpi .eq (BitVec.ofNat 32 (i 2).val) 1#32)) 0#32) = 1#1
abbrev cnd3 (i : grid0.Coords) : Prop := k0_cond4 i = 1#1

theorem hcnd0 : ∀ t : Fin cfg0.N, cnd0 (grid0.coords t) ↔ t.val % 4 = 0 :=
  (by decide +kernel : ∀ t : Fin grid0.N, cnd0 (grid0.coords t) ↔ t.val % 4 = 0)
theorem hcnd1 : ∀ t : Fin cfg0.N, cnd1 (grid0.coords t) ↔ t.val % 2 = 0 :=
  (by decide +kernel : ∀ t : Fin grid0.N, cnd1 (grid0.coords t) ↔ t.val % 2 = 0)
theorem hcnd2 : ∀ t : Fin cfg0.N, cnd2 (grid0.coords t) ↔ t.val % 2 = 1 :=
  (by decide +kernel : ∀ t : Fin grid0.N, cnd2 (grid0.coords t) ↔ t.val % 2 = 1)
theorem hcnd3 : ∀ t : Fin cfg0.N, cnd3 (grid0.coords t) ↔ t.val % 4 = 3 :=
  (by decide +kernel : ∀ t : Fin grid0.N, cnd3 (grid0.coords t) ↔ t.val % 4 = 3)

/-- The half a point works on starts at column 2048 times its column tile. -/
theorem hOff_coords : ∀ t : Fin cfg0.N, hOff (grid0.coords t) 1 = 2048 * (t.val % 2) :=
  (by decide +kernel : ∀ t : Fin grid0.N, hOff (grid0.coords t) 1 = 2048 * (t.val % 2))

end Cert.Kernel.Gen

end
-- ==== Proof.WRunA.lean ====
import proofs.«114531_j51814485459453_2_alg».proof.Proof.WCond

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first point of a batch

Both resets are taken: the running column minimum restarts at +∞ and the running sum at 0, the running row
minimum at +∞; nothing is added to the sum and no result is stored (the result buffers are not touched). -/

set_option maxHeartbeats 1000000 in
theorem runA (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x1 .f32) (harg10 : arg10.IsWhole) (hc0 : cnd0 i) (hc1 : cnd1 i) (hc2 : ¬cnd2 i) (hc3 : ¬cnd3 i)
    (x0 : Vec F S1x2048x64 .f32) (x1 : Vec F S1x64x2048 .f32) (xs7 : Vec F S2048x1 .f32) (xs8 : Vec F S1x4096 .f32) (xs9 : Vec F S1x4096 .f32) (xs10 : Vec F S1x1 .f32) (E : Set ℕ) (K : PUnit → sProp 𝕄) :
    iprop(owns (c : Thread nD τ) arg3 fullShare x0 ∗ owns (c : Thread nD τ) arg4 fullShare x1 ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg3 fullShare x0 ∗ owns (c : Thread nD τ) arg4 fullShare x1
            ∗ owns (c : Thread nD τ) arg7 fullShare (nx7 k0_pay8 x0 x1)
            ∗ owns (c : Thread nD τ) arg8 fullShare (nx8 i k0_pay6 x0 x1)
            ∗ owns (c : Thread nD τ) arg9 fullShare (nx9 i xs9 x1)
            ∗ owns (c : Thread nD τ) arg10 fullShare (k0_pay7)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    sl_unfold_words
    simp only [readAt_all (S := S1x2048x64) _ zero3, readAt_all (S := S1x64x2048) _ zero3, readAt_all (S := S2048x1) _ zero2, readAt_all (S := S1x4096) _ zero2, readAt_all (S := S1x1) _ zero2, readAt_all (S := S1x1x1) _ zero3,
      harg3.read_unread, harg4.read_unread, harg7.read_unread, harg8.read_unread, harg9.read_unread, harg10.read_unread,
      View.readCov_unit_zero (S := S2048x1) _ zero2, View.readCov_unit_zero (S := S1x1) _ zero2, View.readCov_unit_zero (S := S1x4096) _ zero2,
      readAt_half, read_writes_half, View.writes_nil, read_writes_last_whole (S := S1x4096) _ _ zero2]
    iapply Hk
    isplitl [H0]
    · iexists _; isplitr; · ipureintro; exact harg3.read_unread _
      iexact H0
    isplitl [H1]
    · iexists _; isplitr; · ipureintro; exact harg4.read_unread _
      iexact H1
    isplitl [HS0]
    · iexists _; isplitr; swap; · iexact HS0
      ipureintro; exact read_writes_last_whole (S := S2048x1) _ _ zero2 _ _ _
    isplitl [HS1]
    · iexists _; isplitr; swap; · iexact HS1
      ipureintro; exact (read_writes_half _ _ i _ _).trans (by rw [read_writes_last_whole (S := S1x4096) _ _ zero2]; rfl)
    isplitl [HS2]
    · iexists _; isplitr; swap; · iexact HS2
      ipureintro; exact (read_writes_half _ _ i _ []).trans (by rw [View.writes_nil, harg9.read_unread]; rfl)
    iexists _; isplitr; swap; · iexact HS3
    ipureintro; exact read_writes_last_whole (S := S1x1) _ _ zero2 _ _ _

end Cert.Kernel.Gen

end
-- ==== Proof.WRunB.lean ====
import proofs.«114531_j51814485459453_2_alg».proof.Proof.WCond

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last column tile of a batch's first row tile

No reset is taken; the rows' clamped distances are added to the running sum; no result is stored. -/

set_option maxHeartbeats 1000000 in
theorem runB (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x1 .f32) (harg10 : arg10.IsWhole) (hc0 : ¬cnd0 i) (hc1 : ¬cnd1 i) (hc2 : cnd2 i) (hc3 : ¬cnd3 i)
    (x0 : Vec F S1x2048x64 .f32) (x1 : Vec F S1x64x2048 .f32) (xs7 : Vec F S2048x1 .f32) (xs8 : Vec F S1x4096 .f32) (xs9 : Vec F S1x4096 .f32) (xs10 : Vec F S1x1 .f32) (E : Set ℕ) (K : PUnit → sProp 𝕄) :
    iprop(owns (c : Thread nD τ) arg3 fullShare x0 ∗ owns (c : Thread nD τ) arg4 fullShare x1 ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg3 fullShare x0 ∗ owns (c : Thread nD τ) arg4 fullShare x1
            ∗ owns (c : Thread nD τ) arg7 fullShare (nx7 xs7 x0 x1)
            ∗ owns (c : Thread nD τ) arg8 fullShare (nx8 i xs8 x0 x1)
            ∗ owns (c : Thread nD τ) arg9 fullShare (nx9 i xs9 x1)
            ∗ owns (c : Thread nD τ) arg10 fullShare (nx10 xs10 (nx7 xs7 x0 x1) x0)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    sl_unfold_words
    simp only [readAt_all (S := S1x2048x64) _ zero3, readAt_all (S := S1x64x2048) _ zero3, readAt_all (S := S2048x1) _ zero2, readAt_all (S := S1x4096) _ zero2, readAt_all (S := S1x1) _ zero2, readAt_all (S := S1x1x1) _ zero3,
      harg3.read_unread, harg4.read_unread, harg7.read_unread, harg8.read_unread, harg9.read_unread, harg10.read_unread,
      View.readCov_unit_zero (S := S2048x1) _ zero2, View.readCov_unit_zero (S := S1x1) _ zero2, View.readCov_unit_zero (S := S1x4096) _ zero2,
      readAt_half, read_writes_half, View.writes_nil, read_writes_last_whole (S := S1x4096) _ _ zero2]
    iapply Hk
    isplitl [H0]
    · iexists _; isplitr; · ipureintro; exact harg3.read_unread _
      iexact H0
    isplitl [H1]
    · iexists _; isplitr; · ipureintro; exact harg4.read_unread _
      iexact H1
    isplitl [HS0]
    · iexists _; isplitr; swap; · iexact HS0
      ipureintro; exact read_writes_last_whole (S := S2048x1) _ _ zero2 _ _ _
    isplitl [HS1]
    · iexists _; isplitr; swap; · iexact HS1
      ipureintro; exact (read_writes_half _ _ i _ []).trans (by rw [View.writes_nil, harg8.read_unread]; rfl)
    isplitl [HS2]
    · iexists _; isplitr; swap; · iexact HS2
      ipureintro; exact (read_writes_half _ _ i _ []).trans (by rw [View.writes_nil, harg9.read_unread]; rfl)
    iexists _; isplitr; swap; · iexact HS3
    ipureintro; exact read_writes_last_whole (S := S1x1) _ _ zero2 _ _ _

end Cert.Kernel.Gen

end
-- ==== Proof.WRunC.lean ====
import proofs.«114531_j51814485459453_2_alg».proof.Proof.WCond

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first column tile of a batch's second row tile

Only the running row minimum restarts at +∞; nothing is added to the sum and no result is stored. -/

set_option maxHeartbeats 1000000 in
theorem runC (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x1 .f32) (harg10 : arg10.IsWhole) (hc0 : ¬cnd0 i) (hc1 : cnd1 i) (hc2 : ¬cnd2 i) (hc3 : ¬cnd3 i)
    (x0 : Vec F S1x2048x64 .f32) (x1 : Vec F S1x64x2048 .f32) (xs7 : Vec F S2048x1 .f32) (xs8 : Vec F S1x4096 .f32) (xs9 : Vec F S1x4096 .f32) (xs10 : Vec F S1x1 .f32) (E : Set ℕ) (K : PUnit → sProp 𝕄) :
    iprop(owns (c : Thread nD τ) arg3 fullShare x0 ∗ owns (c : Thread nD τ) arg4 fullShare x1 ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg3 fullShare x0 ∗ owns (c : Thread nD τ) arg4 fullShare x1
            ∗ owns (c : Thread nD τ) arg7 fullShare (nx7 k0_pay8 x0 x1)
            ∗ owns (c : Thread nD τ) arg8 fullShare (nx8 i xs8 x0 x1)
            ∗ owns (c : Thread nD τ) arg9 fullShare (nx9 i xs9 x1)
            ∗ owns (c : Thread nD τ) arg10 fullShare (xs10)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    sl_unfold_words
    simp only [readAt_all (S := S1x2048x64) _ zero3, readAt_all (S := S1x64x2048) _ zero3, readAt_all (S := S2048x1) _ zero2, readAt_all (S := S1x4096) _ zero2, readAt_all (S := S1x1) _ zero2, readAt_all (S := S1x1x1) _ zero3,
      harg3.read_unread, harg4.read_unread, harg7.read_unread, harg8.read_unread, harg9.read_unread, harg10.read_unread,
      View.readCov_unit_zero (S := S2048x1) _ zero2, View.readCov_unit_zero (S := S1x1) _ zero2, View.readCov_unit_zero (S := S1x4096) _ zero2,
      readAt_half, read_writes_half, View.writes_nil, read_writes_last_whole (S := S1x4096) _ _ zero2]
    iapply Hk
    isplitl [H0]
    · iexists _; isplitr; · ipureintro; exact harg3.read_unread _
      iexact H0
    isplitl [H1]
    · iexists _; isplitr; · ipureintro; exact harg4.read_unread _
      iexact H1
    isplitl [HS0]
    · iexists _; isplitr; swap; · iexact HS0
      ipureintro; exact read_writes_last_whole (S := S2048x1) _ _ zero2 _ _ _
    isplitl [HS1]
    · iexists _; isplitr; swap; · iexact HS1
      ipureintro; exact (read_writes_half _ _ i _ []).trans (by rw [View.writes_nil, harg8.read_unread]; rfl)
    isplitl [HS2]
    · iexists _; isplitr; swap; · iexact HS2
      ipureintro; exact (read_writes_half _ _ i _ []).trans (by rw [View.writes_nil, harg9.read_unread]; rfl)
    iexists _; isplitr; swap; · iexact HS3
    ipureintro; exact harg10.read_unread _

end Cert.Kernel.Gen

end
-- ==== Proof.WRunD.lean ====
import proofs.«114531_j51814485459453_2_alg».proof.Proof.WCond

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last point of a batch

Neither reset is taken; the rows' clamped distances are added to the running sum, and both results are stored:
the running sum, and the sum of the clamped column distances. -/

set_option maxHeartbeats 1000000 in
theorem runD (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x1 .f32) (harg10 : arg10.IsWhole) (hc0 : ¬cnd0 i) (hc1 : ¬cnd1 i) (hc2 : cnd2 i) (hc3 : cnd3 i)
    (x0 : Vec F S1x2048x64 .f32) (x1 : Vec F S1x64x2048 .f32) (xs7 : Vec F S2048x1 .f32) (xs8 : Vec F S1x4096 .f32) (xs9 : Vec F S1x4096 .f32) (xs10 : Vec F S1x1 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg3 fullShare x0 ∗ owns (c : Thread nD τ) arg4 fullShare x1
            ∗ owns (c : Thread nD τ) arg5 fullShare (k0_pay4 (nx10 xs10 (nx7 xs7 x0 x1) x0))
            ∗ owns (c : Thread nD τ) arg6 fullShare (k0_pay5 (nx9 i xs9 x1) (nx8 i xs8 x0 x1))
            ∗ owns (c : Thread nD τ) arg7 fullShare (nx7 xs7 x0 x1)
            ∗ owns (c : Thread nD τ) arg8 fullShare (nx8 i xs8 x0 x1)
            ∗ owns (c : Thread nD τ) arg9 fullShare (nx9 i xs9 x1)
            ∗ owns (c : Thread nD τ) arg10 fullShare (nx10 xs10 (nx7 xs7 x0 x1) x0)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    sl_unfold_words
    simp only [readAt_all (S := S1x2048x64) _ zero3, readAt_all (S := S1x64x2048) _ zero3, readAt_all (S := S2048x1) _ zero2, readAt_all (S := S1x4096) _ zero2, readAt_all (S := S1x1) _ zero2, readAt_all (S := S1x1x1) _ zero3,
      harg3.read_unread, harg4.read_unread, harg7.read_unread, harg8.read_unread, harg9.read_unread, harg10.read_unread,
      View.readCov_unit_zero (S := S2048x1) _ zero2, View.readCov_unit_zero (S := S1x1) _ zero2, View.readCov_unit_zero (S := S1x4096) _ zero2,
      readAt_half, read_writes_half, View.writes_nil]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro; exact read_writes_last_whole (S := S1x1x1) _ _ zero3 _ _ _
    isplitl [H3]
    · iexists _; isplitr; swap; · iexact H3
      ipureintro; exact read_writes_last_whole (S := S1x1x1) _ _ zero3 _ _ _
    isplitl [HS0]
    · iexists _; isplitr; swap; · iexact HS0
      ipureintro; exact read_writes_last_whole (S := S2048x1) _ _ zero2 _ _ _
    isplitl [HS1]
    · iexists _; isplitr; swap; · iexact HS1
      ipureintro; exact (read_writes_half _ _ i _ []).trans (by rw [View.writes_nil, harg8.read_unread]; rfl)
    isplitl [HS2]
    · iexists _; isplitr; swap; · iexact HS2
      ipureintro; exact (read_writes_half _ _ i _ []).trans (by rw [View.writes_nil, harg9.read_unread]; rfl)
    iexists _; isplitr; swap; · iexact HS3
    ipureintro; exact read_writes_last_whole (S := S1x1) _ _ zero2 _ _ _

end Cert.Kernel.Gen

end
-- ==== Proof.WState.lean ====
import proofs.«114531_j51814485459453_2_alg».proof.Proof.WCond

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The scratch buffers point by point

What the four scratch buffers hold is followed along the grid: `stepSt` is one point's effect, `canon` the run
from fixed starting contents.  The real run starts from contents nobody knows; but the first point of the grid
resets the two running minima and the running sum, and every point overwrites the half of the norm row it
later reads, so from the second point on the real contents agree with `canon` wherever they are read (`Good`). -/

/-- The contents of the four scratch buffers: running row minimum, running column minimum, the second cloud's row of
    squared norms, running sum. -/
structure St (F : FTy → Type) [FloatOps F] where
  a7 : Vec F S2048x1 .f32
  a8 : Vec F S1x4096 .f32
  a9 : Vec F S1x4096 .f32
  a10 : Vec F S1x1 .f32

/-- One point's effect, `r` the point's position within its batch (0 to 3). -/
def stepSt (r : ℕ) (i : grid0.Coords) (x0 : Vec F S1x2048x64 .f32) (x1 : Vec F S1x64x2048 .f32) (s : St F) : St F :=
  ⟨nx7 (if r % 2 = 0 then k0_pay8 else s.a7) x0 x1,
   nx8 i (if r = 0 then k0_pay6 else s.a8) x0 x1,
   nx9 i s.a9 x1,
   if r % 2 = 1 then nx10 (if r = 0 then k0_pay7 else s.a10) (nx7 (if r % 2 = 0 then k0_pay8 else s.a7) x0 x1) x0
   else (if r = 0 then k0_pay7 else s.a10)⟩

theorem stepSt_0 (i : grid0.Coords) (x0 : Vec F S1x2048x64 .f32) (x1 : Vec F S1x64x2048 .f32) (s : St F) :
    stepSt 0 i x0 x1 s = ⟨nx7 k0_pay8 x0 x1, nx8 i k0_pay6 x0 x1, nx9 i s.a9 x1, k0_pay7⟩ := rfl
theorem stepSt_1 (i : grid0.Coords) (x0 : Vec F S1x2048x64 .f32) (x1 : Vec F S1x64x2048 .f32) (s : St F) :
    stepSt 1 i x0 x1 s = ⟨nx7 s.a7 x0 x1, nx8 i s.a8 x0 x1, nx9 i s.a9 x1, nx10 s.a10 (nx7 s.a7 x0 x1) x0⟩ := rfl
theorem stepSt_2 (i : grid0.Coords) (x0 : Vec F S1x2048x64 .f32) (x1 : Vec F S1x64x2048 .f32) (s : St F) :
    stepSt 2 i x0 x1 s = ⟨nx7 k0_pay8 x0 x1, nx8 i s.a8 x0 x1, nx9 i s.a9 x1, s.a10⟩ := rfl
theorem stepSt_3 (i : grid0.Coords) (x0 : Vec F S1x2048x64 .f32) (x1 : Vec F S1x64x2048 .f32) (s : St F) :
    stepSt 3 i x0 x1 s = ⟨nx7 s.a7 x0 x1, nx8 i s.a8 x0 x1, nx9 i s.a9 x1, nx10 s.a10 (nx7 s.a7 x0 x1) x0⟩ := rfl

/-- The run from fixed starting contents. -/
def canon (c : Dev nD) : ℕ → St F
  | 0 => ⟨k0_pay8, k0_pay6, k0_pay6, k0_pay7⟩
  | k + 1 =>
    if h : k < cfg0.N then
      stepSt (k % 4) (grid0.coords ⟨k, h⟩) (iblk m c 0 ⟨k, h⟩) (iblk m c 1 ⟨k, h⟩) (canon c k)
    else canon c k

theorem canon_succ (c : Dev nD) (t : Fin cfg0.N) :
    canon m c (t.val + 1) = stepSt (t.val % 4) (grid0.coords t) (iblk m c 0 t) (iblk m c 1 t) (canon m c t.val) := by
  show (if h : t.val < cfg0.N then _ else _) = _
  rw [dif_pos t.isLt]

/-- Before point `k` the real contents `s` agree with the fixed run where they will be read: from the second point on,
    the two running minima and the running sum entirely, and after a point of column tile 0 the first half of the norm row. -/
def Good (c : Dev nD) (k : ℕ) (s : St F) : Prop :=
  k ≠ 0 → s.a7 = (canon m c k).a7 ∧ s.a8 = (canon m c k).a8 ∧ s.a10 = (canon m c k).a10 ∧
    (k % 2 = 1 → ∀ y : S1x4096.Idx, (y 1).val < 2048 → s.a9 y = (canon m c k).a9 y)

/-- Inside the half, the replaced row reads the new half. -/
theorem setHalf_of_mem (i : grid0.Coords) (d d' : Vec F S1x4096 .f32) (p : Vec F S1x2048 .f32) (y : S1x4096.Idx)
    (h : ∀ a, hOff i a ≤ (y a).val ∧ (y a).val < hOff i a + (![1, 2048] : Fin 2 → ℕ) a) : setHalf i d p y = setHalf i d' p y := by
  unfold setHalf; rw [dif_pos h, dif_pos h]

/-- Outside the half, it reads the old row. -/
theorem setHalf_of_not_mem (i : grid0.Coords) (d : Vec F S1x4096 .f32) (p : Vec F S1x2048 .f32) (y : S1x4096.Idx)
    (h : ¬∀ a, hOff i a ≤ (y a).val ∧ (y a).val < hOff i a + (![1, 2048] : Fin 2 → ℕ) a) : setHalf i d p y = d y := by
  unfold setHalf; rw [dif_neg h]

/-- Membership in the half a point works on, by the column alone. -/
theorem mem_half_iff (t : Fin cfg0.N) (y : S1x4096.Idx) :
    (∀ a, hOff (grid0.coords t) a ≤ (y a).val ∧ (y a).val < hOff (grid0.coords t) a + (![1, 2048] : Fin 2 → ℕ) a)
      ↔ 2048 * (t.val % 2) ≤ (y 1).val ∧ (y 1).val < 2048 * (t.val % 2) + 2048 := by
  rw [Fin.forall_fin_two, hOff_coords t]
  have h0 : (y 0).val < 1 := (y 0).isLt
  constructor
  · rintro ⟨-, h⟩; exact h
  · intro h; exact ⟨⟨Nat.zero_le _, by show (y 0).val < 0 + 1; omega⟩, h⟩

/-- One point keeps the agreement. -/
theorem good_step (c : Dev nD) (t : Fin cfg0.N) (s : St F) (hg : Good m c t.val s) :
    Good m c (t.val + 1) (stepSt (t.val % 4) (grid0.coords t) (iblk m c 0 t) (iblk m c 1 t) s) := by
  intro _
  rw [canon_succ]
  by_cases hz : t.val = 0
  · have h4 : t.val % 4 = 0 := by rw [hz]
    rw [h4, stepSt_0, stepSt_0]
    refine ⟨rfl, rfl, rfl, fun _ y hy => ?_⟩
    exact setHalf_of_mem _ _ _ _ y ((mem_half_iff t y).mpr (by rw [hz]; simpa using hy))
  · obtain ⟨e7, e8, e10, e9⟩ := hg hz
    refine ⟨?_, ?_, ?_, fun h2 y hy => ?_⟩
    · show nx7 _ _ _ = nx7 _ _ _; rw [e7]
    · show nx8 _ _ _ _ = nx8 _ _ _ _; rw [e8]
    · show (if _ then _ else _) = (if _ then _ else _); rw [e7, e10]
    · show setHalf _ _ _ y = setHalf _ _ _ y
      exact setHalf_of_mem _ _ _ _ y ((mem_half_iff t y).mpr (by omega))

/-- At a point of column tile 1 the whole norm row comes out as in the fixed run: the half written now, and the half the
    point before wrote. -/
theorem good_a9 (c : Dev nD) (t : Fin cfg0.N) (s : St F) (hg : Good m c t.val s) (h2 : t.val % 2 = 1) :
    nx9 (grid0.coords t) s.a9 (iblk m c 1 t) = nx9 (grid0.coords t) (canon m c t.val).a9 (iblk m c 1 t) := by
  funext y
  by_cases hy : ∀ a, hOff (grid0.coords t) a ≤ (y a).val ∧ (y a).val < hOff (grid0.coords t) a + (![1, 2048] : Fin 2 → ℕ) a
  · exact setHalf_of_mem _ _ _ _ y hy
  · unfold nx9
    rw [setHalf_of_not_mem _ _ _ y hy, setHalf_of_not_mem _ _ _ y hy]
    have hlt : (y 1).val < 2048 := by
      have := (mem_half_iff t y).not.mp hy
      have h1 : (y 1).val < 4096 := (y 1).isLt
      omega
    exact (hg (by omega)).2.2.2 h2 y hlt

end Cert.Kernel.Gen

end
-- ==== Proof.WBody.lean ====
import proofs.«114531_j51814485459453_2_alg».proof.Proof.WRunA
import proofs.«114531_j51814485459453_2_alg».proof.Proof.WRunB
import proofs.«114531_j51814485459453_2_alg».proof.Proof.WRunC
import proofs.«114531_j51814485459453_2_alg».proof.Proof.WRunD
import proofs.«114531_j51814485459453_2_alg».proof.Proof.WState

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the one pipeline, the body at every point, the run

The two inputs' staging buffers hold their blocks; the two results' buffers hold, after the last point of a batch,
the running sum and the sum of the clamped column distances of the fixed run (`canon`); the region's invariant
holds the four scratch buffers at contents agreeing with the fixed run where they are read (`Good`). -/

/-- The scratch buffers, whole. -/
abbrev scM7 : Memref sig .tc .vmem S2048x1 .f32 := Memref.whole cc0_scratch0
abbrev scM8 : Memref sig .tc .vmem S1x4096 .f32 := Memref.whole cc0_scratch1
abbrev scM9 : Memref sig .tc .vmem S1x4096 .f32 := Memref.whole cc0_scratch2
abbrev scM10 : Memref sig .tc .vmem S1x1 .f32 := Memref.whole cc0_scratch3
/-- Each window's current staging buffer at a point. -/
abbrev ms0 (t : Fin cfg0.N) : Memref sig .tc .vmem S1x2048x64 .f32 := win0_0.stage (cfg0.slots t 0)
abbrev ms1 (t : Fin cfg0.N) : Memref sig .tc .vmem S1x64x2048 .f32 := win0_1.stage (cfg0.slots t 1)
abbrev ms2 (t : Fin cfg0.N) : Memref sig .tc .vmem S1x1x1 .f32 := win0_2.stage (cfg0.slots t 2)
abbrev ms3 (t : Fin cfg0.N) : Memref sig .tc .vmem S1x1x1 .f32 := win0_3.stage (cfg0.slots t 3)

/-- What the launch hands the region: the scratch buffers at some contents and the generator register at some state. -/
theorem PhiA_eq (c : Dev nD) :
    (Pipeline.ΦA spec0 c : sProp 𝕄)
      = iprop(iprop((∃ d, owns (c : Thread nD τ) scM7 fullShare d) ∗ (∃ d, owns (c : Thread nD τ) scM8 fullShare d) ∗ (∃ d, owns (c : Thread nD τ) scM9 fullShare d) ∗ (∃ d, owns (c : Thread nD τ) scM10 fullShare d)) ∗ (∃ r, prngReg c r)) := by
  unfold Pipeline.ΦA; rw [scopedRest0_eq]; simp only [scM7, scM8, scM9, scM10, owns_whole]; try rfl

/-- The invariant before point `k`: the scratch buffers at contents agreeing with the fixed run. -/
def PhiK (c : Dev nD) (k : ℕ) : sProp 𝕄 :=
  iprop(iprop(∃ a7 a8 a9 a10, ⌜Good m c k ⟨a7, a8, a9, a10⟩⌝ ∗ owns (c : Thread nD τ) scM7 fullShare a7 ∗ owns (c : Thread nD τ) scM8 fullShare a8
      ∗ owns (c : Thread nD τ) scM9 fullShare a9 ∗ owns (c : Thread nD τ) scM10 fullShare a10) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (canon m c (t.val + 1)).a10
    | ⟨3, _⟩ => k0_pay5 (canon m c (t.val + 1)).a9 (canon m c (t.val + 1)).a8
  Φ t := PhiK m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiK m c t.val := by
  dsimp only [dats]; simp only [Fin.coe_castSucc]
theorem Phi_succ (c : Dev nD) (t : Fin cfg0.N) : (dats m 0 c).Φ t.succ = PhiK m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay4 (canon m c (t.val + 1)).a10 := by dsimp only [dats]
theorem after0_3 (c : Dev nD) (t : Fin cfg0.N) :
    (dats m 0 c).after 3 t = k0_pay5 (canon m c (t.val + 1)).a9 (canon m c (t.val + 1)).a8 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ### Where the windows are idle -/

theorem live0 : ∀ t : Fin cfg0.N, cfg0.idle 0 (grid0.coords t) = false := by decide +kernel
theorem live1 : ∀ t : Fin cfg0.N, cfg0.idle 1 (grid0.coords t) = false := by decide +kernel
theorem idle2_last : ∀ t : Fin cfg0.N, t.val % 4 = 3 → cfg0.idle 2 (grid0.coords t) = false := by decide +kernel
theorem idle3_last : ∀ t : Fin cfg0.N, t.val % 4 = 3 → cfg0.idle 3 (grid0.coords t) = false := by decide +kernel
theorem idle2_other : ∀ t : Fin cfg0.N, t.val % 4 ≠ 3 → cfg0.idle 2 (grid0.coords t) = true := by decide +kernel
theorem idle3_other : ∀ t : Fin cfg0.N, t.val % 4 ≠ 3 → cfg0.idle 3 (grid0.coords t) = true := by decide +kernel

theorem leaves0 (c : Dev nD) (t : Fin cfg0.N) :
    (dats m 0 c).leavesExact 0 t = owns (c : Thread nD τ) (ms0 t) fullShare (iblk m c 0 t) := by
  unfold Dat.leavesExact; rw [live0 t, after0_0]
theorem leaves1 (c : Dev nD) (t : Fin cfg0.N) :
    (dats m 0 c).leavesExact 1 t = owns (c : Thread nD τ) (ms1 t) fullShare (iblk m c 1 t) := by
  unfold Dat.leavesExact; rw [live1 t, after0_1]
theorem leaves2_other (c : Dev nD) (t : Fin cfg0.N) (h : t.val % 4 ≠ 3) :
    (dats m 0 c).leavesExact 2 t = iprop(∃ d, owns (c : Thread nD τ) (ms2 t) fullShare ((dats m 0 c).before 2 t d)) :=
  (dats m 0 c).leavesExact_idle 2 t (idle2_other t h) (Bool.eq_false_iff.mpr fun hf => h ((flush0_2 t).mp hf))
theorem leaves3_other (c : Dev nD) (t : Fin cfg0.N) (h : t.val % 4 ≠ 3) :
    (dats m 0 c).leavesExact 3 t = iprop(∃ d, owns (c : Thread nD τ) (ms3 t) fullShare ((dats m 0 c).before 3 t d)) :=
  (dats m 0 c).leavesExact_idle 3 t (idle3_other t h) (Bool.eq_false_iff.mpr fun hf => h ((flush0_3 t).mp hf))
theorem leaves2_last (c : Dev nD) (t : Fin cfg0.N) (h : t.val % 4 = 3) :
    (dats m 0 c).leavesExact 2 t = owns (c : Thread nD τ) (ms2 t) fullShare ((dats m 0 c).after 2 t) := by
  unfold Dat.leavesExact; rw [idle2_last t h]
theorem leaves3_last (c : Dev nD) (t : Fin cfg0.N) (h : t.val % 4 = 3) :
    (dats m 0 c).leavesExact 3 t = owns (c : Thread nD τ) (ms3 t) fullShare ((dats m 0 c).after 3 t) := by
  unfold Dat.leavesExact; rw [idle3_last t h]

/-! ### What the last point of a batch stores is what the fixed run stores -/

theorem out2_eq (c : Dev nD) (t : Fin cfg0.N) (a7 : Vec F S2048x1 .f32) (a8 a9 : Vec F S1x4096 .f32) (a10 : Vec F S1x1 .f32)
    (hg : Good m c t.val ⟨a7, a8, a9, a10⟩) (h : t.val % 4 = 3) :
    k0_pay4 (nx10 a10 (nx7 a7 (iblk m c 0 t) (iblk m c 1 t)) (iblk m c 0 t)) = (dats m 0 c).after 2 t := by
  obtain ⟨e7, e8, e10, -⟩ := hg (by omega)
  rw [after0_2, canon_succ, h, stepSt_3]
  show k0_pay4 (nx10 a10 (nx7 a7 _ _) _) = k0_pay4 (nx10 _ (nx7 _ _ _) _)
  rw [show a7 = (canon m c t.val).a7 from e7, show a10 = (canon m c t.val).a10 from e10]

theorem out3_eq (c : Dev nD) (t : Fin cfg0.N) (a7 : Vec F S2048x1 .f32) (a8 a9 : Vec F S1x4096 .f32) (a10 : Vec F S1x1 .f32)
    (hg : Good m c t.val ⟨a7, a8, a9, a10⟩) (h : t.val % 4 = 3) :
    k0_pay5 (nx9 (grid0.coords t) a9 (iblk m c 1 t)) (nx8 (grid0.coords t) a8 (iblk m c 0 t) (iblk m c 1 t)) = (dats m 0 c).after 3 t := by
  have e9 := good_a9 m c t ⟨a7, a8, a9, a10⟩ hg (by omega)
  obtain ⟨e7, e8, e10, -⟩ := hg (by omega)
  rw [after0_3, canon_succ, h, stepSt_3]
  show k0_pay5 (nx9 _ a9 _) (nx8 _ a8 _ _) = k0_pay5 (nx9 _ _ _) (nx8 _ _ _ _)
  rw [show nx9 (grid0.coords t) a9 (iblk m c 1 t) = nx9 (grid0.coords t) (canon m c t.val).a9 (iblk m c 1 t) from e9, show a8 = (canon m c t.val).a8 from e8]

/-! ### The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point: the point's position in its batch selects the case; the invariant hands over the scratch
    buffers, the case's run gives them back one step on, and the agreement with the fixed run is kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_castSucc, Phi_succ, leaves0, leaves1]
  have hN : t.val < 64 := lt_of_lt_of_eq t.isLt (show cfg0.N = 64 from N_0)
  rcases (by omega : t.val % 4 = 0 ∨ t.val % 4 = 1 ∨ t.val % 4 = 2 ∨ t.val % 4 = 3) with h | h | h | h
  · rw [leaves2_other m c t (by omega), leaves3_other m c t (by omega)]
    unfold PhiK
    iintro ⟨⟨⟨%a7, %a8, %a9, %a10, %hg, HS0, HS1, HS2, HS3⟩, Hg⟩, Ho, ⟨%d0, H0⟩, ⟨%d1, H1⟩, H2, H3⟩
    iapply (runA c (grid0.coords t) _ _ _ _ _ _ _ _ _ _ _ _ _ _ _ _ ((hcnd0 t).mpr h) ((hcnd1 t).mpr (by omega)) (fun h' => by have := (hcnd2 t).mp h'; omega) (fun h' => by have := (hcnd3 t).mp h'; omega) (iblk m c 0 t) (iblk m c 1 t) a7 a8 a9 a10 Set.univ _)
    isplitl [H0]; · iexact H0
    isplitl [H1]; · iexact H1
    isplitl [HS0]; · iexact HS0
    isplitl [HS1]; · iexact HS1
    isplitl [HS2]; · iexact HS2
    isplitl [HS3]; · iexact HS3
    iintro ⟨H0, H1, HS0, HS1, HS2, HS3⟩
    isplitl [HS0 HS1 HS2 HS3 Hg]
    · isplitl [HS0 HS1 HS2 HS3]
      · iexists (nx7 k0_pay8 (iblk m c 0 t) (iblk m c 1 t)), (nx8 (grid0.coords t) k0_pay6 (iblk m c 0 t) (iblk m c 1 t)), (nx9 (grid0.coords t) a9 (iblk m c 1 t)), (k0_pay7)
        isplitr
        · ipureintro
          have hs := good_step m c t ⟨a7, a8, a9, a10⟩ hg
          rw [h, stepSt_0] at hs
          exact hs
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    iexact H3
  · rw [leaves2_other m c t (by omega), leaves3_other m c t (by omega)]
    unfold PhiK
    iintro ⟨⟨⟨%a7, %a8, %a9, %a10, %hg, HS0, HS1, HS2, HS3⟩, Hg⟩, Ho, ⟨%d0, H0⟩, ⟨%d1, H1⟩, H2, H3⟩
    iapply (runB c (grid0.coords t) _ _ _ _ _ _ _ _ _ _ _ _ _ _ _ _ (fun h' => by have := (hcnd0 t).mp h'; omega) (fun h' => by have := (hcnd1 t).mp h'; omega) ((hcnd2 t).mpr (by omega)) (fun h' => by have := (hcnd3 t).mp h'; omega) (iblk m c 0 t) (iblk m c 1 t) a7 a8 a9 a10 Set.univ _)
    isplitl [H0]; · iexact H0
    isplitl [H1]; · iexact H1
    isplitl [HS0]; · iexact HS0
    isplitl [HS1]; · iexact HS1
    isplitl [HS2]; · iexact HS2
    isplitl [HS3]; · iexact HS3
    iintro ⟨H0, H1, HS0, HS1, HS2, HS3⟩
    isplitl [HS0 HS1 HS2 HS3 Hg]
    · isplitl [HS0 HS1 HS2 HS3]
      · iexists (nx7 a7 (iblk m c 0 t) (iblk m c 1 t)), (nx8 (grid0.coords t) a8 (iblk m c 0 t) (iblk m c 1 t)), (nx9 (grid0.coords t) a9 (iblk m c 1 t)), (nx10 a10 (nx7 a7 (iblk m c 0 t) (iblk m c 1 t)) (iblk m c 0 t))
        isplitr
        · ipureintro
          have hs := good_step m c t ⟨a7, a8, a9, a10⟩ hg
          rw [h, stepSt_1] at hs
          exact hs
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    iexact H3
  · rw [leaves2_other m c t (by omega), leaves3_other m c t (by omega)]
    unfold PhiK
    iintro ⟨⟨⟨%a7, %a8, %a9, %a10, %hg, HS0, HS1, HS2, HS3⟩, Hg⟩, Ho, ⟨%d0, H0⟩, ⟨%d1, H1⟩, H2, H3⟩
    iapply (runC c (grid0.coords t) _ _ _ _ _ _ _ _ _ _ _ _ _ _ _ _ (fun h' => by have := (hcnd0 t).mp h'; omega) ((hcnd1 t).mpr (by omega)) (fun h' => by have := (hcnd2 t).mp h'; omega) (fun h' => by have := (hcnd3 t).mp h'; omega) (iblk m c 0 t) (iblk m c 1 t) a7 a8 a9 a10 Set.univ _)
    isplitl [H0]; · iexact H0
    isplitl [H1]; · iexact H1
    isplitl [HS0]; · iexact HS0
    isplitl [HS1]; · iexact HS1
    isplitl [HS2]; · iexact HS2
    isplitl [HS3]; · iexact HS3
    iintro ⟨H0, H1, HS0, HS1, HS2, HS3⟩
    isplitl [HS0 HS1 HS2 HS3 Hg]
    · isplitl [HS0 HS1 HS2 HS3]
      · iexists (nx7 k0_pay8 (iblk m c 0 t) (iblk m c 1 t)), (nx8 (grid0.coords t) a8 (iblk m c 0 t) (iblk m c 1 t)), (nx9 (grid0.coords t) a9 (iblk m c 1 t)), (a10)
        isplitr
        · ipureintro
          have hs := good_step m c t ⟨a7, a8, a9, a10⟩ hg
          rw [h, stepSt_2] at hs
          exact hs
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    iexact H3
  · rw [leaves2_last m c t h, leaves3_last m c t h]
    unfold PhiK
    iintro ⟨⟨⟨%a7, %a8, %a9, %a10, %hg, HS0, HS1, HS2, HS3⟩, Hg⟩, Ho, ⟨%d0, H0⟩, ⟨%d1, H1⟩, ⟨%d2, H2⟩, ⟨%d3, H3⟩⟩
    iapply (runD c (grid0.coords t) _ _ _ _ _ _ _ _ _ _ _ _ _ _ _ _ (fun h' => by have := (hcnd0 t).mp h'; omega) (fun h' => by have := (hcnd1 t).mp h'; omega) ((hcnd2 t).mpr (by omega)) ((hcnd3 t).mpr h) (iblk m c 0 t) (iblk m c 1 t) a7 a8 a9 a10 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · isplitl [HS0 HS1 HS2 HS3]
      · iexists (nx7 a7 (iblk m c 0 t) (iblk m c 1 t)), (nx8 (grid0.coords t) a8 (iblk m c 0 t) (iblk m c 1 t)), (nx9 (grid0.coords t) a9 (iblk m c 1 t)), (nx10 a10 (nx7 a7 (iblk m c 0 t) (iblk m c 1 t)) (iblk m c 0 t))
        isplitr
        · ipureintro
          have hs := good_step m c t ⟨a7, a8, a9, a10⟩ hg
          rw [h, stepSt_3] at hs
          exact hs
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]
    · rw [← out2_eq m c t a7 a8 a9 a10 hg h]; iexact H2
    rw [← out3_eq m c t a7 a8 a9 a10 hg h]; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiK m c 0 from rfl, PhiA_eq]
  unfold PhiK
  iintro ⟨⟨⟨%d7, H7⟩, ⟨%d8, H8⟩, ⟨%d9, H9⟩, ⟨%d10, H10⟩⟩, Hg⟩
  isplitl [H7 H8 H9 H10]
  · iexists d7, d8, d9, d10
    isplitr
    · ipureintro; exact fun h => absurd rfl h
    isplitl [H7]; · iexact H7
    isplitl [H8]; · iexact H8
    isplitl [H9]; · iexact H9
    iexact H10
  iexact Hg

/-- After the last point the invariant gives back what the launch handed over. -/
theorem hout (c : Dev nD) : (dats m 0 c).Φ (Fin.last cfg0.N) ⊢ Pipeline.ΦA spec0 c := by
  rw [show (dats m 0 c).Φ (Fin.last cfg0.N) = PhiK m c (Fin.last cfg0.N).val from rfl, PhiA_eq]
  unfold PhiK
  iintro ⟨⟨%a7, %a8, %a9, %a10, -, H7, H8, H9, H10⟩, Hg⟩
  isplitl [H7 H8 H9 H10]
  · isplitl [H7]; · iexists _; iexact H7
    isplitl [H8]; · iexists _; iexact H8
    isplitl [H9]; · iexists _; iexact H9
    iexists _; iexact H10
  iexact Hg

/-! ### The run and the frame -/

/-- Every weakly fair execution of @main terminates with every array of the pipeline at what the library computes from the
    proof data, and every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Gen

end
-- ==== Proof.KStep.lean ====
import proofs.«114531_j51814485459453_2_alg».proof.Proof.Gen.KernelIdeal.Frame
import proofs.«114531_j51814485459453_2_alg».proof.Proof.Gen.KernelIdeal.Skeleton
import Idealize.ShloMosaic.Lib.WritesUnit
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through whole buffers and through half rows, read as values

A buffer held whole reads back, through the rectangle of all its indices, what it holds; a store through that
rectangle leaves its payload whatever was stored before; a store through the rectangle of one half of a
[1, 4096] row replaces that half and keeps the other. -/

theorem zero2 : (![0, 0] : Fin 2 → ℕ) = fun _ => 0 := by funext a; fin_cases a <;> rfl
theorem zero3 : (![0, 0, 0] : Fin 3 → ℕ) = fun _ => 0 := by funext a; fin_cases a <;> rfl

section Whole

variable {κ : Kind} {sp : Space} {S : Shape} {e : EltTy}

/-- A whole buffer read through the rectangle of all its indices. -/
theorem readAt_whole (M : Memref sig κ sp S e) (hM : M.IsWhole) {off : Fin S.rank → ℕ} (h : off = fun _ => 0)
    (inb : ∀ a, off a + S.size a ≤ S.size a) (x : S.Idx → Elt F e) :
    View.readAt (Elt F) M.view (Rect.unit off S.size inb).toLoadRect (hM.unread x) = x := by
  rw [View.readAt_eq_ld, hM.read_unread, View.ld_unit_zero h inb]

/-- The last store through the rectangle of all indices is what the buffer then reads. -/
theorem read_writes_last_whole (v : View sig κ sp S e) (f : v.ty.Contents (Elt F)) {off : Fin S.rank → ℕ}
    (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

/-- A load of everything after such a store reads the payload. -/
theorem readAt_writes_last_whole (v : View sig κ sp S e) (f : v.ty.Contents (Elt F)) {off : Fin S.rank → ℕ}
    (h : off = fun _ => 0) (inb : ∀ a, off a + S.size a ≤ S.size a) (w : S.Idx → Elt F e)
    (L : List (View.Piece (Elt F) S e)) :
    View.readAt (Elt F) v (Rect.unit off S.size inb).toLoadRect
      (v.writes (Elt F) f ((⟨Rect.unit off S.size inb, w⟩ : View.Piece (Elt F) S e) :: L)) = w := by
  rw [View.readAt_eq_ld, read_writes_last_whole v f h inb, View.ld_unit_zero h inb]

end Whole

/-- A load through the rectangle of all indices reads what the buffer holds. -/
theorem readAt_all {κ : Kind} {sp : Space} {S : Shape} {e : EltTy} (v : View sig κ sp S e) {off : Fin S.rank → ℕ} (h : off = fun _ => 0)
    (inb : ∀ a, off a + S.size a ≤ S.size a) (g : v.ty.Contents (Elt F)) :
    View.readAt (Elt F) v (Rect.unit off S.size inb).toLoadRect g = v.read (Elt F) g := by
  rw [View.readAt_eq_ld, View.ld_unit_zero h inb]

/-! ## The half row a point works on -/

/-- The offsets of the half of a [1, 4096] row the point's second block covers, as the body's integer words give them:
    column 2048 times the point's last coordinate. -/
abbrev hOff (i : grid0.Coords) : Fin 2 → ℕ :=
  ![0, BitVec.toNat (Scalar.indexCast (Scalar.muli (BitVec.ofNat 32 (i 2).val) 2048#32))]

/-- The half lies inside the row. -/
theorem hOff_inb (i : grid0.Coords) : ∀ a : Fin 2, hOff i a + (![1, 2048] : Fin 2 → ℕ) a ≤ S1x4096.size a := k0_off1_inb i

/-- The half of a [1, 4096] row the point's second block covers, read out. -/
def getHalf (i : grid0.Coords) (d : Vec F S1x4096 .f32) : Vec F S1x2048 .f32 :=
  View.ld d (Rect.unit (s := S1x4096) (hOff i) ![1, 2048] (hOff_inb i))

/-- A [1, 4096] row with that half replaced. -/
def setHalf (i : grid0.Coords) (d : Vec F S1x4096 .f32) (p : Vec F S1x2048 .f32) : Vec F S1x4096 .f32 := fun y =>
  if h : ∀ a, hOff i a ≤ (y a).val ∧ (y a).val < hOff i a + (![1, 2048] : Fin 2 → ℕ) a then
    p (Rect.unitLocal (s := S1x4096) (off := hOff i) (size := ![1, 2048]) y h)
  else d y

/-- A store through the half's rectangle replaces the half of what the earlier stores left. -/
theorem read_writes_half {κ : Kind} {sp : Space} (v : View sig κ sp S1x4096 .f32) (f : v.ty.Contents (Elt F)) (i : grid0.Coords)
    (w : Vec F S1x2048 .f32) (L : List (View.Piece (Elt F) S1x4096 .f32)) :
    v.read (Elt F) (v.writes (Elt F) f ((⟨Rect.unit (s := S1x4096) (hOff i) ![1, 2048] (hOff_inb i), w⟩ : View.Piece (Elt F) S1x4096 .f32) :: L))
      = setHalf i (v.read (Elt F) (v.writes (Elt F) f L)) w := by
  funext y
  rw [View.read_writes_cons_unit v f (hOff_inb i) w L y rfl]
  rfl

/-- A load of the half reads the half of what the buffer holds. -/
theorem readAt_half {κ : Kind} {sp : Space} (v : View sig κ sp S1x4096 .f32) (f : v.ty.Contents (Elt F)) (i : grid0.Coords) :
    View.readAt (Elt F) v (Rect.unit (s := S1x4096) (hOff i) ![1, 2048] (hOff_inb i)).toLoadRect f
      = getHalf i (v.read (Elt F) f) := rfl

/-! ## What one point leaves in the four scratch buffers

`b7`, `b8`, `b10` are what the running row minimum, the running column minimum and the running sum hold when the
point's arithmetic starts (what the point before left, or the reset value at a point that resets them). -/

/-- The running row minimum after the point: the minimum of what it held and the tile's row minima. -/
def nx7 (b7 : Vec F S2048x1 .f32) (x0 : Vec F S1x2048x64 .f32) (x1 : Vec F S1x64x2048 .f32) : Vec F S2048x1 .f32 :=
  k0_pay1 (k0_pay15 x0 x1) b7

/-- The running column minimum after the point: its half replaced by the minimum of the half and the tile's column minima. -/
def nx8 (i : grid0.Coords) (b8 : Vec F S1x4096 .f32) (x0 : Vec F S1x2048x64 .f32) (x1 : Vec F S1x64x2048 .f32) : Vec F S1x4096 .f32 :=
  setHalf i b8 (k0_pay2 (k0_pay11 x0) (k0_pay14 x0 x1) (getHalf i b8))

/-- The row of squared norms of the second cloud after the point: its half replaced by the block's. -/
def nx9 (i : grid0.Coords) (b9 : Vec F S1x4096 .f32) (x1 : Vec F S1x64x2048 .f32) : Vec F S1x4096 .f32 :=
  setHalf i b9 (k0_pay13 x1)

/-- The running sum after a point that adds its rows' clamped distances. -/
def nx10 (b10 : Vec F S1x1 .f32) (n7 : Vec F S2048x1 .f32) (x0 : Vec F S1x2048x64 .f32) : Vec F S1x1 .f32 :=
  k0_pay3 (k0_pay11 x0) n7 b10

end Cert.KernelIdeal.Gen

end
-- ==== Proof.KCond.lean ====
import proofs.«114531_j51814485459453_2_alg».proof.Proof.KStep

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions

Over the grid 16 × 2 × 2 (batch, row tile, column tile), point `t = 4·batch + 2·row tile + column tile`: the first
condition holds at the first point of a batch, the second at the first column tile, the third at the last column
tile, the fourth at the last point of a batch. -/

abbrev cnd0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev cnd1 (i : grid0.Coords) : Prop := (Scalar.cmpi .ne (Scalar.extui (Scalar.cmpi .eq (BitVec.ofNat 32 (i 2).val) 0#32)) 0#32) = 1#1
abbrev cnd2 (i : grid0.Coords) : Prop := (Scalar.cmpi .ne (Scalar.extui (Scalar.cmpi .eq (BitVec.ofNat 32 (i 2).val) 1#32)) 0#32) = 1#1
abbrev cnd3 (i : grid0.Coords) : Prop := k0_cond4 i = 1#1

theorem hcnd0 : ∀ t : Fin cfg0.N, cnd0 (grid0.coords t) ↔ t.val % 4 = 0 :=
  (by decide +kernel : ∀ t : Fin grid0.N, cnd0 (grid0.coords t) ↔ t.val % 4 = 0)
theorem hcnd1 : ∀ t : Fin cfg0.N, cnd1 (grid0.coords t) ↔ t.val % 2 = 0 :=
  (by decide +kernel : ∀ t : Fin grid0.N, cnd1 (grid0.coords t) ↔ t.val % 2 = 0)
theorem hcnd2 : ∀ t : Fin cfg0.N, cnd2 (grid0.coords t) ↔ t.val % 2 = 1 :=
  (by decide +kernel : ∀ t : Fin grid0.N, cnd2 (grid0.coords t) ↔ t.val % 2 = 1)
theorem hcnd3 : ∀ t : Fin cfg0.N, cnd3 (grid0.coords t) ↔ t.val % 4 = 3 :=
  (by decide +kernel : ∀ t : Fin grid0.N, cnd3 (grid0.coords t) ↔ t.val % 4 = 3)

/-- The half a point works on starts at column 2048 times its column tile. -/
theorem hOff_coords : ∀ t : Fin cfg0.N, hOff (grid0.coords t) 1 = 2048 * (t.val % 2) :=
  (by decide +kernel : ∀ t : Fin grid0.N, hOff (grid0.coords t) 1 = 2048 * (t.val % 2))

end Cert.KernelIdeal.Gen

end
-- ==== Proof.KRunA.lean ====
import proofs.«114531_j51814485459453_2_alg».proof.Proof.KCond

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first point of a batch

Both resets are taken: the running column minimum restarts at +∞ and the running sum at 0, the running row
minimum at +∞; nothing is added to the sum and no result is stored (the result buffers are not touched). -/

set_option maxHeartbeats 1000000 in
theorem runA (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x1 .f32) (harg10 : arg10.IsWhole) (hc0 : cnd0 i) (hc1 : cnd1 i) (hc2 : ¬cnd2 i) (hc3 : ¬cnd3 i)
    (x0 : Vec F S1x2048x64 .f32) (x1 : Vec F S1x64x2048 .f32) (xs7 : Vec F S2048x1 .f32) (xs8 : Vec F S1x4096 .f32) (xs9 : Vec F S1x4096 .f32) (xs10 : Vec F S1x1 .f32) (E : Set ℕ) (K : PUnit → sProp 𝕄) :
    iprop(owns (c : Thread nD τ) arg3 fullShare x0 ∗ owns (c : Thread nD τ) arg4 fullShare x1 ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg3 fullShare x0 ∗ owns (c : Thread nD τ) arg4 fullShare x1
            ∗ owns (c : Thread nD τ) arg7 fullShare (nx7 k0_pay8 x0 x1)
            ∗ owns (c : Thread nD τ) arg8 fullShare (nx8 i k0_pay6 x0 x1)
            ∗ owns (c : Thread nD τ) arg9 fullShare (nx9 i xs9 x1)
            ∗ owns (c : Thread nD τ) arg10 fullShare (k0_pay7)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    sl_unfold_words
    simp only [readAt_all (S := S1x2048x64) _ zero3, readAt_all (S := S1x64x2048) _ zero3, readAt_all (S := S2048x1) _ zero2, readAt_all (S := S1x4096) _ zero2, readAt_all (S := S1x1) _ zero2, readAt_all (S := S1x1x1) _ zero3,
      harg3.read_unread, harg4.read_unread, harg7.read_unread, harg8.read_unread, harg9.read_unread, harg10.read_unread,
      View.readCov_unit_zero (S := S2048x1) _ zero2, View.readCov_unit_zero (S := S1x1) _ zero2, View.readCov_unit_zero (S := S1x4096) _ zero2,
      readAt_half, read_writes_half, View.writes_nil, read_writes_last_whole (S := S1x4096) _ _ zero2]
    iapply Hk
    isplitl [H0]
    · iexists _; isplitr; · ipureintro; exact harg3.read_unread _
      iexact H0
    isplitl [H1]
    · iexists _; isplitr; · ipureintro; exact harg4.read_unread _
      iexact H1
    isplitl [HS0]
    · iexists _; isplitr; swap; · iexact HS0
      ipureintro; exact read_writes_last_whole (S := S2048x1) _ _ zero2 _ _ _
    isplitl [HS1]
    · iexists _; isplitr; swap; · iexact HS1
      ipureintro; exact (read_writes_half _ _ i _ _).trans (by rw [read_writes_last_whole (S := S1x4096) _ _ zero2]; rfl)
    isplitl [HS2]
    · iexists _; isplitr; swap; · iexact HS2
      ipureintro; exact (read_writes_half _ _ i _ []).trans (by rw [View.writes_nil, harg9.read_unread]; rfl)
    iexists _; isplitr; swap; · iexact HS3
    ipureintro; exact read_writes_last_whole (S := S1x1) _ _ zero2 _ _ _

end Cert.KernelIdeal.Gen

end
-- ==== Proof.KRunB.lean ====
import proofs.«114531_j51814485459453_2_alg».proof.Proof.KCond

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last column tile of a batch's first row tile

No reset is taken; the rows' clamped distances are added to the running sum; no result is stored. -/

set_option maxHeartbeats 1000000 in
theorem runB (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x1 .f32) (harg10 : arg10.IsWhole) (hc0 : ¬cnd0 i) (hc1 : ¬cnd1 i) (hc2 : cnd2 i) (hc3 : ¬cnd3 i)
    (x0 : Vec F S1x2048x64 .f32) (x1 : Vec F S1x64x2048 .f32) (xs7 : Vec F S2048x1 .f32) (xs8 : Vec F S1x4096 .f32) (xs9 : Vec F S1x4096 .f32) (xs10 : Vec F S1x1 .f32) (E : Set ℕ) (K : PUnit → sProp 𝕄) :
    iprop(owns (c : Thread nD τ) arg3 fullShare x0 ∗ owns (c : Thread nD τ) arg4 fullShare x1 ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg3 fullShare x0 ∗ owns (c : Thread nD τ) arg4 fullShare x1
            ∗ owns (c : Thread nD τ) arg7 fullShare (nx7 xs7 x0 x1)
            ∗ owns (c : Thread nD τ) arg8 fullShare (nx8 i xs8 x0 x1)
            ∗ owns (c : Thread nD τ) arg9 fullShare (nx9 i xs9 x1)
            ∗ owns (c : Thread nD τ) arg10 fullShare (nx10 xs10 (nx7 xs7 x0 x1) x0)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    sl_unfold_words
    simp only [readAt_all (S := S1x2048x64) _ zero3, readAt_all (S := S1x64x2048) _ zero3, readAt_all (S := S2048x1) _ zero2, readAt_all (S := S1x4096) _ zero2, readAt_all (S := S1x1) _ zero2, readAt_all (S := S1x1x1) _ zero3,
      harg3.read_unread, harg4.read_unread, harg7.read_unread, harg8.read_unread, harg9.read_unread, harg10.read_unread,
      View.readCov_unit_zero (S := S2048x1) _ zero2, View.readCov_unit_zero (S := S1x1) _ zero2, View.readCov_unit_zero (S := S1x4096) _ zero2,
      readAt_half, read_writes_half, View.writes_nil, read_writes_last_whole (S := S1x4096) _ _ zero2]
    iapply Hk
    isplitl [H0]
    · iexists _; isplitr; · ipureintro; exact harg3.read_unread _
      iexact H0
    isplitl [H1]
    · iexists _; isplitr; · ipureintro; exact harg4.read_unread _
      iexact H1
    isplitl [HS0]
    · iexists _; isplitr; swap; · iexact HS0
      ipureintro; exact read_writes_last_whole (S := S2048x1) _ _ zero2 _ _ _
    isplitl [HS1]
    · iexists _; isplitr; swap; · iexact HS1
      ipureintro; exact (read_writes_half _ _ i _ []).trans (by rw [View.writes_nil, harg8.read_unread]; rfl)
    isplitl [HS2]
    · iexists _; isplitr; swap; · iexact HS2
      ipureintro; exact (read_writes_half _ _ i _ []).trans (by rw [View.writes_nil, harg9.read_unread]; rfl)
    iexists _; isplitr; swap; · iexact HS3
    ipureintro; exact read_writes_last_whole (S := S1x1) _ _ zero2 _ _ _

end Cert.KernelIdeal.Gen

end
-- ==== Proof.KRunC.lean ====
import proofs.«114531_j51814485459453_2_alg».proof.Proof.KCond

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first column tile of a batch's second row tile

Only the running row minimum restarts at +∞; nothing is added to the sum and no result is stored. -/

set_option maxHeartbeats 1000000 in
theorem runC (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x1 .f32) (harg10 : arg10.IsWhole) (hc0 : ¬cnd0 i) (hc1 : cnd1 i) (hc2 : ¬cnd2 i) (hc3 : ¬cnd3 i)
    (x0 : Vec F S1x2048x64 .f32) (x1 : Vec F S1x64x2048 .f32) (xs7 : Vec F S2048x1 .f32) (xs8 : Vec F S1x4096 .f32) (xs9 : Vec F S1x4096 .f32) (xs10 : Vec F S1x1 .f32) (E : Set ℕ) (K : PUnit → sProp 𝕄) :
    iprop(owns (c : Thread nD τ) arg3 fullShare x0 ∗ owns (c : Thread nD τ) arg4 fullShare x1 ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg3 fullShare x0 ∗ owns (c : Thread nD τ) arg4 fullShare x1
            ∗ owns (c : Thread nD τ) arg7 fullShare (nx7 k0_pay8 x0 x1)
            ∗ owns (c : Thread nD τ) arg8 fullShare (nx8 i xs8 x0 x1)
            ∗ owns (c : Thread nD τ) arg9 fullShare (nx9 i xs9 x1)
            ∗ owns (c : Thread nD τ) arg10 fullShare (xs10)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    sl_unfold_words
    simp only [readAt_all (S := S1x2048x64) _ zero3, readAt_all (S := S1x64x2048) _ zero3, readAt_all (S := S2048x1) _ zero2, readAt_all (S := S1x4096) _ zero2, readAt_all (S := S1x1) _ zero2, readAt_all (S := S1x1x1) _ zero3,
      harg3.read_unread, harg4.read_unread, harg7.read_unread, harg8.read_unread, harg9.read_unread, harg10.read_unread,
      View.readCov_unit_zero (S := S2048x1) _ zero2, View.readCov_unit_zero (S := S1x1) _ zero2, View.readCov_unit_zero (S := S1x4096) _ zero2,
      readAt_half, read_writes_half, View.writes_nil, read_writes_last_whole (S := S1x4096) _ _ zero2]
    iapply Hk
    isplitl [H0]
    · iexists _; isplitr; · ipureintro; exact harg3.read_unread _
      iexact H0
    isplitl [H1]
    · iexists _; isplitr; · ipureintro; exact harg4.read_unread _
      iexact H1
    isplitl [HS0]
    · iexists _; isplitr; swap; · iexact HS0
      ipureintro; exact read_writes_last_whole (S := S2048x1) _ _ zero2 _ _ _
    isplitl [HS1]
    · iexists _; isplitr; swap; · iexact HS1
      ipureintro; exact (read_writes_half _ _ i _ []).trans (by rw [View.writes_nil, harg8.read_unread]; rfl)
    isplitl [HS2]
    · iexists _; isplitr; swap; · iexact HS2
      ipureintro; exact (read_writes_half _ _ i _ []).trans (by rw [View.writes_nil, harg9.read_unread]; rfl)
    iexists _; isplitr; swap; · iexact HS3
    ipureintro; exact harg10.read_unread _

end Cert.KernelIdeal.Gen

end
-- ==== Proof.KRunD.lean ====
import proofs.«114531_j51814485459453_2_alg».proof.Proof.KCond

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last point of a batch

Neither reset is taken; the rows' clamped distances are added to the running sum, and both results are stored:
the running sum, and the sum of the clamped column distances. -/

set_option maxHeartbeats 1000000 in
theorem runD (c : Dev nD) (i : grid0.Coords) (arg3 : Memref sig .tc .vmem S1x2048x64 .f32) (harg3 : arg3.IsWhole) (arg4 : Memref sig .tc .vmem S1x64x2048 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S2048x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x1 .f32) (harg10 : arg10.IsWhole) (hc0 : ¬cnd0 i) (hc1 : ¬cnd1 i) (hc2 : cnd2 i) (hc3 : cnd3 i)
    (x0 : Vec F S1x2048x64 .f32) (x1 : Vec F S1x64x2048 .f32) (xs7 : Vec F S2048x1 .f32) (xs8 : Vec F S1x4096 .f32) (xs9 : Vec F S1x4096 .f32) (xs10 : Vec F S1x1 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg3 fullShare x0 ∗ owns (c : Thread nD τ) arg4 fullShare x1
            ∗ owns (c : Thread nD τ) arg5 fullShare (k0_pay4 (nx10 xs10 (nx7 xs7 x0 x1) x0))
            ∗ owns (c : Thread nD τ) arg6 fullShare (k0_pay5 (nx9 i xs9 x1) (nx8 i xs8 x0 x1))
            ∗ owns (c : Thread nD τ) arg7 fullShare (nx7 xs7 x0 x1)
            ∗ owns (c : Thread nD τ) arg8 fullShare (nx8 i xs8 x0 x1)
            ∗ owns (c : Thread nD τ) arg9 fullShare (nx9 i xs9 x1)
            ∗ owns (c : Thread nD τ) arg10 fullShare (nx10 xs10 (nx7 xs7 x0 x1) x0)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    sl_unfold_words
    simp only [readAt_all (S := S1x2048x64) _ zero3, readAt_all (S := S1x64x2048) _ zero3, readAt_all (S := S2048x1) _ zero2, readAt_all (S := S1x4096) _ zero2, readAt_all (S := S1x1) _ zero2, readAt_all (S := S1x1x1) _ zero3,
      harg3.read_unread, harg4.read_unread, harg7.read_unread, harg8.read_unread, harg9.read_unread, harg10.read_unread,
      View.readCov_unit_zero (S := S2048x1) _ zero2, View.readCov_unit_zero (S := S1x1) _ zero2, View.readCov_unit_zero (S := S1x4096) _ zero2,
      readAt_half, read_writes_half, View.writes_nil]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro; exact read_writes_last_whole (S := S1x1x1) _ _ zero3 _ _ _
    isplitl [H3]
    · iexists _; isplitr; swap; · iexact H3
      ipureintro; exact read_writes_last_whole (S := S1x1x1) _ _ zero3 _ _ _
    isplitl [HS0]
    · iexists _; isplitr; swap; · iexact HS0
      ipureintro; exact read_writes_last_whole (S := S2048x1) _ _ zero2 _ _ _
    isplitl [HS1]
    · iexists _; isplitr; swap; · iexact HS1
      ipureintro; exact (read_writes_half _ _ i _ []).trans (by rw [View.writes_nil, harg8.read_unread]; rfl)
    isplitl [HS2]
    · iexists _; isplitr; swap; · iexact HS2
      ipureintro; exact (read_writes_half _ _ i _ []).trans (by rw [View.writes_nil, harg9.read_unread]; rfl)
    iexists _; isplitr; swap; · iexact HS3
    ipureintro; exact read_writes_last_whole (S := S1x1) _ _ zero2 _ _ _

end Cert.KernelIdeal.Gen

end
-- ==== Proof.KState.lean ====
import proofs.«114531_j51814485459453_2_alg».proof.Proof.KCond

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The scratch buffers point by point

What the four scratch buffers hold is followed along the grid: `stepSt` is one point's effect, `canon` the run
from fixed starting contents.  The real run starts from contents nobody knows; but the first point of the grid
resets the two running minima and the running sum, and every point overwrites the half of the norm row it
later reads, so from the second point on the real contents agree with `canon` wherever they are read (`Good`). -/

/-- The contents of the four scratch buffers: running row minimum, running column minimum, the second cloud's row of
    squared norms, running sum. -/
structure St (F : FTy → Type) [FloatOps F] where
  a7 : Vec F S2048x1 .f32
  a8 : Vec F S1x4096 .f32
  a9 : Vec F S1x4096 .f32
  a10 : Vec F S1x1 .f32

/-- One point's effect, `r` the point's position within its batch (0 to 3). -/
def stepSt (r : ℕ) (i : grid0.Coords) (x0 : Vec F S1x2048x64 .f32) (x1 : Vec F S1x64x2048 .f32) (s : St F) : St F :=
  ⟨nx7 (if r % 2 = 0 then k0_pay8 else s.a7) x0 x1,
   nx8 i (if r = 0 then k0_pay6 else s.a8) x0 x1,
   nx9 i s.a9 x1,
   if r % 2 = 1 then nx10 (if r = 0 then k0_pay7 else s.a10) (nx7 (if r % 2 = 0 then k0_pay8 else s.a7) x0 x1) x0
   else (if r = 0 then k0_pay7 else s.a10)⟩

theorem stepSt_0 (i : grid0.Coords) (x0 : Vec F S1x2048x64 .f32) (x1 : Vec F S1x64x2048 .f32) (s : St F) :
    stepSt 0 i x0 x1 s = ⟨nx7 k0_pay8 x0 x1, nx8 i k0_pay6 x0 x1, nx9 i s.a9 x1, k0_pay7⟩ := rfl
theorem stepSt_1 (i : grid0.Coords) (x0 : Vec F S1x2048x64 .f32) (x1 : Vec F S1x64x2048 .f32) (s : St F) :
    stepSt 1 i x0 x1 s = ⟨nx7 s.a7 x0 x1, nx8 i s.a8 x0 x1, nx9 i s.a9 x1, nx10 s.a10 (nx7 s.a7 x0 x1) x0⟩ := rfl
theorem stepSt_2 (i : grid0.Coords) (x0 : Vec F S1x2048x64 .f32) (x1 : Vec F S1x64x2048 .f32) (s : St F) :
    stepSt 2 i x0 x1 s = ⟨nx7 k0_pay8 x0 x1, nx8 i s.a8 x0 x1, nx9 i s.a9 x1, s.a10⟩ := rfl
theorem stepSt_3 (i : grid0.Coords) (x0 : Vec F S1x2048x64 .f32) (x1 : Vec F S1x64x2048 .f32) (s : St F) :
    stepSt 3 i x0 x1 s = ⟨nx7 s.a7 x0 x1, nx8 i s.a8 x0 x1, nx9 i s.a9 x1, nx10 s.a10 (nx7 s.a7 x0 x1) x0⟩ := rfl

/-- The run from fixed starting contents. -/
def canon (c : Dev nD) : ℕ → St F
  | 0 => ⟨k0_pay8, k0_pay6, k0_pay6, k0_pay7⟩
  | k + 1 =>
    if h : k < cfg0.N then
      stepSt (k % 4) (grid0.coords ⟨k, h⟩) (iblk m c 0 ⟨k, h⟩) (iblk m c 1 ⟨k, h⟩) (canon c k)
    else canon c k

theorem canon_succ (c : Dev nD) (t : Fin cfg0.N) :
    canon m c (t.val + 1) = stepSt (t.val % 4) (grid0.coords t) (iblk m c 0 t) (iblk m c 1 t) (canon m c t.val) := by
  show (if h : t.val < cfg0.N then _ else _) = _
  rw [dif_pos t.isLt]

/-- Before point `k` the real contents `s` agree with the fixed run where they will be read: from the second point on,
    the two running minima and the running sum entirely, and after a point of column tile 0 the first half of the norm row. -/
def Good (c : Dev nD) (k : ℕ) (s : St F) : Prop :=
  k ≠ 0 → s.a7 = (canon m c k).a7 ∧ s.a8 = (canon m c k).a8 ∧ s.a10 = (canon m c k).a10 ∧
    (k % 2 = 1 → ∀ y : S1x4096.Idx, (y 1).val < 2048 → s.a9 y = (canon m c k).a9 y)

/-- Inside the half, the replaced row reads the new half. -/
theorem setHalf_of_mem (i : grid0.Coords) (d d' : Vec F S1x4096 .f32) (p : Vec F S1x2048 .f32) (y : S1x4096.Idx)
    (h : ∀ a, hOff i a ≤ (y a).val ∧ (y a).val < hOff i a + (![1, 2048] : Fin 2 → ℕ) a) : setHalf i d p y = setHalf i d' p y := by
  unfold setHalf; rw [dif_pos h, dif_pos h]

/-- Outside the half, it reads the old row. -/
theorem setHalf_of_not_mem (i : grid0.Coords) (d : Vec F S1x4096 .f32) (p : Vec F S1x2048 .f32) (y : S1x4096.Idx)
    (h : ¬∀ a, hOff i a ≤ (y a).val ∧ (y a).val < hOff i a + (![1, 2048] : Fin 2 → ℕ) a) : setHalf i d p y = d y := by
  unfold setHalf; rw [dif_neg h]

/-- Membership in the half a point works on, by the column alone. -/
theorem mem_half_iff (t : Fin cfg0.N) (y : S1x4096.Idx) :
    (∀ a, hOff (grid0.coords t) a ≤ (y a).val ∧ (y a).val < hOff (grid0.coords t) a + (![1, 2048] : Fin 2 → ℕ) a)
      ↔ 2048 * (t.val % 2) ≤ (y 1).val ∧ (y 1).val < 2048 * (t.val % 2) + 2048 := by
  rw [Fin.forall_fin_two, hOff_coords t]
  have h0 : (y 0).val < 1 := (y 0).isLt
  constructor
  · rintro ⟨-, h⟩; exact h
  · intro h; exact ⟨⟨Nat.zero_le _, by show (y 0).val < 0 + 1; omega⟩, h⟩

/-- One point keeps the agreement. -/
theorem good_step (c : Dev nD) (t : Fin cfg0.N) (s : St F) (hg : Good m c t.val s) :
    Good m c (t.val + 1) (stepSt (t.val % 4) (grid0.coords t) (iblk m c 0 t) (iblk m c 1 t) s) := by
  intro _
  rw [canon_succ]
  by_cases hz : t.val = 0
  · have h4 : t.val % 4 = 0 := by rw [hz]
    rw [h4, stepSt_0, stepSt_0]
    refine ⟨rfl, rfl, rfl, fun _ y hy => ?_⟩
    exact setHalf_of_mem _ _ _ _ y ((mem_half_iff t y).mpr (by rw [hz]; simpa using hy))
  · obtain ⟨e7, e8, e10, e9⟩ := hg hz
    refine ⟨?_, ?_, ?_, fun h2 y hy => ?_⟩
    · show nx7 _ _ _ = nx7 _ _ _; rw [e7]
    · show nx8 _ _ _ _ = nx8 _ _ _ _; rw [e8]
    · show (if _ then _ else _) = (if _ then _ else _); rw [e7, e10]
    · show setHalf _ _ _ y = setHalf _ _ _ y
      exact setHalf_of_mem _ _ _ _ y ((mem_half_iff t y).mpr (by omega))

/-- At a point of column tile 1 the whole norm row comes out as in the fixed run: the half written now, and the half the
    point before wrote. -/
theorem good_a9 (c : Dev nD) (t : Fin cfg0.N) (s : St F) (hg : Good m c t.val s) (h2 : t.val % 2 = 1) :
    nx9 (grid0.coords t) s.a9 (iblk m c 1 t) = nx9 (grid0.coords t) (canon m c t.val).a9 (iblk m c 1 t) := by
  funext y
  by_cases hy : ∀ a, hOff (grid0.coords t) a ≤ (y a).val ∧ (y a).val < hOff (grid0.coords t) a + (![1, 2048] : Fin 2 → ℕ) a
  · exact setHalf_of_mem _ _ _ _ y hy
  · unfold nx9
    rw [setHalf_of_not_mem _ _ _ y hy, setHalf_of_not_mem _ _ _ y hy]
    have hlt : (y 1).val < 2048 := by
      have := (mem_half_iff t y).not.mp hy
      have h1 : (y 1).val < 4096 := (y 1).isLt
      omega
    exact (hg (by omega)).2.2.2 h2 y hlt

end Cert.KernelIdeal.Gen

end
-- ==== Proof.KBody.lean ====
import proofs.«114531_j51814485459453_2_alg».proof.Proof.KRunA
import proofs.«114531_j51814485459453_2_alg».proof.Proof.KRunB
import proofs.«114531_j51814485459453_2_alg».proof.Proof.KRunC
import proofs.«114531_j51814485459453_2_alg».proof.Proof.KRunD
import proofs.«114531_j51814485459453_2_alg».proof.Proof.KState

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the one pipeline, the body at every point, the run

The two inputs' staging buffers hold their blocks; the two results' buffers hold, after the last point of a batch,
the running sum and the sum of the clamped column distances of the fixed run (`canon`); the region's invariant
holds the four scratch buffers at contents agreeing with the fixed run where they are read (`Good`). -/

/-- The scratch buffers, whole. -/
abbrev scM7 : Memref sig .tc .vmem S2048x1 .f32 := Memref.whole cc0_scratch0
abbrev scM8 : Memref sig .tc .vmem S1x4096 .f32 := Memref.whole cc0_scratch1
abbrev scM9 : Memref sig .tc .vmem S1x4096 .f32 := Memref.whole cc0_scratch2
abbrev scM10 : Memref sig .tc .vmem S1x1 .f32 := Memref.whole cc0_scratch3
/-- Each window's current staging buffer at a point. -/
abbrev ms0 (t : Fin cfg0.N) : Memref sig .tc .vmem S1x2048x64 .f32 := win0_0.stage (cfg0.slots t 0)
abbrev ms1 (t : Fin cfg0.N) : Memref sig .tc .vmem S1x64x2048 .f32 := win0_1.stage (cfg0.slots t 1)
abbrev ms2 (t : Fin cfg0.N) : Memref sig .tc .vmem S1x1x1 .f32 := win0_2.stage (cfg0.slots t 2)
abbrev ms3 (t : Fin cfg0.N) : Memref sig .tc .vmem S1x1x1 .f32 := win0_3.stage (cfg0.slots t 3)

/-- What the launch hands the region: the scratch buffers at some contents and the generator register at some state. -/
theorem PhiA_eq (c : Dev nD) :
    (Pipeline.ΦA spec0 c : sProp 𝕄)
      = iprop(iprop((∃ d, owns (c : Thread nD τ) scM7 fullShare d) ∗ (∃ d, owns (c : Thread nD τ) scM8 fullShare d) ∗ (∃ d, owns (c : Thread nD τ) scM9 fullShare d) ∗ (∃ d, owns (c : Thread nD τ) scM10 fullShare d)) ∗ (∃ r, prngReg c r)) := by
  unfold Pipeline.ΦA; rw [scopedRest0_eq]; simp only [scM7, scM8, scM9, scM10, owns_whole]; try rfl

/-- The invariant before point `k`: the scratch buffers at contents agreeing with the fixed run. -/
def PhiK (c : Dev nD) (k : ℕ) : sProp 𝕄 :=
  iprop(iprop(∃ a7 a8 a9 a10, ⌜Good m c k ⟨a7, a8, a9, a10⟩⌝ ∗ owns (c : Thread nD τ) scM7 fullShare a7 ∗ owns (c : Thread nD τ) scM8 fullShare a8
      ∗ owns (c : Thread nD τ) scM9 fullShare a9 ∗ owns (c : Thread nD τ) scM10 fullShare a10) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (canon m c (t.val + 1)).a10
    | ⟨3, _⟩ => k0_pay5 (canon m c (t.val + 1)).a9 (canon m c (t.val + 1)).a8
  Φ t := PhiK m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiK m c t.val := by
  dsimp only [dats]; simp only [Fin.coe_castSucc]
theorem Phi_succ (c : Dev nD) (t : Fin cfg0.N) : (dats m 0 c).Φ t.succ = PhiK m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay4 (canon m c (t.val + 1)).a10 := by dsimp only [dats]
theorem after0_3 (c : Dev nD) (t : Fin cfg0.N) :
    (dats m 0 c).after 3 t = k0_pay5 (canon m c (t.val + 1)).a9 (canon m c (t.val + 1)).a8 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ### Where the windows are idle -/

theorem live0 : ∀ t : Fin cfg0.N, cfg0.idle 0 (grid0.coords t) = false := by decide +kernel
theorem live1 : ∀ t : Fin cfg0.N, cfg0.idle 1 (grid0.coords t) = false := by decide +kernel
theorem idle2_last : ∀ t : Fin cfg0.N, t.val % 4 = 3 → cfg0.idle 2 (grid0.coords t) = false := by decide +kernel
theorem idle3_last : ∀ t : Fin cfg0.N, t.val % 4 = 3 → cfg0.idle 3 (grid0.coords t) = false := by decide +kernel
theorem idle2_other : ∀ t : Fin cfg0.N, t.val % 4 ≠ 3 → cfg0.idle 2 (grid0.coords t) = true := by decide +kernel
theorem idle3_other : ∀ t : Fin cfg0.N, t.val % 4 ≠ 3 → cfg0.idle 3 (grid0.coords t) = true := by decide +kernel

theorem leaves0 (c : Dev nD) (t : Fin cfg0.N) :
    (dats m 0 c).leavesExact 0 t = owns (c : Thread nD τ) (ms0 t) fullShare (iblk m c 0 t) := by
  unfold Dat.leavesExact; rw [live0 t, after0_0]
theorem leaves1 (c : Dev nD) (t : Fin cfg0.N) :
    (dats m 0 c).leavesExact 1 t = owns (c : Thread nD τ) (ms1 t) fullShare (iblk m c 1 t) := by
  unfold Dat.leavesExact; rw [live1 t, after0_1]
theorem leaves2_other (c : Dev nD) (t : Fin cfg0.N) (h : t.val % 4 ≠ 3) :
    (dats m 0 c).leavesExact 2 t = iprop(∃ d, owns (c : Thread nD τ) (ms2 t) fullShare ((dats m 0 c).before 2 t d)) :=
  (dats m 0 c).leavesExact_idle 2 t (idle2_other t h) (Bool.eq_false_iff.mpr fun hf => h ((flush0_2 t).mp hf))
theorem leaves3_other (c : Dev nD) (t : Fin cfg0.N) (h : t.val % 4 ≠ 3) :
    (dats m 0 c).leavesExact 3 t = iprop(∃ d, owns (c : Thread nD τ) (ms3 t) fullShare ((dats m 0 c).before 3 t d)) :=
  (dats m 0 c).leavesExact_idle 3 t (idle3_other t h) (Bool.eq_false_iff.mpr fun hf => h ((flush0_3 t).mp hf))
theorem leaves2_last (c : Dev nD) (t : Fin cfg0.N) (h : t.val % 4 = 3) :
    (dats m 0 c).leavesExact 2 t = owns (c : Thread nD τ) (ms2 t) fullShare ((dats m 0 c).after 2 t) := by
  unfold Dat.leavesExact; rw [idle2_last t h]
theorem leaves3_last (c : Dev nD) (t : Fin cfg0.N) (h : t.val % 4 = 3) :
    (dats m 0 c).leavesExact 3 t = owns (c : Thread nD τ) (ms3 t) fullShare ((dats m 0 c).after 3 t) := by
  unfold Dat.leavesExact; rw [idle3_last t h]

/-! ### What the last point of a batch stores is what the fixed run stores -/

theorem out2_eq (c : Dev nD) (t : Fin cfg0.N) (a7 : Vec F S2048x1 .f32) (a8 a9 : Vec F S1x4096 .f32) (a10 : Vec F S1x1 .f32)
    (hg : Good m c t.val ⟨a7, a8, a9, a10⟩) (h : t.val % 4 = 3) :
    k0_pay4 (nx10 a10 (nx7 a7 (iblk m c 0 t) (iblk m c 1 t)) (iblk m c 0 t)) = (dats m 0 c).after 2 t := by
  obtain ⟨e7, e8, e10, -⟩ := hg (by omega)
  rw [after0_2, canon_succ, h, stepSt_3]
  show k0_pay4 (nx10 a10 (nx7 a7 _ _) _) = k0_pay4 (nx10 _ (nx7 _ _ _) _)
  rw [show a7 = (canon m c t.val).a7 from e7, show a10 = (canon m c t.val).a10 from e10]

theorem out3_eq (c : Dev nD) (t : Fin cfg0.N) (a7 : Vec F S2048x1 .f32) (a8 a9 : Vec F S1x4096 .f32) (a10 : Vec F S1x1 .f32)
    (hg : Good m c t.val ⟨a7, a8, a9, a10⟩) (h : t.val % 4 = 3) :
    k0_pay5 (nx9 (grid0.coords t) a9 (iblk m c 1 t)) (nx8 (grid0.coords t) a8 (iblk m c 0 t) (iblk m c 1 t)) = (dats m 0 c).after 3 t := by
  have e9 := good_a9 m c t ⟨a7, a8, a9, a10⟩ hg (by omega)
  obtain ⟨e7, e8, e10, -⟩ := hg (by omega)
  rw [after0_3, canon_succ, h, stepSt_3]
  show k0_pay5 (nx9 _ a9 _) (nx8 _ a8 _ _) = k0_pay5 (nx9 _ _ _) (nx8 _ _ _ _)
  rw [show nx9 (grid0.coords t) a9 (iblk m c 1 t) = nx9 (grid0.coords t) (canon m c t.val).a9 (iblk m c 1 t) from e9, show a8 = (canon m c t.val).a8 from e8]

/-! ### The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point: the point's position in its batch selects the case; the invariant hands over the scratch
    buffers, the case's run gives them back one step on, and the agreement with the fixed run is kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_castSucc, Phi_succ, leaves0, leaves1]
  have hN : t.val < 64 := lt_of_lt_of_eq t.isLt (show cfg0.N = 64 from N_0)
  rcases (by omega : t.val % 4 = 0 ∨ t.val % 4 = 1 ∨ t.val % 4 = 2 ∨ t.val % 4 = 3) with h | h | h | h
  · rw [leaves2_other m c t (by omega), leaves3_other m c t (by omega)]
    unfold PhiK
    iintro ⟨⟨⟨%a7, %a8, %a9, %a10, %hg, HS0, HS1, HS2, HS3⟩, Hg⟩, Ho, ⟨%d0, H0⟩, ⟨%d1, H1⟩, H2, H3⟩
    iapply (runA c (grid0.coords t) _ _ _ _ _ _ _ _ _ _ _ _ _ _ _ _ ((hcnd0 t).mpr h) ((hcnd1 t).mpr (by omega)) (fun h' => by have := (hcnd2 t).mp h'; omega) (fun h' => by have := (hcnd3 t).mp h'; omega) (iblk m c 0 t) (iblk m c 1 t) a7 a8 a9 a10 Set.univ _)
    isplitl [H0]; · iexact H0
    isplitl [H1]; · iexact H1
    isplitl [HS0]; · iexact HS0
    isplitl [HS1]; · iexact HS1
    isplitl [HS2]; · iexact HS2
    isplitl [HS3]; · iexact HS3
    iintro ⟨H0, H1, HS0, HS1, HS2, HS3⟩
    isplitl [HS0 HS1 HS2 HS3 Hg]
    · isplitl [HS0 HS1 HS2 HS3]
      · iexists (nx7 k0_pay8 (iblk m c 0 t) (iblk m c 1 t)), (nx8 (grid0.coords t) k0_pay6 (iblk m c 0 t) (iblk m c 1 t)), (nx9 (grid0.coords t) a9 (iblk m c 1 t)), (k0_pay7)
        isplitr
        · ipureintro
          have hs := good_step m c t ⟨a7, a8, a9, a10⟩ hg
          rw [h, stepSt_0] at hs
          exact hs
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    iexact H3
  · rw [leaves2_other m c t (by omega), leaves3_other m c t (by omega)]
    unfold PhiK
    iintro ⟨⟨⟨%a7, %a8, %a9, %a10, %hg, HS0, HS1, HS2, HS3⟩, Hg⟩, Ho, ⟨%d0, H0⟩, ⟨%d1, H1⟩, H2, H3⟩
    iapply (runB c (grid0.coords t) _ _ _ _ _ _ _ _ _ _ _ _ _ _ _ _ (fun h' => by have := (hcnd0 t).mp h'; omega) (fun h' => by have := (hcnd1 t).mp h'; omega) ((hcnd2 t).mpr (by omega)) (fun h' => by have := (hcnd3 t).mp h'; omega) (iblk m c 0 t) (iblk m c 1 t) a7 a8 a9 a10 Set.univ _)
    isplitl [H0]; · iexact H0
    isplitl [H1]; · iexact H1
    isplitl [HS0]; · iexact HS0
    isplitl [HS1]; · iexact HS1
    isplitl [HS2]; · iexact HS2
    isplitl [HS3]; · iexact HS3
    iintro ⟨H0, H1, HS0, HS1, HS2, HS3⟩
    isplitl [HS0 HS1 HS2 HS3 Hg]
    · isplitl [HS0 HS1 HS2 HS3]
      · iexists (nx7 a7 (iblk m c 0 t) (iblk m c 1 t)), (nx8 (grid0.coords t) a8 (iblk m c 0 t) (iblk m c 1 t)), (nx9 (grid0.coords t) a9 (iblk m c 1 t)), (nx10 a10 (nx7 a7 (iblk m c 0 t) (iblk m c 1 t)) (iblk m c 0 t))
        isplitr
        · ipureintro
          have hs := good_step m c t ⟨a7, a8, a9, a10⟩ hg
          rw [h, stepSt_1] at hs
          exact hs
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    iexact H3
  · rw [leaves2_other m c t (by omega), leaves3_other m c t (by omega)]
    unfold PhiK
    iintro ⟨⟨⟨%a7, %a8, %a9, %a10, %hg, HS0, HS1, HS2, HS3⟩, Hg⟩, Ho, ⟨%d0, H0⟩, ⟨%d1, H1⟩, H2, H3⟩
    iapply (runC c (grid0.coords t) _ _ _ _ _ _ _ _ _ _ _ _ _ _ _ _ (fun h' => by have := (hcnd0 t).mp h'; omega) ((hcnd1 t).mpr (by omega)) (fun h' => by have := (hcnd2 t).mp h'; omega) (fun h' => by have := (hcnd3 t).mp h'; omega) (iblk m c 0 t) (iblk m c 1 t) a7 a8 a9 a10 Set.univ _)
    isplitl [H0]; · iexact H0
    isplitl [H1]; · iexact H1
    isplitl [HS0]; · iexact HS0
    isplitl [HS1]; · iexact HS1
    isplitl [HS2]; · iexact HS2
    isplitl [HS3]; · iexact HS3
    iintro ⟨H0, H1, HS0, HS1, HS2, HS3⟩
    isplitl [HS0 HS1 HS2 HS3 Hg]
    · isplitl [HS0 HS1 HS2 HS3]
      · iexists (nx7 k0_pay8 (iblk m c 0 t) (iblk m c 1 t)), (nx8 (grid0.coords t) a8 (iblk m c 0 t) (iblk m c 1 t)), (nx9 (grid0.coords t) a9 (iblk m c 1 t)), (a10)
        isplitr
        · ipureintro
          have hs := good_step m c t ⟨a7, a8, a9, a10⟩ hg
          rw [h, stepSt_2] at hs
          exact hs
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    iexact H3
  · rw [leaves2_last m c t h, leaves3_last m c t h]
    unfold PhiK
    iintro ⟨⟨⟨%a7, %a8, %a9, %a10, %hg, HS0, HS1, HS2, HS3⟩, Hg⟩, Ho, ⟨%d0, H0⟩, ⟨%d1, H1⟩, ⟨%d2, H2⟩, ⟨%d3, H3⟩⟩
    iapply (runD c (grid0.coords t) _ _ _ _ _ _ _ _ _ _ _ _ _ _ _ _ (fun h' => by have := (hcnd0 t).mp h'; omega) (fun h' => by have := (hcnd1 t).mp h'; omega) ((hcnd2 t).mpr (by omega)) ((hcnd3 t).mpr h) (iblk m c 0 t) (iblk m c 1 t) a7 a8 a9 a10 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · isplitl [HS0 HS1 HS2 HS3]
      · iexists (nx7 a7 (iblk m c 0 t) (iblk m c 1 t)), (nx8 (grid0.coords t) a8 (iblk m c 0 t) (iblk m c 1 t)), (nx9 (grid0.coords t) a9 (iblk m c 1 t)), (nx10 a10 (nx7 a7 (iblk m c 0 t) (iblk m c 1 t)) (iblk m c 0 t))
        isplitr
        · ipureintro
          have hs := good_step m c t ⟨a7, a8, a9, a10⟩ hg
          rw [h, stepSt_3] at hs
          exact hs
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]
    · rw [← out2_eq m c t a7 a8 a9 a10 hg h]; iexact H2
    rw [← out3_eq m c t a7 a8 a9 a10 hg h]; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiK m c 0 from rfl, PhiA_eq]
  unfold PhiK
  iintro ⟨⟨⟨%d7, H7⟩, ⟨%d8, H8⟩, ⟨%d9, H9⟩, ⟨%d10, H10⟩⟩, Hg⟩
  isplitl [H7 H8 H9 H10]
  · iexists d7, d8, d9, d10
    isplitr
    · ipureintro; exact fun h => absurd rfl h
    isplitl [H7]; · iexact H7
    isplitl [H8]; · iexact H8
    isplitl [H9]; · iexact H9
    iexact H10
  iexact Hg

/-- After the last point the invariant gives back what the launch handed over. -/
theorem hout (c : Dev nD) : (dats m 0 c).Φ (Fin.last cfg0.N) ⊢ Pipeline.ΦA spec0 c := by
  rw [show (dats m 0 c).Φ (Fin.last cfg0.N) = PhiK m c (Fin.last cfg0.N).val from rfl, PhiA_eq]
  unfold PhiK
  iintro ⟨⟨%a7, %a8, %a9, %a10, -, H7, H8, H9, H10⟩, Hg⟩
  isplitl [H7 H8 H9 H10]
  · isplitl [H7]; · iexists _; iexact H7
    isplitl [H8]; · iexists _; iexact H8
    isplitl [H9]; · iexists _; iexact H9
    iexists _; iexact H10
  iexact Hg

/-! ### The run and the frame -/

/-- Every weakly fair execution of @main terminates with every array of the pipeline at what the library computes from the
    proof data, and every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Gen

end
-- ==== Proof.ChamferSpec.lean ====
/-
  The Chamfer loss of two batches of point clouds, written twice over the extended reals.

  For clouds X, Y (16 batches of 4096 points in dimension 64) the squared distance of a pair of points is
  |x|² + |y|² - 2 x·y, clamped below at 0.  The loss is half the sum, over the points of X, of the distance
  to the nearest point of Y, plus half the same sum with the clouds exchanged.

  `refLoss` computes it as the reference does: clamp every pair, take minima, sum.
  `kerLoss` computes it as the tiled kernel does: the cross term u = Σ_d (c·x_d)·y_d with the factor c = -2
  folded into x; the minimum over the other cloud taken tile by tile (two tiles of 2048) of u + |·|² of
  the OTHER point, starting from +∞; the point's own squared norm added and the clamp applied only after
  the minimum; the row sums accumulated tile by tile from 0.
-/
import Mathlib.Data.EReal.Operations
import Mathlib.Algebra.BigOperators.Fin

noncomputable section

namespace Cert.Chamfer

open scoped BigOperators

/-- A batch of point clouds. -/
abbrev Pts := Fin 16 → Fin 4096 → Fin 64 → EReal

/-- Point `k` of tile `j`: the tiles are the two halves of the 4096 points. -/
def tl (j : Fin 2) (k : Fin 2048) : Fin 4096 := ⟨2048 * j.val + k.val, by have := j.isLt; have := k.isLt; omega⟩

/-- The squared norm of point `n` of batch `b`. -/
def nrm (Z : Pts) (b : Fin 16) (n : Fin 4096) : EReal := ∑ d : Fin 64, Z b n d * Z b n d

/-- The inner product of point `n` of X and point `m` of Y. -/
def dot (X Y : Pts) (b : Fin 16) (n m : Fin 4096) : EReal := ∑ d : Fin 64, X b n d * Y b m d

/-- The clamped squared distance, as the reference writes it (`two` is the literal 2). -/
def dist (X Y : Pts) (two : EReal) (b : Fin 16) (n m : Fin 4096) : EReal :=
  max (nrm X b n + nrm Y b m - two * dot X Y b n m) 0

/-- The reference's loss: minima of clamped distances, summed, each direction halved. -/
def refLoss (X Y : Pts) (two half : EReal) : EReal :=
  (∑ b : Fin 16, ∑ n : Fin 4096, (Finset.univ : Finset (Fin 4096)).fold min ⊤ (fun m => dist X Y two b n m)) * half
  + (∑ b : Fin 16, ∑ m : Fin 4096, (Finset.univ : Finset (Fin 4096)).fold min ⊤ (fun n => dist X Y two b n m)) * half

/-- The kernel's cross term: the factor `c` (the literal -2) folded into x before the product. -/
def cross (X Y : Pts) (c : EReal) (b : Fin 16) (n m : Fin 4096) : EReal := ∑ d : Fin 64, (c * X b n d) * Y b m d

/-- The running minimum over the points of Y of (cross term + |y|²) for point `n` of X: from +∞, tile 0, then tile 1. -/
def rowAcc (X Y : Pts) (c : EReal) (b : Fin 16) (n : Fin 4096) : EReal :=
  min (min ⊤ ((Finset.univ : Finset (Fin 2048)).fold min ⊤ fun k => cross X Y c b n (tl 0 k) + nrm Y b (tl 0 k)))
    ((Finset.univ : Finset (Fin 2048)).fold min ⊤ fun k => cross X Y c b n (tl 1 k) + nrm Y b (tl 1 k))

/-- The running minimum over the points of X of (cross term + |x|²) for point `m` of Y. -/
def colAcc (X Y : Pts) (c : EReal) (b : Fin 16) (m : Fin 4096) : EReal :=
  min (min ⊤ ((Finset.univ : Finset (Fin 2048)).fold min ⊤ fun k => cross X Y c b (tl 0 k) m + nrm X b (tl 0 k)))
    ((Finset.univ : Finset (Fin 2048)).fold min ⊤ fun k => cross X Y c b (tl 1 k) m + nrm X b (tl 1 k))

/-- The kernel's first result for batch `b`: the clamped row distances summed tile by tile from 0. -/
def outXY (X Y : Pts) (c : EReal) (b : Fin 16) : EReal :=
  (0 + ∑ k : Fin 2048, max (nrm X b (tl 0 k) + rowAcc X Y c b (tl 0 k)) 0)
    + ∑ k : Fin 2048, max (nrm X b (tl 1 k) + rowAcc X Y c b (tl 1 k)) 0

/-- The kernel's second result for batch `b`: the clamped column distances summed. -/
def outYX (X Y : Pts) (c : EReal) (b : Fin 16) : EReal :=
  ∑ m : Fin 4096, max (nrm Y b m + colAcc X Y c b m) 0

/-- The kernel's loss: each result summed over the batches from 0 and halved. -/
def kerLoss (X Y : Pts) (c half : EReal) : EReal :=
  half * (0 + ∑ b : Fin 16, outXY X Y c b) + half * (0 + ∑ b : Fin 16, outYX X Y c b)

end Cert.Chamfer

end
-- ==== Proof.RefDist.lean ====
/-
  The reference's clamped squared distances, read at an index.

  For argument arrays x, y : [16, 4096, 64] the reference forms, for every batch b and every pair of points
  (n of x, m of y), the array entry  max (|x_n|² + |y_m|² - 2 · (x_n · y_m)) 0.  Here each stage of that
  computation is read at an index built from its coordinates: the squared norms are sums over the 64
  components started from the zero word (which is 0), the two broadcasts copy a norm along the other cloud's
  axis, the contraction is the sum over the components of the products, and the literal 2 stays the word it is.
  The result: the entry (b, n, m) of the clamped array is the specification's `dist`.
-/
import proofs.«114531_j51814485459453_2_alg».proof.Proof.Gen.ReferenceIdeal.Read
import proofs.«114531_j51814485459453_2_alg».proof.Proof.ChamferSpec

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The cloud an argument array holds: batch, point, component. -/
abbrev cloud (x : FVec Ideal S16x4096x64 .f32) : Cert.Chamfer.Pts := fun b n d => x (ix3 b n d)

/-- The literal 2 of the distance, as the word the program holds. -/
abbrev two : EReal := Ideal.ofBits .f32 0x40000000#32

/-- The squared norm of point `n` of batch `b` of the first argument: the sum from 0 over the components. -/
theorem sqnorm0_apply (x : FVec Ideal S16x4096x64 .f32) (b : Fin 16) (n : Fin 4096) :
    val_main_v1 (F := Ideal) x (ix2 b n) = Cert.Chamfer.nrm (cloud x) b n := by
  rw [val_main_v1_apply, val_main_cst_apply, Ideal.ofBits_def, Ideal.ofBits_zero_f32, zero_add]
  refine Finset.sum_congr rfl fun k _ => ?_
  rw [val_main_v0_apply, Ideal.mulf_def]
  have e : idx_main_v1 (ix2 b n) k = ix3 b n k :=
    funext fun a => Fin.ext (by match a with | ⟨0, _⟩ => rfl | ⟨1, _⟩ => rfl | ⟨2, _⟩ => rfl)
  rw [e]

/-- The same for the second argument. -/
theorem sqnorm1_apply (y : FVec Ideal S16x4096x64 .f32) (b : Fin 16) (m : Fin 4096) :
    val_main_v3 (F := Ideal) y (ix2 b m) = Cert.Chamfer.nrm (cloud y) b m := by
  rw [val_main_v3_apply, val_main_cst_0_apply, Ideal.ofBits_def, Ideal.ofBits_zero_f32, zero_add]
  refine Finset.sum_congr rfl fun k _ => ?_
  rw [val_main_v2_apply, Ideal.mulf_def]
  have e : idx_main_v3 (ix2 b m) k = ix3 b m k :=
    funext fun a => Fin.ext (by match a with | ⟨0, _⟩ => rfl | ⟨1, _⟩ => rfl | ⟨2, _⟩ => rfl)
  rw [e]

/-- The contraction over the components: entry (b, n, m) is the inner product of point `n` of x and point `m` of y. -/
theorem inner_apply (x y : FVec Ideal S16x4096x64 .f32) (b : Fin 16) (n m : Fin 4096) :
    val_main_v4 (F := Ideal) x y (ix3 b n m) = Cert.Chamfer.dot (cloud x) (cloud y) b n m := by
  rw [val_main_v4_apply]
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er]

/-- The first norm broadcast along the second cloud's axis. -/
theorem bnorm0_apply (x : FVec Ideal S16x4096x64 .f32) (b : Fin 16) (n m : Fin 4096) :
    val_main_v7 (F := Ideal) x (ix3 b n m) = Cert.Chamfer.nrm (cloud x) b n := by
  rw [val_main_v7_apply, val_main_v5_apply]
  have e : idx_main_v5 (idx_main_v7 (ix3 b n m)) = ix2 b n :=
    funext fun a => Fin.ext (by match a with | ⟨0, _⟩ => rfl | ⟨1, _⟩ => rfl)
  rw [e, sqnorm0_apply]

/-- The second norm broadcast along the first cloud's axis. -/
theorem bnorm1_apply (y : FVec Ideal S16x4096x64 .f32) (b : Fin 16) (n m : Fin 4096) :
    val_main_v8 (F := Ideal) y (ix3 b n m) = Cert.Chamfer.nrm (cloud y) b m := by
  rw [val_main_v8_apply, val_main_v6_apply]
  have e : idx_main_v6 (idx_main_v8 (ix3 b n m)) = ix2 b m :=
    funext fun a => Fin.ext (by match a with | ⟨0, _⟩ => rfl | ⟨1, _⟩ => rfl)
  rw [e, sqnorm1_apply]

/-- Entry (b, n, m) of the clamped array is the specification's clamped squared distance. -/
theorem dist_apply (x y : FVec Ideal S16x4096x64 .f32) (b : Fin 16) (n m : Fin 4096) :
    val_main_v14 (F := Ideal) x y (ix3 b n m) = Cert.Chamfer.dist (cloud x) (cloud y) two b n m := by
  rw [val_main_v14_apply, val_main_v12_apply, val_main_v9_apply, val_main_v11_apply, val_main_v10_apply,
    val_main_v13_apply, val_main_cst_1_apply, val_main_cst_2_apply, bnorm0_apply, bnorm1_apply, inner_apply]
  simp only [Ideal.ofBits_def, Ideal.ofBits_zero_f32, Ideal.maximumf_def, Ideal.subf_def, Ideal.addf_def, Ideal.mulf_def]
  rfl

end Cert.ReferenceIdeal.RefValue

end
-- ==== Proof.RefMin.lean ====
/-
  The reference's two minima, read at an index.

  From the clamped distances d(b, n, m) the reference takes, for every point n of the first cloud, the minimum
  over the points m of the second, and for every point m of the second cloud the minimum over the points n of
  the first. Each is a reduction over ONE axis with the commutative and associative body `min`, started from the
  word of +∞, which is the top element ⊤ of the extended reals: at a result index it is the fold of `min` from ⊤
  over the 4096 coordinates of the reduced axis, the entry read at the result index with the coordinate put
  back on that axis.
-/
import proofs.«114531_j51814485459453_2_alg».proof.Proof.RefDist
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The word 0x7F800000 is +∞, the top of the extended reals. -/
theorem ofBits_inf_f32 : Ideal.ofBits .f32 0x7F800000#32 = (⊤ : EReal) := by simp [Ideal.ofBits, Ideal.ieee]

/-- The last axis of the distance array is reduced to the [16, 4096] array. -/
theorem reduces_d2 : S16x4096x4096.Reduces [2] S16x4096 := by decide

/-- The middle axis of the distance array is reduced to the [16, 4096] array. -/
theorem reduces_d1 : S16x4096x4096.Reduces [1] S16x4096 := by decide

/-- Result index (b, n) with coordinate k put back on the last axis is (b, n, k). -/
theorem lift_d2 (b : Fin 16) (n : Fin 4096) (k : Fin 4096) :
    reduces_d2.lift (ix2 b n) k = ix3 b n k :=
  funext fun c => Fin.ext (by match c with | ⟨0, _⟩ => rfl | ⟨1, _⟩ => rfl | ⟨2, _⟩ => rfl)

/-- Result index (b, m) with coordinate k put back on the middle axis is (b, k, m). -/
theorem lift_d1 (b : Fin 16) (m : Fin 4096) (k : Fin 4096) :
    reduces_d1.lift (ix2 b m) k = ix3 b k m :=
  funext fun c => Fin.ext (by match c with | ⟨0, _⟩ => rfl | ⟨1, _⟩ => rfl | ⟨2, _⟩ => rfl)

/-- For point n of the first cloud: the minimum over the points of the second of the clamped distances, from ⊤. -/
theorem rowmin_apply (x y : FVec Ideal S16x4096x64 .f32) (b : Fin 16) (n : Fin 4096) :
    val_main_v15 (F := Ideal) x y (ix2 b n)
      = (Finset.univ : Finset (Fin 4096)).fold min ⊤ (fun m => Cert.Chamfer.dist (cloud x) (cloud y) two b n m) := by
  unfold val_main_v15
  rw [Host.reduce_eq_fold_single FloatOps.minimumf _ _ reducesTo_S16x4096x4096_S16x4096_d2 reduces_d2 h_S_,
    val_main_cst_3_apply, Ideal.ofBits_def, ofBits_inf_f32]
  have hf : (val_main_v14 (F := Ideal) x y ∘ reduces_d2.lift (ix2 b n))
      = fun m : Fin 4096 => Cert.Chamfer.dist (cloud x) (cloud y) two b n m :=
    funext fun k => (congrArg (val_main_v14 (F := Ideal) x y) (lift_d2 b n k)).trans (dist_apply x y b n k)
  exact congrArg (fun f => Finset.fold min (⊤ : EReal) f (Finset.univ : Finset (Fin 4096))) hf

/-- For point m of the second cloud: the minimum over the points of the first of the clamped distances, from ⊤. -/
theorem colmin_apply (x y : FVec Ideal S16x4096x64 .f32) (b : Fin 16) (m : Fin 4096) :
    val_main_v16 (F := Ideal) x y (ix2 b m)
      = (Finset.univ : Finset (Fin 4096)).fold min ⊤ (fun n => Cert.Chamfer.dist (cloud x) (cloud y) two b n m) := by
  unfold val_main_v16
  rw [Host.reduce_eq_fold_single FloatOps.minimumf _ _ reducesTo_S16x4096x4096_S16x4096_d1 reduces_d1 h_S_,
    val_main_cst_4_apply, Ideal.ofBits_def, ofBits_inf_f32]
  have hf : (val_main_v14 (F := Ideal) x y ∘ reduces_d1.lift (ix2 b m))
      = fun n : Fin 4096 => Cert.Chamfer.dist (cloud x) (cloud y) two b n m :=
    funext fun k => (congrArg (val_main_v14 (F := Ideal) x y) (lift_d1 b m k)).trans (dist_apply x y b k m)
  exact congrArg (fun f => Finset.fold min (⊤ : EReal) f (Finset.univ : Finset (Fin 4096))) hf

end Cert.ReferenceIdeal.RefValue

end
-- ==== Proof.RefValue.lean ====
/-
  The reference's result is the specification's loss.

  The minima of the clamped distances, one per point of the first cloud, are summed over both axes of their
  [16, 4096] array from the zero word: 0 plus the sum over every index, which is the double sum over the batches
  and the points. That sum times the word of one half, plus the same for the minima taken per point of the second
  cloud, is the reference's one result. Index by index this is `Cert.Chamfer.refLoss` of the two clouds the
  argument arrays hold, with the literals 2 and 1/2 kept as the words the program holds (neither is evaluated).
  The last theorem restates the reference's run with that result.
-/
import proofs.«114531_j51814485459453_2_alg».proof.Proof.RefMin

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open scoped BigOperators

/-- The literal 1/2 of the loss, as the word the program holds. -/
abbrev half : EReal := Ideal.ofBits .f32 0x3F000000#32

/-- The minima per point of the first cloud, summed over batches and points from 0. -/
theorem rowsum_apply (x y : FVec Ideal S16x4096x64 .f32) (i : S_.Idx) :
    val_main_v17 (F := Ideal) x y i
      = ∑ b : Fin 16, ∑ n : Fin 4096,
          (Finset.univ : Finset (Fin 4096)).fold min ⊤ (fun m => Cert.Chamfer.dist (cloud x) (cloud y) two b n m) := by
  rw [val_main_v17_apply, val_main_cst_5_apply, Ideal.ofBits_def, Ideal.ofBits_zero_f32, zero_add, sum_idx2]
  exact Finset.sum_congr rfl fun b _ => Finset.sum_congr rfl fun n _ => rowmin_apply x y b n

/-- The minima per point of the second cloud, summed over batches and points from 0. -/
theorem colsum_apply (x y : FVec Ideal S16x4096x64 .f32) (i : S_.Idx) :
    val_main_v19 (F := Ideal) x y i
      = ∑ b : Fin 16, ∑ m : Fin 4096,
          (Finset.univ : Finset (Fin 4096)).fold min ⊤ (fun n => Cert.Chamfer.dist (cloud x) (cloud y) two b n m) := by
  rw [val_main_v19_apply, val_main_cst_7_apply, Ideal.ofBits_def, Ideal.ofBits_zero_f32, zero_add, sum_idx2]
  exact Finset.sum_congr rfl fun b _ => Finset.sum_congr rfl fun m _ => colmin_apply x y b m

/-- The reference's last stage is the specification's loss of the two clouds, at its one index. -/
theorem loss_eq (x y : FVec Ideal S16x4096x64 .f32) :
    val_main_v21 (F := Ideal) x y
      = fun _ => Cert.Chamfer.refLoss (fun b n d => x (ix3 b n d)) (fun b n d => y (ix3 b n d))
          (Ideal.ofBits .f32 0x40000000#32) (Ideal.ofBits .f32 0x3F000000#32) := by
  funext i
  rw [val_main_v21_apply, val_main_v18_apply, val_main_v20_apply, rowsum_apply, colsum_apply,
    val_main_cst_6_apply, val_main_cst_8_apply, Ideal.ofBits_def, Ideal.addf_def, Ideal.mulf_def, Ideal.mulf_def]
  rfl

/-- Every weakly fair execution of the reference terminates with its result the specification's loss of the two
    clouds its argument arrays hold, and those arrays unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
        = (fun _ => Cert.Chamfer.refLoss
            (fun b n d => m ((c.tc : Thread nD τ).loc main_arg0) (ix3 b n d))
            (fun b n d => m ((c.tc : Thread nD τ).loc main_arg1) (ix3 b n d))
            (Ideal.ofBits .f32 0x40000000#32) (Ideal.ofBits .f32 0x3F000000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v21_eq _ _).trans (loss_eq _ _)), (h c).2⟩)
    (Cert.ReferenceIdeal.Value.run (F := Ideal) m ρ)

end Cert.ReferenceIdeal.RefValue

end
-- ==== Proof.RefClaims.lean ====
/-
  The reference's frame: its run terminates without a fault and leaves the argument arrays as they were — the
  reference's run with the result dropped.
-/
import proofs.«114531_j51814485459453_2_alg».proof.Defs
import proofs.«114531_j51814485459453_2_alg».proof.Proof.Gen.Pre_finite_inputs
import proofs.«114531_j51814485459453_2_alg».proof.Proof.RefValue

noncomputable section

namespace Cert.Proof.RefClaims

open Idealize.ShloMosaic Idealize.ShloMosaic.TcCoe Idealize.SL.Sem

/-- Every weakly fair execution of the reference terminates, nothing faulting, the two argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.KGlueFinite.lean ====
/-
  Finiteness of the inputs, from the precondition.

  The precondition says of each argument array that every entry's absolute value is below +∞ (the comparison with
  the word of +∞, all entries, conjoined by a reduction with `and` from 1, the two arrays' results conjoined
  again). An extended real x with max x (-x) < ⊤ is neither ⊤ nor ⊥, so it is a real number. Hence both clouds are
  families of real numbers.
-/
import proofs.«114531_j51814485459453_2_alg».proof.Defs
import proofs.«114531_j51814485459453_2_alg».proof.Proof.Gen.Pre_finite_inputs
import proofs.«114531_j51814485459453_2_alg».proof.Proof.Gen.KernelIdeal
import Idealize.ShloMosaic.Lib.ReduceAll
import Idealize.ShloMosaic.Lib.ValueIdx
import Idealize.ShloMosaic.PureOps.Ideal.Laws

noncomputable section

namespace Cert.KernelIdeal.Glue

open Cert.KernelIdeal
open Idealize.ShloMosaic Idealize.ShloMosaic.TcCoe Idealize.SL.Sem Idealize.ShloMosaic.ValueIdx

/-- The scalar shape has one index. -/
instance subsingleton_scalar_idx : Subsingleton Cert.Pre_finite_inputs.S_.Idx := ⟨fun a b => funext fun d => d.elim0⟩

/-- An extended real whose absolute value compares below ⊤ is a real number. -/
theorem real_of_abs_lt_top (x : EReal) (h : Ideal.cmp .olt (max x (-x)) (⊤ : EReal) = 1#1) : ∃ r : ℝ, x = (r : EReal) := by
  have hlt : max x (-x) < ⊤ := by
    by_contra hn
    have h0 : Ideal.cmp .olt (max x (-x)) (⊤ : EReal) = 0#1 := by simp [Ideal.cmp, hn]
    rw [h0] at h
    exact absurd h (by decide)
  induction x using EReal.rec with
  | bot => simp at hlt
  | coe r => exact ⟨r, rfl⟩
  | top => simp at hlt

/-- The precondition's function is all ones only if every entry of both arrays is a real number. -/
theorem real_of_fn (a0 a1 : FVec Ideal Cert.Pre_finite_inputs.S16x4096x64 .f32)
    (h : Cert.Pre_finite_inputs.fn (F := Ideal) a0 a1 = fun _ => 1#1) :
    (∀ i, ∃ r : ℝ, a0 i = (r : EReal)) ∧ (∀ i, ∃ r : ℝ, a1 i = (r : EReal)) := by
  have hinf : Ideal.ofBits .f32 0x7F800000#32 = (⊤ : EReal) := by simp [Ideal.ofBits, Ideal.ieee]
  have h0 := congrFun h ix0
  dsimp only [Cert.Pre_finite_inputs.fn] at h0
  obtain ⟨h1, h2⟩ := IntOp.andi_eq_one.1 h0
  refine ⟨fun i => ?_, fun i => ?_⟩
  · have e := Host.reduce_andi_all _ _ _ _ ix0 h1 i
    have e' : Ideal.cmp .olt (max (a0 i) (-(a0 i))) (Ideal.ofBits .f32 0x7F800000#32) = 1#1 := e
    rw [hinf] at e'
    exact real_of_abs_lt_top _ e'
  · have e := Host.reduce_andi_all _ _ _ _ ix0 h2 i
    have e' : Ideal.cmp .olt (max (a1 i) (-(a1 i))) (Ideal.ofBits .f32 0x7F800000#32) = 1#1 := e
    rw [hinf] at e'
    exact real_of_abs_lt_top _ e'

/-- Under the precondition both clouds of the kernel's argument arrays are families of real numbers. -/
theorem finite_of_pre (m : (ℓ : Loc nD τ sig) → Buf (Elt Ideal) ℓ) (h : Cert.Pre_KernelIdeal m) (c : Dev nD) :
    ∃ x y : Fin 16 → Fin 4096 → Fin 64 → ℝ,
      (fun b n d => m ((c.tc : Thread nD τ).loc main_arg0) (ix3 b n d)) = (fun b n d => ((x b n d : ℝ) : EReal))
      ∧ (fun b n d => m ((c.tc : Thread nD τ).loc main_arg1) (ix3 b n d)) = (fun b n d => ((y b n d : ℝ) : EReal)) := by
  obtain ⟨h0, h1⟩ := real_of_fn _ _ (h c)
  choose x hx using h0
  choose y hy using h1
  exact ⟨fun b n d => x (ix3 b n d), fun b n d => y (ix3 b n d),
    funext fun b => funext fun n => funext fun d => hx (ix3 b n d),
    funext fun b => funext fun n => funext fun d => hy (ix3 b n d)⟩

end Cert.KernelIdeal.Glue

end
-- ==== Proof.KArr.lean ====
/-
  The two result arrays after the region.

  Each result window has one [1, 1, 1] block per batch, written back at the last of the batch's four points
  (point 4b + 3), and holding there what the body computed from the scratch buffers after that point. The blocks
  of the 16 batches tile the [16, 1, 1] array, so after the region entry (b, 0, 0) of each result array is what
  point 4b + 3 wrote: a function of the scratch contents after 4b + 4 points.
-/
import proofs.«114531_j51814485459453_2_alg».proof.Proof.KBody
import Idealize.ShloMosaic.Lib.Pipeline.Value
import Idealize.ShloMosaic.Lib.ValueIdx

set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx
open Idealize.ShloMosaic.Rounds
open Idealize.ShloMosaic.Pipeline (Dat Cfg Window)

variable {F : FTy → Type} [FloatOps F]
variable (m : (ℓ : Loc nD τ sig) → Buf (Elt F) ℓ)

/-- The two result windows' block indices at point t: the batch, then 0, 0. -/
theorem out_idx_facts : ∀ t : Fin cfg0.N,
    win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- The one index of a [1, 1, 1] block. -/
theorem eq_ix3_zero (j : S1x1x1.Idx) : j = ix3 (0 : Fin 1) (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => exact Fin.ext (by have h : (j 2).val < 1 := (j 2).isLt; show (j 2).val = 0; omega)

/-- The first result array after the region, as one function: entry i is what the last point of batch i₀ computed. -/
abbrev G2 (c : Dev nD) : S16x1x1.Idx → Elt F .f32 :=
  fun i => k0_pay4 (canon m c (4 * (i 0).val + 4)).a10 (ix3 (0 : Fin 1) (0 : Fin 1) (0 : Fin 1))

/-- The second result array after the region, likewise. -/
abbrev G3 (c : Dev nD) : S16x1x1.Idx → Elt F .f32 :=
  fun i => k0_pay5 (canon m c (4 * (i 0).val + 4)).a9 (canon m c (4 * (i 0).val + 4)).a8 (ix3 (0 : Fin 1) (0 : Fin 1) (0 : Fin 1))

/-- What a writing point writes back into the first result array is its block of `G2`. -/
theorem flushed2_eq (c : Dev nD) (t : Fin cfg0.N) (hf : (cfg0.win 2).flush t = true) :
    (dats m 0 c).flushed 2 t = ((cfg0.win 2).blk t).view.read (Elt F) (G2 m c) := by
  show (cfg0.win 2).cut (grid0.coords t) ((dats m 0 c).after 2 t) = _
  rw [after0_2]
  have h3 : t.val % 4 = 3 := (flush0_2 t).mp hf
  obtain ⟨e0, -, -, -, -, -⟩ := out_idx_facts t
  funext j
  show k0_pay4 (canon m c (t.val + 1)).a10 j
    = k0_pay4 (canon m c (4 * (((cfg0.win 2).blk t).view.emb j 0).val + 4)).a10 (ix3 (0 : Fin 1) (0 : Fin 1) (0 : Fin 1))
  have hj : (j 0).val < 1 := (j 0).isLt
  have e : 4 * (((cfg0.win 2).blk t).view.emb j 0).val + 4 = t.val + 1 := by
    show 4 * (win0_2.index t (0 : Fin 3) * 1 + 1 * (j 0).val) + 4 = t.val + 1
    omega
  rw [e, eq_ix3_zero j]

/-- What a writing point writes back into the second result array is its block of `G3`. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3]
  have h3 : t.val % 4 = 3 := (flush0_3 t).mp hf
  obtain ⟨-, -, -, e0, -, -⟩ := out_idx_facts t
  funext j
  show k0_pay5 (canon m c (t.val + 1)).a9 (canon m c (t.val + 1)).a8 j
    = k0_pay5 (canon m c (4 * (((cfg0.win 3).blk t).view.emb j 0).val + 4)).a9
        (canon m c (4 * (((cfg0.win 3).blk t).view.emb j 0).val + 4)).a8 (ix3 (0 : Fin 1) (0 : Fin 1) (0 : Fin 1))
  have hj : (j 0).val < 1 := (j 0).isLt
  have e : 4 * (((cfg0.win 3).blk t).view.emb j 0).val + 4 = t.val + 1 := by
    show 4 * (win0_3.index t (0 : Fin 3) * 1 + 1 * (j 0).val) + 4 = t.val + 1
    omega
  rw [e, eq_ix3_zero j]

/-- An index of the first result array is in point t's block iff each coordinate is in the block's range. -/
theorem mem_blk2 (t : Fin cfg0.N) (i : S16x1x1.Idx) :
    i ∈ ((cfg0.win 2).blk t).view.set
      ↔ ∀ a : Fin 3, win0_2.index t a * S1x1x1.size a ≤ (i a).val ∧ (i a).val < win0_2.index t a * S1x1x1.size a + S1x1x1.size a := by
  show i ∈ ((View.whole main_v1_0).slice (win0_2.rect t)).set ↔ _
  rw [View.set_slice_whole, Rect.mem_set_unit]
  exact Iff.rfl

/-- The same for the second result array. -/
theorem mem_blk3 (t : Fin cfg0.N) (i : S16x1x1.Idx) :
    i ∈ ((cfg0.win 3).blk t).view.set
      ↔ ∀ a : Fin 3, win0_3.index t a * S1x1x1.size a ≤ (i a).val ∧ (i a).val < win0_3.index t a * S1x1x1.size a + S1x1x1.size a := by
  show i ∈ ((View.whole main_v1_1).slice (win0_3.rect t)).set ↔ _
  rw [View.set_slice_whole, Rect.mem_set_unit]
  exact Iff.rfl

/-- The last point of batch b. -/
def lastPt (b : Fin 16) : Fin cfg0.N :=
  ⟨4 * b.val + 3, by have hN : cfg0.N = 64 := N_0; have := b.isLt; omega⟩

/-- Every index of the first result array is in the block of the last point of its batch, which writes back. -/
theorem cover2 (i : S16x1x1.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 1 := (i 2).isLt
  refine ⟨lastPt ⟨(i 0).val, h0⟩, (flush0_2 _).mpr (by show (4 * (i 0).val + 3) % 4 = 3; omega), ?_⟩
  obtain ⟨e0, e1, e2, -, -, -⟩ := out_idx_facts (lastPt ⟨(i 0).val, h0⟩)
  have ev : (lastPt ⟨(i 0).val, h0⟩).val = 4 * (i 0).val + 3 := rfl
  rw [mem_blk2]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 1 ≤ (i 2).val ∧ (i 2).val < win0_2.index _ (2 : Fin 3) * 1 + 1; omega

/-- The same for the second result array. -/
theorem cover3 (i : S16x1x1.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 1 := (i 2).isLt
  refine ⟨lastPt ⟨(i 0).val, h0⟩, (flush0_3 _).mpr (by show (4 * (i 0).val + 3) % 4 = 3; omega), ?_⟩
  obtain ⟨-, -, -, e0, e1, e2⟩ := out_idx_facts (lastPt ⟨(i 0).val, h0⟩)
  have ev : (lastPt ⟨(i 0).val, h0⟩).val = 4 * (i 0).val + 3 := rfl
  rw [mem_blk3]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 1 ≤ (i 2).val ∧ (i 2).val < win0_3.index _ (2 : Fin 3) * 1 + 1; omega

/-- THE FIRST RESULT ARRAY after the region. -/
theorem arr2 (c : Dev nD) : (dats m 0 c).arrAt 2 cfg0.N = G2 m c :=
  (dats m 0 c).arrAt_eq_of_cover 2 (G2 m c) (fun t hf => flushed2_eq m c t hf) cover2

/-- THE SECOND RESULT ARRAY after the region. -/
theorem arr3 (c : Dev nD) : (dats m 0 c).arrAt 3 cfg0.N = G3 m c :=
  (dats m 0 c).arrAt_eq_of_cover 3 (G3 m c) (fun t hf => flushed3_eq m c t hf) cover3

/-- Entry (b, 0, 0) of the first result array: what the body computed from the running sum after batch b's four points. -/
theorem arr2_apply (c : Dev nD) (b : Fin 16) :
    G2 m c (ix3 b (0 : Fin 1) (0 : Fin 1)) = k0_pay4 (canon m c (4 * b.val + 4)).a10 (ix3 (0 : Fin 1) (0 : Fin 1) (0 : Fin 1)) := rfl

/-- Entry (b, 0, 0) of the second result array: what the body computed from the norm row and the running column minimum
    after batch b's four points. -/
theorem arr3_apply (c : Dev nD) (b : Fin 16) :
    G3 m c (ix3 b (0 : Fin 1) (0 : Fin 1))
      = k0_pay5 (canon m c (4 * b.val + 4)).a9 (canon m c (4 * b.val + 4)).a8 (ix3 (0 : Fin 1) (0 : Fin 1) (0 : Fin 1)) := rfl

end Cert.KernelIdeal.Glue

end
-- ==== Proof.KGlueTail.lean ====
/-
  The host operations after the region.

  The region leaves two [16, 1, 1] arrays, one partial loss per batch and direction. The program then sums each
  over all its axes from the zero word, multiplies each sum by the word of one half, and adds the two products.
  A sum over every index of a [16, 1, 1] array is the sum over the 16 batches of the entry (b, 0, 0). So the
  program's result is  half · (0 + Σ_b A2(b,0,0)) + half · (0 + Σ_b A3(b,0,0))  for whatever arrays A2, A3 the
  region leaves.
-/
import proofs.«114531_j51814485459453_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Glue

open Cert.KernelIdeal Cert.KernelIdeal.Gen
open Idealize.ShloMosaic Idealize.ShloMosaic.TcCoe Idealize.SL.Sem Idealize.ShloMosaic.ValueIdx Idealize.ShloMosaic.StableHlo
open Idealize.ShloMosaic.Rounds
open Idealize.ShloMosaic.Pipeline (Dat Cfg Window)
open scoped BigOperators

variable (m : (ℓ : Loc nD τ sig) → Buf (Elt Ideal) ℓ)

/-- An index of a [16, 1, 1] array is its batch. -/
def batchEquiv : S16x1x1.Idx ≃ Fin 16 where
  toFun i := i 0
  invFun b := ix3 b (0 : Fin 1) (0 : Fin 1)
  left_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl

/-- So a sum over every index of such an array is the sum over the batches of the entries (b, 0, 0). -/
theorem sum_batch (f : S16x1x1.Idx → EReal) : ∑ i, f i = ∑ b : Fin 16, f (ix3 b (0 : Fin 1) (0 : Fin 1)) :=
  (Equiv.sum_comp batchEquiv.symm f).symm

/-- The total of a [16, 1, 1] array from the zero word, at the result's one index: 0 plus the sum over the batches. -/
theorem total_apply (A : S16x1x1.Idx → EReal) (i : S_.Idx) :
    Host.reduceAdd (F := Ideal) (A : FVec Ideal S16x1x1 .f32) (constant (F := Ideal) S_ .f32 0x00000000#32) reducesTo_S16x1x1_S_d0_1_2 h_S_ i
      = 0 + ∑ b : Fin 16, A (ix3 b (0 : Fin 1) (0 : Fin 1)) := by
  simp only [Host.reduceAdd, Ideal.hostReduceAdd_def]
  rw [Ideal.hostReduceAdd_total reducesTo_S16x1x1_S_d0_1_2 (fun b => b.elim0) A _ i, sum_batch]
  exact congrArg (· + _) Ideal.ofBits_zero_f32

/-- The program's result after the region, for whatever the region leaves in its two output arrays. -/
theorem tail_eq (dats : (p : Fin 1) → (c : Dev nD) → Dat τ (Elt Ideal) Unit ℕ (UR sig nD τ) ℕ (cfgs p) c) (c : Dev nD)
    (A2 A3 : S16x1x1.Idx → EReal)
    (h2 : (dats 0 c).arrAt 2 cfg0.N = A2) (h3 : (dats 0 c).arrAt 3 cfg0.N = A3) :
    Pipeline.afterTail₀ cfgs dats 0 (Gen.V0 m) [hostOps1] c main_v6
      = fun _ => Ideal.ofBits .f32 0x3F000000#32 * (0 + ∑ b : Fin 16, A2 (ix3 b (0 : Fin 1) (0 : Fin 1)))
          + Ideal.ofBits .f32 0x3F000000#32 * (0 + ∑ b : Fin 16, A3 (ix3 b (0 : Fin 1) (0 : Fin 1))) := by
  unfold Pipeline.afterTail₀
  show StableHlo.after hostOps1 _ (Proc.devRef .tc main_v6) = _
  after_results
  have e2 : Pipeline.withArrays (cfgs 0).spec c (V0 m c) (fun w => (dats 0 c).arrAt w (cfgs 0).N) (Proc.devRef .tc main_v1_0) = A2 :=
    (Pipeline.withArrays_arr spec0 launch0.win.arr_inj c _ _ 2).trans h2
  have e3 : Pipeline.withArrays (cfgs 0).spec c (V0 m c) (fun w => (dats 0 c).arrAt w (cfgs 0).N) (Proc.devRef .tc main_v1_1) = A3 :=
    (Pipeline.withArrays_arr spec0 launch0.win.arr_inj c _ _ 3).trans h3
  rw [e2, e3]
  funext i
  rw [addf_apply, mulf_apply, mulf_apply, constant_apply, total_apply, total_apply]

end Cert.KernelIdeal.Glue

end
-- ==== Proof.KGlueBlocks.lean ====
/-
  The region's inputs, read at an index.

  The grid has 64 points, 16 × 2 × 2 in row-major order: point t is batch t / 4, row tile (t / 2) % 2 of the first
  cloud, column tile t % 2 of the second. The first window's block at t is rows 2048·((t / 2) % 2) + r of batch
  t / 4 of the first argument, all 64 components. The second window stages the transpose of the second argument
  (components before points), and its block at t is, for every component, points 2048·(t % 2) + q of batch t / 4.
  Read at an index, both blocks are entries of the argument arrays as launched.
-/
import proofs.«114531_j51814485459453_2_alg».proof.Proof.Gen.KernelIdeal.Frame
import proofs.«114531_j51814485459453_2_alg».proof.Proof.ChamferSpec
import Idealize.ShloMosaic.Lib.Pipeline.Value
import Idealize.ShloMosaic.Lib.ValueIdx
import Idealize.ShloMosaic.Lib.StableHlo.Run

noncomputable section

namespace Cert.KernelIdeal.Glue

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The two input windows' block indices at point t, as functions of t. -/
theorem idx_facts : ∀ t : Fin cfg0.N,
    win0_0.index t (0 : Fin 3) = t.val / 4 ∧ win0_0.index t (1 : Fin 3) = t.val / 2 % 2 ∧ win0_0.index t (2 : Fin 3) = 0
    ∧ win0_1.index t (0 : Fin 3) = t.val / 4 ∧ win0_1.index t (1 : Fin 3) = 0 ∧ win0_1.index t (2 : Fin 3) = t.val % 2 :=
  (by decide +kernel : ∀ t : Fin grid0.N, _)

/-- The coordinates of point t. -/
theorem coords_facts : ∀ t : Fin cfg0.N,
    (grid0.coords t 0).val = t.val / 4 ∧ (grid0.coords t 1).val = t.val / 2 % 2 ∧ (grid0.coords t 2).val = t.val % 2 :=
  (by decide +kernel : ∀ t : Fin grid0.N, _)

/-- There are 64 points. -/
theorem pt_lt (t : Fin cfg0.N) : t.val < 64 := by
  have h := t.isLt
  have hN : cfg0.N = 64 := Gen.N_0
  omega

/-- The batch of point t. -/
abbrev ptB (t : Fin cfg0.N) : Fin 16 := ⟨t.val / 4, by have := pt_lt t; omega⟩
/-- The row tile (of the first cloud) of point t. -/
abbrev ptN (t : Fin cfg0.N) : Fin 2 := ⟨t.val / 2 % 2, by omega⟩
/-- The column tile (of the second cloud) of point t. -/
abbrev ptM (t : Fin cfg0.N) : Fin 2 := ⟨t.val % 2, by omega⟩

/-- The second window's array when the region is entered: the second argument with its last two axes exchanged. -/
theorem V_main_v0 (c : Dev nD) :
    (Gen.V m c main_v0 : S16x64x4096.Idx → EReal)
      = transpose S16x64x4096 [0, 2, 1] (m ((c : Thread nD τ).loc main_arg1)) transposes_S16x4096x64_S16x64x4096_0_2_1 := by
  show StableHlo.after hostOps0 (fun b => m (c, b)) (Proc.devRef .tc main_v0) = _
  after_results

/-- Entry (b, d, j) of the transposed array is entry (b, j, d) of the second argument. -/
theorem V_main_v0_apply (c : Dev nD) (b : Fin 16) (d : Fin 64) (j : Fin 4096) :
    (Gen.V m c main_v0 : S16x64x4096.Idx → EReal) (ix3 b d j) = m ((c : Thread nD τ).loc main_arg1) (ix3 b j d) := by
  rw [V_main_v0]
  exact transpose_apply [0, 2, 1] _ transposes_S16x4096x64_S16x64x4096_0_2_1 (ix3 b d j) (ix3 b j d)
    (fun a => match a with | ⟨0, _⟩ => rfl | ⟨1, _⟩ => rfl | ⟨2, _⟩ => rfl)

/-- The first window's block at point t: row r, component d of the block is row 2048·(row tile) + r of the batch. -/
theorem iblk0_apply (c : Dev nD) (t : Fin cfg0.N) (r : Fin 2048) (d : Fin 64) :
    Gen.iblk m c 0 t (ix3 (0 : Fin 1) r d)
      = m ((c : Thread nD τ).loc main_arg0) (ix3 (ptB t) (Cert.Chamfer.tl (ptN t) r) d) := by
  obtain ⟨e0, e1, e2, -, -, -⟩ := idx_facts t
  unfold Gen.iblk
  show Gen.V m c main_arg0 (((cfg0.win 0).blk t).view.emb (ix3 (0 : Fin 1) r d)) = _
  rw [Gen.V_main_arg0]
  refine congrArg _ (funext fun a => Fin.ext ?_)
  match a with
  | ⟨0, _⟩ => show win0_0.index t (0 : Fin 3) * 1 + 1 * 0 = t.val / 4; omega
  | ⟨1, _⟩ => show win0_0.index t (1 : Fin 3) * 2048 + 1 * r.val = 2048 * (t.val / 2 % 2) + r.val; omega
  | ⟨2, _⟩ => show win0_0.index t (2 : Fin 3) * 64 + 1 * d.val = d.val; omega

/-- The second window's block at point t: component d, column q of the block is point 2048·(column tile) + q of the
    batch of the second argument. -/
theorem iblk1_apply (c : Dev nD) (t : Fin cfg0.N) (d : Fin 64) (q : Fin 2048) :
    Gen.iblk m c 1 t (ix3 (0 : Fin 1) d q)
      = m ((c : Thread nD τ).loc main_arg1) (ix3 (ptB t) (Cert.Chamfer.tl (ptM t) q) d) := by
  obtain ⟨-, -, -, e0, e1, e2⟩ := idx_facts t
  unfold Gen.iblk
  show (Gen.V m c main_v0 : S16x64x4096.Idx → EReal) (((cfg0.win 1).blk t).view.emb (ix3 (0 : Fin 1) d q)) = _
  rw [← V_main_v0_apply m c (ptB t) d (Cert.Chamfer.tl (ptM t) q)]
  refine congrArg _ (funext fun a => Fin.ext ?_)
  match a with
  | ⟨0, _⟩ => show win0_1.index t (0 : Fin 3) * 1 + 1 * 0 = t.val / 4; omega
  | ⟨1, _⟩ => show win0_1.index t (1 : Fin 3) * 64 + 1 * d.val = d.val; omega
  | ⟨2, _⟩ => show win0_1.index t (2 : Fin 3) * 2048 + 1 * q.val = 2048 * (t.val % 2) + q.val; omega

end Cert.KernelIdeal.Glue

end
-- ==== Proof.LibAxisReads.lean ====
/-
  Layout and reduction operations of rank-2 arrays read at an index given by coordinates, at the ideal values.

  * A vector `[a]` cast to a column `[a, 1]` reads, at `(i, u)`, the vector at `i`: both have row-major
    position `i` because the unit coordinate `u` is 0.
  * A column `[a, 1]` broadcast over `[a, b]` reads, at `(p, c)`, the column at `(p, 0)`.
  * For a reduction of a rank-2 array along one axis, the source index over the result index `r` with
    coordinate `k` on the reduced axis is `(r, k)` (axis 1) or `(k, r)` (axis 0).  So a sum along an axis is
    the sum over that axis's coordinates, and a minimum along an axis is the fold of `min`, from the value of
    the starting word, over that axis's coordinates.
-/
import Idealize.ShloMosaic.Lib.ValueIdx
import Idealize.ShloMosaic.Lib.Pipeline.Value
import Idealize.ShloMosaic.Lib.ValueLayout
import Idealize.ShloMosaic.PureOps.Ideal.Laws

/-!
# Unit-axis columns and one-axis reductions of rank-2 arrays, read at an index

General lemmas in the style of the library's layout lemmas: the cast of a vector to a column, the broadcast of
a column over a matrix, and a sum or a minimum of a matrix along one axis, each read at an index written by
its coordinates.
-/

noncomputable section

open scoped BigOperators

namespace Cert.Lib.AxisReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along axis 1: the source index over row `r` with column `k` is `(r, k)`. -/
theorem lift_axis1 {n0 n1 : ℕ} (h : (⟨2, ![n0, n1]⟩ : Shape).Reduces [1] ⟨1, ![n0]⟩) (r : Fin n0) (k : Fin n1) :
    h.lift (ix1 r) k = ix2 r k := by
  funext c
  match c with
  | ⟨0, _⟩ => rfl
  | ⟨1, _⟩ => rfl

/-- Reducing a matrix along axis 0: the source index over column `q` with row `k` is `(k, q)`. -/
theorem lift_axis0 {n0 n1 : ℕ} (h : (⟨2, ![n0, n1]⟩ : Shape).Reduces [0] ⟨1, ![n1]⟩) (q : Fin n1) (k : Fin n0) :
    h.lift (ix1 q) k = ix2 k q := by
  funext c
  match c with
  | ⟨0, _⟩ => rfl
  | ⟨1, _⟩ => rfl

/-- A sum of a matrix along axis 1, at the ideal values, read at row `r`: the sum of the row. -/
theorem add_axis1_apply {n0 n1 : ℕ} {φ : FTy} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.add.neutral φ hφ) (r : Fin n0) :
    multiReduction .add [1] ⟨1, ![n0]⟩ src acc h hφ hacc (ix1 r) = ∑ d : Fin n1, src (ix2 r d) :=
  (Ideal.multiReduction_add_single src acc h hφ hacc (ix1 r)).trans
    (Finset.sum_congr rfl fun d _ => congrArg src (lift_axis1 h r d))

/-- A sum of a matrix along axis 0, at the ideal values, read at column `q`: the sum of the column. -/
theorem add_axis0_apply {n0 n1 : ℕ} {φ : FTy} (src : FVec Ideal ⟨2, ![n0, n1]⟩ φ) (acc : BitVec φ.bits)
    (h : (⟨2, ![n0, n1]⟩ : Shape).Reduces [0] ⟨1, ![n1]⟩) (hφ : FKind.Formats φ)
    (hacc : acc = FKind.add.neutral φ hφ) (q : Fin n1) :
    multiReduction .add [0] ⟨1, ![n1]⟩ src acc h hφ hacc (ix1 q) = ∑ d : Fin n0, src (ix2 d q) :=
  (Ideal.multiReduction_add_single src acc h hφ hacc (ix1 q)).trans
    (Finset.sum_congr rfl fun d _ => congrArg src (lift_axis0 h q d))

/-- A minimum over ONE axis, at the ideal values: the fold of `min` from the starting word's value over that
axis's coordinates (the twin of the library's law for a maximum). -/
theorem multiReduction_minimumf_single {s t : Shape} {a : Fin s.rank} {φ : FTy} (src : FVec Ideal s φ)
    (acc : BitVec φ.bits) (h : s.Reduces [a] t) (hφ : FKind.Formats φ)
    (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A minimum of a matrix along axis 1, read at row `r`: the fold of `min` over the row. -/
theorem min_axis1_apply {n0 n1 : ℕ} {φ : FTy} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.minimumf.neutral φ hφ) (r : Fin n0) :
    multiReduction .minimumf [1] ⟨1, ![n0]⟩ src acc h hφ hacc (ix1 r)
      = (Finset.univ : Finset (Fin n1)).fold min (Ideal.ofBits φ acc) (fun d => src (ix2 r d)) :=
  (multiReduction_minimumf_single src acc h hφ hacc (ix1 r)).trans
    (Finset.fold_congr fun d _ => congrArg src (lift_axis1 h r d))

/-- A minimum of a matrix along axis 0, read at column `q`: the fold of `min` over the column. -/
theorem min_axis0_apply {n0 n1 : ℕ} {φ : FTy} (src : FVec Ideal ⟨2, ![n0, n1]⟩ φ) (acc : BitVec φ.bits)
    (h : (⟨2, ![n0, n1]⟩ : Shape).Reduces [0] ⟨1, ![n1]⟩) (hφ : FKind.Formats φ)
    (hacc : acc = FKind.minimumf.neutral φ hφ) (q : Fin n1) :
    multiReduction .minimumf [0] ⟨1, ![n1]⟩ src acc h hφ hacc (ix1 q)
      = (Finset.univ : Finset (Fin n0)).fold min (Ideal.ofBits φ acc) (fun d => src (ix2 d q)) :=
  (multiReduction_minimumf_single src acc h hφ hacc (ix1 q)).trans
    (Finset.fold_congr fun d _ => congrArg src (lift_axis0 h q d))

end Cert.Lib.AxisReads

end
-- ==== Proof.KPayIdeal.lean ====
/-
  The pure values the tiled Chamfer body computes, read at an index, at the ideal values (the extended reals).

  Each value is a few vector operations on blocks of the two clouds: a squared norm is a product summed along
  the feature axis; the cross term is a matrix product of the first block, scaled by the constant -2, with the
  second; a running minimum is a minimum along one axis of a matrix plus a broadcast row or column, started at
  +∞; a partial loss is a clamped sum.  Read at an index written by its coordinates, each is a plain formula in
  sums, `min`, `max` and folds of `min` over the coordinates of the reduced axis.
-/
import proofs.«114531_j51814485459453_2_alg».proof.Proof.Gen.KernelIdeal.Skeleton
import proofs.«114531_j51814485459453_2_alg».proof.Proof.LibAxisReads
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdeal

open Idealize.ShloMosaic Cert.KernelIdeal Cert.KernelIdeal.Gen Idealize.ShloMosaic.ValueIdx Cert.Lib.AxisReads

/-! ## The literal words -/

/-- The word `0xC0000000` is the real number -2. -/
theorem ofBits_neg_two : Ideal.ofBits .f32 0xC0000000#32 = ((-2 : ℝ) : EReal) := by
  simp [Ideal.ofBits, Ideal.ieee, -EReal.coe_mul]; norm_num

/-- The word `0x40000000` is the real number 2. -/
theorem ofBits_two : Ideal.ofBits .f32 0x40000000#32 = ((2 : ℝ) : EReal) := by
  simp [Ideal.ofBits, Ideal.ieee, -EReal.coe_mul]; norm_num

/-- The word `0x7F800000` is +∞. -/
theorem ofBits_top : Ideal.ofBits .f32 0x7F800000#32 = ⊤ := by
  simp [Ideal.ofBits, Ideal.ieee]

/-! ## The two blocks with their leading unit axis dropped -/

/-- The first block viewed `[2048, 64]` reads, at `(r, d)`, the block at `(0, r, d)`. -/
theorem k0_pay9_apply (x0 : Vec Ideal S1x2048x64 .f32) (r : Fin 2048) (d : Fin 64) :
    k0_pay9 (F := Ideal) x0 (ix2 r d) = x0 (ix3 (0 : Fin 1) r d) :=
  shapeCast_1ab_ab_apply x0 shapeCasts_S1x2048x64_S2048x64 r d

/-- The second block viewed `[64, 2048]` reads, at `(d, q)`, the block at `(0, d, q)`. -/
theorem k0_pay10_apply (x1 : Vec Ideal S1x64x2048 .f32) (d : Fin 64) (q : Fin 2048) :
    k0_pay10 (F := Ideal) x1 (ix2 d q) = x1 (ix3 (0 : Fin 1) d q) :=
  shapeCast_1ab_ab_apply x1 shapeCasts_S1x64x2048_S64x2048 d q

/-! ## (1), (2) The squared norms -/

/-- (1) The squared norms of the first block's points, as a column: at `(r, u)` the sum of squares of point `r`. -/
theorem k0_pay11_apply (x0 : Vec Ideal S1x2048x64 .f32) (r : Fin 2048) (u : Fin 1) :
    k0_pay11 (F := Ideal) x0 (ix2 r u) = ∑ d : Fin 64, x0 (ix3 (0 : Fin 1) r d) * x0 (ix3 (0 : Fin 1) r d) := by
  unfold k0_pay11
  refine (shapeCast_a_a1_apply _ shapeCasts_S2048_S2048x1 r u).trans ?_
  refine (add_axis1_apply _ 0x00000000#32 reduces_S2048x64_S2048 (.inl rfl) rfl r).trans ?_
  refine Finset.sum_congr rfl fun d _ => ?_
  show k0_pay9 (F := Ideal) x0 (ix2 r d) * k0_pay9 (F := Ideal) x0 (ix2 r d) = _
  rw [k0_pay9_apply]

/-- (2) The squared norms of the second block's points, as a row: at `(u, q)` the sum of squares of point `q`. -/
theorem k0_pay12_apply (x1 : Vec Ideal S1x64x2048 .f32) (u : Fin 1) (q : Fin 2048) :
    k0_pay12 (F := Ideal) x1 (ix2 u q) = ∑ d : Fin 64, x1 (ix3 (0 : Fin 1) d q) * x1 (ix3 (0 : Fin 1) d q) := by
  unfold k0_pay12
  refine (shapeCast_a_1a_apply _ shapeCasts_S2048_S1x2048 u q).trans ?_
  refine (add_axis0_apply _ 0x00000000#32 reduces_S64x2048_S2048 (.inl rfl) rfl q).trans ?_
  refine Finset.sum_congr rfl fun d _ => ?_
  show k0_pay10 (F := Ideal) x1 (ix2 d q) * k0_pay10 (F := Ideal) x1 (ix2 d q) = _
  rw [k0_pay10_apply]

/-- (2) The stored row of squared norms is that row (a cast to the same shape). -/
theorem k0_pay13_eq (x1 : Vec Ideal S1x64x2048 .f32) : k0_pay13 (F := Ideal) x1 = k0_pay12 (F := Ideal) x1 := by
  unfold k0_pay13
  exact shapeCast_self _ _

/-! ## (3) The cross term -/

/-- Row axis of the left operand: a non-contracting axis reads the result's row. -/
theorem lhsIdx_val_0 (j : S2048x2048.Idx) (c : dot_S2048x64_S64x2048_S2048x2048_1_0_0_1_n_n.contr.Idx) :
    (dot_S2048x64_S64x2048_S2048x2048_1_0_0_1_n_n.lhsIdx j c 0).val = (j 0).val := by
  unfold DotDims.lhsIdx
  rw [dif_neg (show ¬(0 : Fin S2048x64.rank) ∈ dot_S2048x64_S64x2048_S2048x2048_1_0_0_1_n_n.lhsBatch by decide),
    dif_pos (show (0 : Fin S2048x64.rank) ∈ dot_S2048x64_S64x2048_S2048x2048_1_0_0_1_n_n.lhsNonContracting by decide)]
  rfl

/-- Feature axis of the left operand: the one contracting axis reads the contraction coordinate. -/
theorem lhsIdx_val_1 (j : S2048x2048.Idx) (c : dot_S2048x64_S64x2048_S2048x2048_1_0_0_1_n_n.contr.Idx) :
    (dot_S2048x64_S64x2048_S2048x2048_1_0_0_1_n_n.lhsIdx j c 1).val = (c ⟨0, by decide⟩).val :=
  dot_S2048x64_S64x2048_S2048x2048_1_0_0_1_n_n.lhsIdx_val_of_single rfl j c

/-- Feature axis of the right operand: the one contracting axis reads the contraction coordinate. -/
theorem rhsIdx_val_0 (j : S2048x2048.Idx) (c : dot_S2048x64_S64x2048_S2048x2048_1_0_0_1_n_n.contr.Idx) :
    (dot_S2048x64_S64x2048_S2048x2048_1_0_0_1_n_n.rhsIdx j c 0).val = (c ⟨0, by decide⟩).val :=
  dot_S2048x64_S64x2048_S2048x2048_1_0_0_1_n_n.rhsIdx_val_of_single rfl j c

/-- Column axis of the right operand: a non-contracting axis reads the result's column. -/
theorem rhsIdx_val_1 (j : S2048x2048.Idx) (c : dot_S2048x64_S64x2048_S2048x2048_1_0_0_1_n_n.contr.Idx) :
    (dot_S2048x64_S64x2048_S2048x2048_1_0_0_1_n_n.rhsIdx j c 1).val = (j 1).val := by
  unfold DotDims.rhsIdx
  rw [dif_neg (show ¬(1 : Fin S64x2048.rank) ∈ dot_S2048x64_S64x2048_S2048x2048_1_0_0_1_n_n.rhsBatch by decide),
    dif_pos (show (1 : Fin S64x2048.rank) ∈ dot_S2048x64_S64x2048_S2048x2048_1_0_0_1_n_n.rhsNonContracting by decide)]
  rfl

/-- The left operand's index of the matrix product at result `(r, q)` and contraction coordinate `k` is `(r, k)`. -/
theorem lhsIdx_eq (r q : Fin 2048) (k : Fin 64) :
    dot_S2048x64_S64x2048_S2048x2048_1_0_0_1_n_n.lhsIdx (ix2 r q) ((contrEquiv1 dot_S2048x64_S64x2048_S2048x2048_1_0_0_1_n_n 64 rfl rfl).symm k) = ix2 r k := by
  have hk := contrEquiv1_symm_val dot_S2048x64_S64x2048_S2048x2048_1_0_0_1_n_n 64 rfl rfl k
  funext a
  refine Fin.ext ?_
  match a with
  | ⟨0, _⟩ => exact lhsIdx_val_0 _ _
  | ⟨1, _⟩ => exact (lhsIdx_val_1 _ _).trans hk

/-- The right operand's index at result `(r, q)` and contraction coordinate `k` is `(k, q)`. -/
theorem rhsIdx_eq (r q : Fin 2048) (k : Fin 64) :
    dot_S2048x64_S64x2048_S2048x2048_1_0_0_1_n_n.rhsIdx (ix2 r q) ((contrEquiv1 dot_S2048x64_S64x2048_S2048x2048_1_0_0_1_n_n 64 rfl rfl).symm k) = ix2 k q := by
  have hk := contrEquiv1_symm_val dot_S2048x64_S64x2048_S2048x2048_1_0_0_1_n_n 64 rfl rfl k
  funext a
  refine Fin.ext ?_
  match a with
  | ⟨0, _⟩ => exact (rhsIdx_val_0 _ _).trans hk
  | ⟨1, _⟩ => exact rhsIdx_val_1 _ _

/-- (3) The cross term at `(r, q)`: the sum over the features of (-2 · x) · y, the constant kept as its word. -/
theorem k0_pay14_apply (x0 : Vec Ideal S1x2048x64 .f32) (x1 : Vec Ideal S1x64x2048 .f32) (r q : Fin 2048) :
    k0_pay14 (F := Ideal) x0 x1 (ix2 r q)
      = ∑ d : Fin 64, (Ideal.ofBits .f32 0xC0000000#32 * x0 (ix3 (0 : Fin 1) r d)) * x1 (ix3 (0 : Fin 1) d q) := by
  unfold k0_pay14
  simp only [matmul]
  rw [Ideal.matmul_constant_zero_apply, ← Equiv.sum_comp (contrEquiv1 dot_S2048x64_S64x2048_S2048x2048_1_0_0_1_n_n 64 rfl rfl).symm]
  refine Finset.sum_congr rfl fun k _ => ?_
  rw [lhsIdx_eq, rhsIdx_eq]
  show (Ideal.ofBits .f32 0xC0000000#32 * k0_pay9 (F := Ideal) x0 (ix2 r k)) * k0_pay10 (F := Ideal) x1 (ix2 k q) = _
  rw [k0_pay9_apply, k0_pay10_apply]

/-! ## The two minima of the 2048 × 2048 matrix, read at an index -/

/-- The minimum along the rows from the word of +∞, at row `r`: the fold of `min` from `⊤` over the row. -/
theorem min_axis1_S2048x2048 (src : FVec Ideal S2048x2048 .f32) (r : Fin 2048) :
    multiReduction .minimumf [1] S2048 src 0x7F800000#32 reduces_S2048x2048_S2048 (.inl rfl) rfl (ix1 r)
      = (Finset.univ : Finset (Fin 2048)).fold min ⊤ (fun q => src (ix2 r q)) := by
  have h := min_axis1_apply src 0x7F800000#32 reduces_S2048x2048_S2048 (.inl rfl) rfl r
  rw [ofBits_top] at h
  exact h

/-- The minimum along the columns from the word of +∞, at column `q`: the fold of `min` from `⊤` over the column. -/
theorem min_axis0_S2048x2048 (src : FVec Ideal S2048x2048 .f32) (q : Fin 2048) :
    multiReduction .minimumf [0] S2048 src 0x7F800000#32 reduces_S2048x2048_S2048_2 (.inl rfl) rfl (ix1 q)
      = (Finset.univ : Finset (Fin 2048)).fold min ⊤ (fun r => src (ix2 r q)) := by
  have h := min_axis0_apply src 0x7F800000#32 reduces_S2048x2048_S2048_2 (.inl rfl) rfl q
  rw [ofBits_top] at h
  exact h

/-! ## (4) The row minimum of one tile -/

/-- (4) The minimum over the second block's points of (cross term + squared norm), for point `r` of the first
block, as a column: the fold of `min` from +∞ over the 2048 points. -/
theorem k0_pay15_apply (x0 : Vec Ideal S1x2048x64 .f32) (x1 : Vec Ideal S1x64x2048 .f32) (r : Fin 2048) (u : Fin 1) :
    k0_pay15 (F := Ideal) x0 x1 (ix2 r u)
      = (Finset.univ : Finset (Fin 2048)).fold min ⊤
          (fun q => k0_pay14 (F := Ideal) x0 x1 (ix2 r q) + k0_pay12 (F := Ideal) x1 (ix2 (0 : Fin 1) q)) := by
  unfold k0_pay15
  refine (shapeCast_a_a1_apply _ shapeCasts_S2048_S2048x1 r u).trans ?_
  rw [min_axis1_S2048x2048]
  refine Finset.fold_congr fun q _ => ?_
  show k0_pay14 (F := Ideal) x0 x1 (ix2 r q)
      + broadcastTo S2048x2048 (k0_pay12 (F := Ideal) x1) broadcasts_S1x2048_S2048x2048 (ix2 r q) = _
  rw [broadcastTo_1b_ab_apply]

/-! ## (5), (6) The running minima -/

/-- (5) The running row minimum after a tile: the minimum of the stored one and the tile's. -/
theorem k0_pay1_apply (v32 : FVec Ideal S2048x1 .f32) (v33 : Vec Ideal S2048x1 .f32) (y : S2048x1.Idx) :
    k0_pay1 (F := Ideal) v32 v33 y = min (v33 y) (v32 y) := by
  unfold k0_pay1
  exact congrFun (shapeCast_self (minimumf v33 v32) shapeCasts_S2048x1_S2048x1) y

/-- (6) The running column minimum after a tile, at column `q`: the minimum of the stored one and the fold of
`min` from +∞, over the first block's points, of (cross term + squared norm). -/
theorem k0_pay2_apply (v14 : FVec Ideal S2048x1 .f32) (v28 : FVec Ideal S2048x2048 .f32) (v43 : Vec Ideal S1x2048 .f32)
    (u : Fin 1) (q : Fin 2048) :
    k0_pay2 (F := Ideal) v14 v28 v43 (ix2 u q)
      = min (v43 (ix2 u q))
          ((Finset.univ : Finset (Fin 2048)).fold min ⊤ (fun r => v28 (ix2 r q) + v14 (ix2 r (0 : Fin 1)))) := by
  unfold k0_pay2
  refine (congrFun (shapeCast_self _ shapeCasts_S1x2048_S1x2048) (ix2 u q)).trans ?_
  rw [minimumf_apply]
  refine congrArg (min (v43 (ix2 u q))) ?_
  refine (shapeCast_a_1a_apply _ shapeCasts_S2048_S1x2048 u q).trans ?_
  rw [min_axis0_S2048x2048]
  refine Finset.fold_congr fun r _ => ?_
  show v28 (ix2 r q) + broadcastTo S2048x2048 v14 broadcasts_S2048x1_S2048x2048 (ix2 r q) = _
  rw [broadcastTo_a1_ab_apply]

/-! ## (7), (8), (9) The partial losses -/

/-- (7) The accumulated first result after a tile: the stored one plus the sum over the 2048 points of the
clamped (squared norm + row minimum). -/
theorem k0_pay3_apply (v14 : FVec Ideal S2048x1 .f32) (v57 : Vec Ideal S2048x1 .f32) (v61 : Vec Ideal S1x1 .f32)
    (u u' : Fin 1) :
    k0_pay3 (F := Ideal) v14 v57 v61 (ix2 u u')
      = v61 (ix2 u u') + ∑ r : Fin 2048, max (v14 (ix2 r (0 : Fin 1)) + v57 (ix2 r (0 : Fin 1))) 0 := by
  obtain rfl : u' = 0 := Subsingleton.elim _ _
  unfold k0_pay3
  refine (congrFun (shapeCast_self _ shapeCasts_S1x1_S1x1) (ix2 u 0)).trans ?_
  rw [addf_apply]
  refine congrArg (fun z => v61 (ix2 u (0 : Fin 1)) + z) ?_
  refine (shapeCast_a_1a_apply _ shapeCasts_S1_S1x1 u 0).trans ?_
  refine (add_axis0_apply _ 0x00000000#32 reduces_S2048x1_S1 (.inl rfl) rfl 0).trans ?_
  refine Finset.sum_congr rfl fun r _ => ?_
  show max (v14 (ix2 r (0 : Fin 1)) + v57 (ix2 r (0 : Fin 1))) (Ideal.ofBits .f32 0x00000000#32) = _
  rw [Ideal.ofBits_zero_f32]

/-- (8) The first result written out: the accumulated value with a leading unit axis added. -/
theorem k0_pay4_apply (v62 : Vec Ideal S1x1 .f32) (u a b : Fin 1) :
    k0_pay4 (F := Ideal) v62 (ix3 u a b) = v62 (ix2 a b) :=
  shapeCast_ab_1ab_apply v62 shapeCasts_S1x1_S1x1x1 u a b

/-- (9) The second result written out: the sum over all 4096 points of the clamped (squared norm + column minimum). -/
theorem k0_pay5_apply (v57 v58 : Vec Ideal S1x4096 .f32) (u a b : Fin 1) :
    k0_pay5 (F := Ideal) v57 v58 (ix3 u a b)
      = ∑ j : Fin 4096, max (v57 (ix2 (0 : Fin 1) j) + v58 (ix2 (0 : Fin 1) j)) 0 := by
  obtain rfl : b = 0 := Subsingleton.elim _ _
  unfold k0_pay5
  refine (shapeCast_ab_1ab_apply _ shapeCasts_S1x1_S1x1x1 u a 0).trans ?_
  refine (shapeCast_a_1a_apply _ shapeCasts_S1_S1x1 a 0).trans ?_
  refine (add_axis1_apply _ 0x00000000#32 reduces_S1x4096_S1 (.inl rfl) rfl 0).trans ?_
  refine Finset.sum_congr rfl fun j _ => ?_
  show max (v57 (ix2 (0 : Fin 1) j) + v58 (ix2 (0 : Fin 1) j)) (Ideal.ofBits .f32 0x00000000#32) = _
  rw [Ideal.ofBits_zero_f32]

/-! ## (10) The starting values -/

/-- (10) The column minima start at +∞. -/
theorem k0_pay6_apply (y : S1x4096.Idx) : k0_pay6 (F := Ideal) y = ⊤ := by
  unfold k0_pay6
  refine (congrFun (shapeCast_self _ shapeCasts_S1x4096_S1x4096) y).trans ?_
  exact ofBits_top

/-- (10) The accumulated first result starts at 0. -/
theorem k0_pay7_apply (y : S1x1.Idx) : k0_pay7 (F := Ideal) y = 0 := by
  unfold k0_pay7
  refine (congrFun (shapeCast_self _ shapeCasts_S1x1_S1x1) y).trans ?_
  exact Ideal.ofBits_zero_f32

/-- (10) The row minima start at +∞. -/
theorem k0_pay8_apply (y : S2048x1.Idx) : k0_pay8 (F := Ideal) y = ⊤ := by
  unfold k0_pay8
  refine (congrFun (shapeCast_self _ shapeCasts_S2048x1_S2048x1) y).trans ?_
  exact ofBits_top

end Cert.KernelIdeal.PayIdeal

end
-- ==== Proof.KPoint.lean ====
/-
  One grid point's block values in the specification's vocabulary.

  Point t works on batch t / 4, row tile (t / 2) % 2 of the first cloud and column tile t % 2 of the second. Of the
  blocks the point is given: the squared norms of the first block's rows are the squared norms of the first cloud's
  points of that tile; the squared norms of the second block's columns are those of the second cloud's points of
  its tile; and the product of the first block scaled by the literal -2 with the second block is the
  specification's cross term of the two points.
-/
import proofs.«114531_j51814485459453_2_alg».proof.Proof.KGlueBlocks
import proofs.«114531_j51814485459453_2_alg».proof.Proof.KPayIdeal

noncomputable section

namespace Cert.KernelIdeal.Glue

open Cert.KernelIdeal Cert.KernelIdeal.Gen
open Idealize.ShloMosaic Idealize.ShloMosaic.TcCoe Idealize.SL.Sem Idealize.ShloMosaic.ValueIdx
open Cert.Chamfer (tl nrm cross)
open scoped BigOperators

variable (m : (ℓ : Loc nD τ sig) → Buf (Elt Ideal) ℓ)

/-- The first cloud: the first argument array as launched, by batch, point, component. -/
abbrev cloudX (c : Dev nD) : Cert.Chamfer.Pts := fun b n d => m ((c.tc : Thread nD τ).loc main_arg0) (ix3 b n d)
/-- The second cloud: the second argument array as launched. -/
abbrev cloudY (c : Dev nD) : Cert.Chamfer.Pts := fun b n d => m ((c.tc : Thread nD τ).loc main_arg1) (ix3 b n d)
/-- The literal -2 the body scales the first block by, as the word it holds. -/
abbrev cc : EReal := Ideal.ofBits .f32 0xC0000000#32

/-- The squared norm of row r of the first block at point t is that of point r of the row tile, in the point's batch. -/
theorem pay11_pt (c : Dev nD) (t : Fin cfg0.N) (r : Fin 2048) (u : Fin 1) :
    k0_pay11 (F := Ideal) (iblk m c 0 t) (ix2 r u) = nrm (cloudX m c) (ptB t) (tl (ptN t) r) :=
  (PayIdeal.k0_pay11_apply (iblk m c 0 t) r u).trans
    (Finset.sum_congr rfl fun d _ => congrArg₂ (· * ·) (iblk0_apply m c t r d) (iblk0_apply m c t r d))

/-- The squared norm of column q of the second block at point t is that of point q of the column tile. -/
theorem pay12_pt (c : Dev nD) (t : Fin cfg0.N) (u : Fin 1) (q : Fin 2048) :
    k0_pay12 (F := Ideal) (iblk m c 1 t) (ix2 u q) = nrm (cloudY m c) (ptB t) (tl (ptM t) q) :=
  (PayIdeal.k0_pay12_apply (iblk m c 1 t) u q).trans
    (Finset.sum_congr rfl fun d _ => congrArg₂ (· * ·) (iblk1_apply m c t d q) (iblk1_apply m c t d q))

/-- The stored row of squared norms at point t likewise. -/
theorem pay13_pt (c : Dev nD) (t : Fin cfg0.N) (u : Fin 1) (q : Fin 2048) :
    k0_pay13 (F := Ideal) (iblk m c 1 t) (ix2 u q) = nrm (cloudY m c) (ptB t) (tl (ptM t) q) :=
  (congrFun (PayIdeal.k0_pay13_eq (iblk m c 1 t)) (ix2 u q)).trans (pay12_pt m c t u q)

/-- The scaled product of the two blocks at point t, entry (r, q), is the cross term of the two points. -/
theorem pay14_pt (c : Dev nD) (t : Fin cfg0.N) (r q : Fin 2048) :
    k0_pay14 (F := Ideal) (iblk m c 0 t) (iblk m c 1 t) (ix2 r q)
      = cross (cloudX m c) (cloudY m c) cc (ptB t) (tl (ptN t) r) (tl (ptM t) q) :=
  (PayIdeal.k0_pay14_apply (iblk m c 0 t) (iblk m c 1 t) r q).trans
    (Finset.sum_congr rfl fun d _ =>
      congrArg₂ (· * ·) (congrArg (Ideal.ofBits .f32 0xC0000000#32 * ·) (iblk0_apply m c t r d)) (iblk1_apply m c t d q))

end Cert.KernelIdeal.Glue

end
-- ==== Proof.KValRow.lean ====
/-
  The row direction of the tiled Chamfer value.

  The 64 grid points run through 16 batches; within batch b the four points 4b, 4b+1, 4b+2, 4b+3 have
  (row tile, column tile) = (0,0), (0,1), (1,0), (1,1).  The running row minimum restarts from +∞ at a point of
  column tile 0 and is continued at a point of column tile 1, so after the second point of a row tile it is,
  for row r, the minimum from +∞ over tile 0 and then tile 1 of (cross term + squared norm of the other
  point): the specification's row accumulator at point r of that row tile.  The running sum is reset to 0 at
  the batch's first point, and at each point of column tile 1 the clamped (squared norm + row minimum) of the
  2048 rows is added.  After the batch's last point it is the specification's first result of the batch.
-/
import proofs.«114531_j51814485459453_2_alg».proof.Proof.KPoint
import proofs.«114531_j51814485459453_2_alg».proof.Proof.KState

noncomputable section

namespace Cert.KernelIdeal.Glue

open Cert.KernelIdeal Cert.KernelIdeal.Gen
open Idealize.ShloMosaic Idealize.ShloMosaic.TcCoe Idealize.SL.Sem Idealize.ShloMosaic.ValueIdx
open Cert.Chamfer (tl nrm cross rowAcc outXY)
open scoped BigOperators

variable (m : (ℓ : Loc nD τ sig) → Buf (Elt Ideal) ℓ)

/-! ## One point's row minimum and its two updates, in the specification's vocabulary -/

/-- The minimum from +∞, over the points of point t's column tile, of (cross term + squared norm), for row r of
its row tile. -/
def rowFold (c : Dev nD) (t : Fin cfg0.N) (r : Fin 2048) : EReal :=
  (Finset.univ : Finset (Fin 2048)).fold min ⊤ (fun q =>
    cross (cloudX m c) (cloudY m c) cc (ptB t) (tl (ptN t) r) (tl (ptM t) q) + nrm (cloudY m c) (ptB t) (tl (ptM t) q))

/-- With the point's batch and tiles named, the same fold. -/
theorem rowFold_eq (c : Dev nD) (t : Fin cfg0.N) (b : Fin 16) (n k : Fin 2) (hB : ptB t = b) (hN : ptN t = n)
    (hM : ptM t = k) (r : Fin 2048) :
    rowFold m c t r = (Finset.univ : Finset (Fin 2048)).fold min ⊤ (fun q =>
      cross (cloudX m c) (cloudY m c) cc b (tl n r) (tl k q) + nrm (cloudY m c) b (tl k q)) := by
  unfold rowFold
  rw [hB, hN, hM]

/-- The running row minimum after point t: the minimum of what it held and the point's fold. -/
theorem nx7_pt (c : Dev nD) (t : Fin cfg0.N) (b7 : Vec Ideal S2048x1 .f32) (r : Fin 2048) (u : Fin 1) :
    nx7 b7 (iblk m c 0 t) (iblk m c 1 t) (ix2 r u) = min (b7 (ix2 r u)) (rowFold m c t r) := by
  unfold nx7 rowFold
  rw [PayIdeal.k0_pay1_apply, PayIdeal.k0_pay15_apply]
  refine congrArg (min (b7 (ix2 r u))) (Finset.fold_congr fun q _ => ?_)
  rw [pay14_pt, pay12_pt]

/-- The running sum after a point that adds: what it held plus the clamped (squared norm + row minimum) of the rows. -/
theorem nx10_pt (c : Dev nD) (t : Fin cfg0.N) (b10 : Vec Ideal S1x1 .f32) (n7 : Vec Ideal S2048x1 .f32) (u u' : Fin 1) :
    nx10 b10 n7 (iblk m c 0 t) (ix2 u u')
      = b10 (ix2 u u') + ∑ r : Fin 2048, max (nrm (cloudX m c) (ptB t) (tl (ptN t) r) + n7 (ix2 r (0 : Fin 1))) 0 := by
  unfold nx10
  rw [PayIdeal.k0_pay3_apply]
  refine congrArg (fun z => b10 (ix2 u u') + z) (Finset.sum_congr rfl fun r _ => ?_)
  rw [pay11_pt]

/-! ## The fixed run, one point at a time -/

/-- At a point of column tile 0 the running row minimum restarts from +∞. -/
theorem a7_restart (c : Dev nD) (t : Fin cfg0.N) (h : t.val % 4 = 0 ∨ t.val % 4 = 2) (r : Fin 2048) (u : Fin 1) :
    (canon m c (t.val + 1)).a7 (ix2 r u) = min ⊤ (rowFold m c t r) := by
  rw [canon_succ]
  rcases h with h | h
  · rw [h, stepSt_0]
    show nx7 (k0_pay8 (F := Ideal)) (iblk m c 0 t) (iblk m c 1 t) (ix2 r u) = _
    rw [nx7_pt, PayIdeal.k0_pay8_apply]
  · rw [h, stepSt_2]
    show nx7 (k0_pay8 (F := Ideal)) (iblk m c 0 t) (iblk m c 1 t) (ix2 r u) = _
    rw [nx7_pt, PayIdeal.k0_pay8_apply]

/-- At a point of column tile 1 it is continued. -/
theorem a7_cont (c : Dev nD) (t : Fin cfg0.N) (h : t.val % 4 = 1 ∨ t.val % 4 = 3) (r : Fin 2048) (u : Fin 1) :
    (canon m c (t.val + 1)).a7 (ix2 r u) = min ((canon m c t.val).a7 (ix2 r u)) (rowFold m c t r) := by
  rw [canon_succ]
  rcases h with h | h
  · rw [h, stepSt_1]
    show nx7 (canon m c t.val).a7 (iblk m c 0 t) (iblk m c 1 t) (ix2 r u) = _
    rw [nx7_pt]
  · rw [h, stepSt_3]
    show nx7 (canon m c t.val).a7 (iblk m c 0 t) (iblk m c 1 t) (ix2 r u) = _
    rw [nx7_pt]

/-- At the first point of a batch the running sum is reset to 0. -/
theorem a10_reset (c : Dev nD) (t : Fin cfg0.N) (h : t.val % 4 = 0) (y : S1x1.Idx) :
    (canon m c (t.val + 1)).a10 y = 0 := by
  rw [canon_succ, h, stepSt_0]
  show k0_pay7 (F := Ideal) y = 0
  exact PayIdeal.k0_pay7_apply y

/-- At the third point of a batch it is kept. -/
theorem a10_keep (c : Dev nD) (t : Fin cfg0.N) (h : t.val % 4 = 2) :
    (canon m c (t.val + 1)).a10 = (canon m c t.val).a10 := by
  rw [canon_succ, h, stepSt_2]

/-- At a point of column tile 1 the rows' clamped distances are added, with the row minimum just updated. -/
theorem a10_add (c : Dev nD) (t : Fin cfg0.N) (h : t.val % 4 = 1 ∨ t.val % 4 = 3) (u u' : Fin 1) :
    (canon m c (t.val + 1)).a10 (ix2 u u')
      = (canon m c t.val).a10 (ix2 u u')
        + ∑ r : Fin 2048, max (nrm (cloudX m c) (ptB t) (tl (ptN t) r) + (canon m c (t.val + 1)).a7 (ix2 r (0 : Fin 1))) 0 := by
  rw [canon_succ]
  rcases h with h | h
  · rw [h, stepSt_1]
    show nx10 (canon m c t.val).a10 (nx7 (canon m c t.val).a7 (iblk m c 0 t) (iblk m c 1 t)) (iblk m c 0 t) (ix2 u u') = _
    rw [nx10_pt]
  · rw [h, stepSt_3]
    show nx10 (canon m c t.val).a10 (nx7 (canon m c t.val).a7 (iblk m c 0 t) (iblk m c 1 t)) (iblk m c 0 t) (ix2 u u') = _
    rw [nx10_pt]

/-! ## The four points of a batch -/

/-- Point j (0 to 3) of batch b. -/
def bpt (b : Fin 16) (j : ℕ) (hj : j < 4) : Fin cfg0.N :=
  ⟨4 * b.val + j, by have hN : cfg0.N = 64 := Gen.N_0; have := b.isLt; omega⟩

theorem bpt_val (b : Fin 16) (j : ℕ) (hj : j < 4) : (bpt b j hj).val = 4 * b.val + j := rfl

theorem bpt_mod (b : Fin 16) (j : ℕ) (hj : j < 4) : (bpt b j hj).val % 4 = j := by
  rw [bpt_val]; omega

theorem ptB_bpt (b : Fin 16) (j : ℕ) (hj : j < 4) : ptB (bpt b j hj) = b :=
  Fin.ext (by show (4 * b.val + j) / 4 = b.val; omega)

theorem ptN_bpt (b : Fin 16) (j : ℕ) (hj : j < 4) : (ptN (bpt b j hj)).val = j / 2 := by
  show (4 * b.val + j) / 2 % 2 = j / 2; omega

theorem ptM_bpt (b : Fin 16) (j : ℕ) (hj : j < 4) : (ptM (bpt b j hj)).val = j % 2 := by
  show (4 * b.val + j) % 2 = j % 2; omega

/-- The row tile of point j of batch b, named. -/
theorem ptN_bpt' (b : Fin 16) (j : ℕ) (hj : j < 4) (n : Fin 2) (hn : n.val = j / 2) : ptN (bpt b j hj) = n :=
  Fin.ext ((ptN_bpt b j hj).trans hn.symm)

/-- The column tile of point j of batch b, named. -/
theorem ptM_bpt' (b : Fin 16) (j : ℕ) (hj : j < 4) (k : Fin 2) (hk : k.val = j % 2) : ptM (bpt b j hj) = k :=
  Fin.ext ((ptM_bpt b j hj).trans hk.symm)

/-! ## The running row minimum after each row tile of a batch -/

/-- After the second point of batch b the running row minimum is the row accumulator of the points of row tile 0. -/
theorem a7_tile0 (c : Dev nD) (b : Fin 16) (r : Fin 2048) (u : Fin 1) :
    (canon m c (4 * b.val + 2)).a7 (ix2 r u) = rowAcc (cloudX m c) (cloudY m c) cc b (tl 0 r) := by
  have e2 : 4 * b.val + 2 = (bpt b 1 (by omega)).val + 1 := rfl
  have e1 : (bpt b 1 (by omega)).val = (bpt b 0 (by omega)).val + 1 := rfl
  rw [e2, a7_cont m c _ (Or.inl (bpt_mod b 1 _)), e1, a7_restart m c _ (Or.inl (bpt_mod b 0 _))]
  rw [rowFold_eq m c _ b 0 0 (ptB_bpt b 0 _) (ptN_bpt' b 0 _ 0 rfl) (ptM_bpt' b 0 _ 0 rfl),
    rowFold_eq m c _ b 0 1 (ptB_bpt b 1 _) (ptN_bpt' b 1 _ 0 rfl) (ptM_bpt' b 1 _ 1 rfl)]
  rfl

/-- After the fourth point of batch b it is the row accumulator of the points of row tile 1. -/
theorem a7_tile1 (c : Dev nD) (b : Fin 16) (r : Fin 2048) (u : Fin 1) :
    (canon m c (4 * b.val + 4)).a7 (ix2 r u) = rowAcc (cloudX m c) (cloudY m c) cc b (tl 1 r) := by
  have e4 : 4 * b.val + 4 = (bpt b 3 (by omega)).val + 1 := rfl
  have e3 : (bpt b 3 (by omega)).val = (bpt b 2 (by omega)).val + 1 := rfl
  rw [e4, a7_cont m c _ (Or.inr (bpt_mod b 3 _)), e3, a7_restart m c _ (Or.inr (bpt_mod b 2 _))]
  rw [rowFold_eq m c _ b 1 0 (ptB_bpt b 2 _) (ptN_bpt' b 2 _ 1 rfl) (ptM_bpt' b 2 _ 0 rfl),
    rowFold_eq m c _ b 1 1 (ptB_bpt b 3 _) (ptN_bpt' b 3 _ 1 rfl) (ptM_bpt' b 3 _ 1 rfl)]
  rfl

/-! ## The running sum along a batch -/

/-- After the first point of batch b the running sum is 0. -/
theorem a10_after1 (c : Dev nD) (b : Fin 16) (y : S1x1.Idx) : (canon m c (4 * b.val + 1)).a10 y = 0 := by
  have e : 4 * b.val + 1 = (bpt b 0 (by omega)).val + 1 := rfl
  rw [e]
  exact a10_reset m c _ (bpt_mod b 0 _) y

/-- After the second point it is 0 plus the clamped row distances of row tile 0. -/
theorem a10_after2 (c : Dev nD) (b : Fin 16) :
    (canon m c (4 * b.val + 2)).a10 (ix2 (0 : Fin 1) (0 : Fin 1))
      = 0 + ∑ r : Fin 2048, max (nrm (cloudX m c) b (tl 0 r) + rowAcc (cloudX m c) (cloudY m c) cc b (tl 0 r)) 0 := by
  have e2 : 4 * b.val + 2 = (bpt b 1 (by omega)).val + 1 := rfl
  rw [e2, a10_add m c _ (Or.inl (bpt_mod b 1 _))]
  refine congrArg₂ (· + ·) ?_ (Finset.sum_congr rfl fun r _ => ?_)
  · exact a10_after1 m c b _
  · rw [ptB_bpt, ptN_bpt' b 1 _ 0 rfl]
    exact congrArg (fun z => max (nrm (cloudX m c) b (tl 0 r) + z) 0) (a7_tile0 m c b r 0)

/-- The third point keeps it. -/
theorem a10_after3 (c : Dev nD) (b : Fin 16) : (canon m c (4 * b.val + 3)).a10 = (canon m c (4 * b.val + 2)).a10 := by
  have e3 : 4 * b.val + 3 = (bpt b 2 (by omega)).val + 1 := rfl
  rw [e3]
  exact a10_keep m c _ (bpt_mod b 2 _)

/-- THE ROW DIRECTION: after the four points of batch b the running sum is the specification's first result of the
batch. -/
theorem row_value (c : Dev nD) (b : Fin 16) :
    (canon m c (4 * b.val + 4)).a10 (ix2 (0 : Fin 1) (0 : Fin 1)) = outXY (cloudX m c) (cloudY m c) cc b := by
  have e4 : 4 * b.val + 4 = (bpt b 3 (by omega)).val + 1 := rfl
  rw [e4, a10_add m c _ (Or.inr (bpt_mod b 3 _))]
  unfold outXY
  refine congrArg₂ (· + ·) ?_ (Finset.sum_congr rfl fun r _ => ?_)
  · have e3 : (canon m c (bpt b 3 (by omega)).val).a10 = (canon m c (4 * b.val + 2)).a10 := a10_after3 m c b
    rw [e3]
    exact a10_after2 m c b
  · rw [ptB_bpt, ptN_bpt' b 3 _ 1 rfl]
    exact congrArg (fun z => max (nrm (cloudX m c) b (tl 1 r) + z) 0) (a7_tile1 m c b r 0)

end Cert.KernelIdeal.Glue

end
-- ==== Proof.KHalf.lean ====
import proofs.«114531_j51814485459453_2_alg».proof.Proof.KState
import proofs.«114531_j51814485459453_2_alg».proof.Proof.ChamferSpec
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Chamfer

/-! ## A replaced half, read in the vocabulary of tiles

Column `tl j q` of a [1, 4096] row is column `q` of its half `j`.  The point `t` works on half `t % 2`: there the replaced
row reads the new half at `q`, on the other half the old row. -/

/-- The column tile of a point. -/
abbrev ptHalf (t : Fin cfg0.N) : Fin 2 := ⟨t.val % 2, Nat.mod_lt _ (by decide)⟩

theorem tile_mem (t : Fin cfg0.N) (q : Fin 2048) :
    ∀ a, hOff (grid0.coords t) a ≤ ((ix2 (0 : Fin 1) (tl (ptHalf t) q) : S1x4096.Idx) a).val
      ∧ ((ix2 (0 : Fin 1) (tl (ptHalf t) q) : S1x4096.Idx) a).val < hOff (grid0.coords t) a + (![1, 2048] : Fin 2 → ℕ) a := by
  rw [mem_half_iff]
  show 2048 * (t.val % 2) ≤ 2048 * (t.val % 2) + q.val ∧ 2048 * (t.val % 2) + q.val < 2048 * (t.val % 2) + 2048
  have := q.isLt
  omega

theorem tile_not_mem (t : Fin cfg0.N) (j : Fin 2) (hj : j.val ≠ t.val % 2) (q : Fin 2048) :
    ¬∀ a, hOff (grid0.coords t) a ≤ ((ix2 (0 : Fin 1) (tl j q) : S1x4096.Idx) a).val
      ∧ ((ix2 (0 : Fin 1) (tl j q) : S1x4096.Idx) a).val < hOff (grid0.coords t) a + (![1, 2048] : Fin 2 → ℕ) a := by
  rw [mem_half_iff]
  show ¬(2048 * (t.val % 2) ≤ 2048 * j.val + q.val ∧ 2048 * j.val + q.val < 2048 * (t.val % 2) + 2048)
  have := q.isLt
  have := j.isLt
  omega

/-- On the point's own half the replaced row reads the new half. -/
theorem setHalf_tile_mem (t : Fin cfg0.N) (d : Vec F S1x4096 .f32) (p : Vec F S1x2048 .f32) (q : Fin 2048) :
    setHalf (grid0.coords t) d p (ix2 (0 : Fin 1) (tl (ptHalf t) q)) = p (ix2 (0 : Fin 1) q) := by
  unfold setHalf
  rw [dif_pos (tile_mem t q)]
  refine congrArg p (funext fun a => Fin.ext ?_)
  rw [Rect.unitLocal_val]
  match a with
  | ⟨0, _⟩ => rfl
  | ⟨1, _⟩ =>
    show 2048 * (t.val % 2) + q.val - hOff (grid0.coords t) 1 = q.val
    rw [hOff_coords t]; omega

/-- On the other half it reads the old row. -/
theorem setHalf_tile_not_mem (t : Fin cfg0.N) (d : Vec F S1x4096 .f32) (p : Vec F S1x2048 .f32) (j : Fin 2)
    (hj : j.val ≠ t.val % 2) (q : Fin 2048) :
    setHalf (grid0.coords t) d p (ix2 (0 : Fin 1) (tl j q)) = d (ix2 (0 : Fin 1) (tl j q)) :=
  setHalf_of_not_mem _ _ _ _ (tile_not_mem t j hj q)

/-- The half read out: column `q` of it is column `tl (t % 2) q` of the row. -/
theorem getHalf_tile (t : Fin cfg0.N) (d : Vec F S1x4096 .f32) (q : Fin 2048) :
    getHalf (grid0.coords t) d (ix2 (0 : Fin 1) q) = d (ix2 (0 : Fin 1) (tl (ptHalf t) q)) := by
  unfold getHalf
  show d ((Rect.unit (s := S1x4096) (hOff (grid0.coords t)) ![1, 2048] (hOff_inb (grid0.coords t))).idx (ix2 (0 : Fin 1) q)) = _
  refine congrArg d (funext fun a => Fin.ext ?_)
  match a with
  | ⟨0, _⟩ => rfl
  | ⟨1, _⟩ =>
    show hOff (grid0.coords t) 1 + 1 * q.val = 2048 * (t.val % 2) + q.val
    rw [hOff_coords t]; omega

end Cert.KernelIdeal.Gen

end
-- ==== Proof.LibFoldMin.lean ====
/-
  General laws used to compare two ways of writing a nearest-neighbour loss over the extended reals.

  * The coercion of the reals into the extended reals commutes with finite sums.
  * Adding a real number commutes with a fold of `min` started at `⊤`: adding a fixed real is monotone,
    and a real plus `⊤` is `⊤`, so the law also holds over the empty index set.
  * Clamping below at 0 commutes with a fold of `min` started at `⊤`: `max (min u v) 0 = min (max u 0) (max v 0)`
    and `max ⊤ 0 = ⊤`.
  * If a finite type is covered by two disjoint embedded copies of another finite type, a fold (of any
    commutative associative operation) or a sum over the whole type splits into the two parts.
-/
import Mathlib.Data.EReal.Operations
import Mathlib.Algebra.BigOperators.Fin

/-!
# Folds of `min` from `⊤` and sums over a finite type split into two parts

General lemmas over the extended reals: the coercion of the reals commutes with finite sums; adding a real
number and clamping below at 0 both commute with a fold of `min` started at `⊤`; a fold or a sum over a
finite type covered by two disjoint embedded copies of another finite type splits into the two parts.
-/

namespace Cert.Lib

open scoped BigOperators

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Adding a fixed real number distributes over `min`, because it is monotone. -/
theorem coe_add_min (a : ℝ) (u v : EReal) :
    (a : EReal) + min u v = min ((a : EReal) + u) ((a : EReal) + v) :=
  Monotone.map_min (f := fun z : EReal => (a : EReal) + z) (fun _ _ h => add_le_add le_rfl h)

/-- Adding a real number commutes with a fold of `min` from `⊤` (over any finite set, the empty one included). -/
theorem coe_add_fold_min {ι : Type*} (a : ℝ) (s : Finset ι) (f : ι → EReal) :
    (a : EReal) + s.fold min ⊤ f = s.fold min ⊤ (fun i => (a : EReal) + f i) := by
  have h := Finset.fold_hom (op := min) (op' := min) (f := f) (b := (⊤ : EReal)) (s := s)
    (m := fun z : EReal => (a : EReal) + z) (coe_add_min a)
  calc (a : EReal) + s.fold min ⊤ f
      = s.fold min ((a : EReal) + ⊤) (fun i => (a : EReal) + f i) := h.symm
    _ = s.fold min ⊤ (fun i => (a : EReal) + f i) := by rw [EReal.coe_add_top]

/-- Clamping below at 0 commutes with a fold of `min` from `⊤`. -/
theorem max_zero_fold_min {ι : Type*} (s : Finset ι) (f : ι → EReal) :
    max (s.fold min ⊤ f) 0 = s.fold min ⊤ (fun i => max (f i) 0) := by
  have h := Finset.fold_hom (op := min) (op' := min) (f := f) (b := (⊤ : EReal)) (s := s)
    (m := fun z : EReal => max z 0) (fun u v => max_min_distrib_right u v 0)
  calc max (s.fold min ⊤ f) 0
      = s.fold min (max ⊤ 0) (fun i => max (f i) 0) := h.symm
    _ = s.fold min ⊤ (fun i => max (f i) 0) := by rw [max_top_left]

/-- The clamp applied after adding a real to a minimum is the minimum of the clamped sums. -/
theorem max_zero_coe_add_fold_min {ι : Type*} (a : ℝ) (s : Finset ι) (f : ι → EReal) :
    max ((a : EReal) + s.fold min ⊤ f) 0 = s.fold min ⊤ (fun i => max ((a : EReal) + f i) 0) := by
  rw [coe_add_fold_min, max_zero_fold_min]

section Split

variable {ι κ : Type*} [Fintype ι] [Fintype κ]

/-- Two embeddings with nowhere equal values have disjoint images. -/
theorem disjoint_map_univ (g₀ g₁ : κ ↪ ι) (hdisj : ∀ k k', g₀ k ≠ g₁ k') :
    Disjoint ((Finset.univ : Finset κ).map g₀) ((Finset.univ : Finset κ).map g₁) := by
  rw [Finset.disjoint_left]
  intro i h0 h1
  obtain ⟨k, -, hk⟩ := Finset.mem_map.1 h0
  obtain ⟨k', -, hk'⟩ := Finset.mem_map.1 h1
  exact hdisj k k' (hk.trans hk'.symm)

/-- If the two images cover the type, the whole type is their disjoint union. -/
theorem univ_eq_disjUnion (g₀ g₁ : κ ↪ ι) (hdisj : ∀ k k', g₀ k ≠ g₁ k')
    (hcov : ∀ i, (∃ k, g₀ k = i) ∨ ∃ k, g₁ k = i) :
    (Finset.univ : Finset ι)
      = ((Finset.univ : Finset κ).map g₀).disjUnion ((Finset.univ : Finset κ).map g₁)
          (disjoint_map_univ g₀ g₁ hdisj) := by
  ext i
  simp only [Finset.mem_univ, Finset.mem_disjUnion, Finset.mem_map, true_and, true_iff]
  exact hcov i

/-- A fold over the whole type splits into the folds over the two parts. -/
theorem fold_univ_split {β : Type*} (op : β → β → β) [Std.Commutative op] [Std.Associative op]
    (b₀ b₁ : β) (f : ι → β) (g₀ g₁ : κ ↪ ι) (hdisj : ∀ k k', g₀ k ≠ g₁ k')
    (hcov : ∀ i, (∃ k, g₀ k = i) ∨ ∃ k, g₁ k = i) :
    (Finset.univ : Finset ι).fold op (op b₀ b₁) f
      = op ((Finset.univ : Finset κ).fold op b₀ (fun k => f (g₀ k)))
          ((Finset.univ : Finset κ).fold op b₁ (fun k => f (g₁ k))) := by
  rw [univ_eq_disjUnion g₀ g₁ hdisj hcov, Finset.fold_disjUnion, Finset.fold_map, Finset.fold_map]
  rfl

/-- A sum over the whole type splits into the sums over the two parts. -/
theorem sum_univ_split {M : Type*} [AddCommMonoid M] (f : ι → M) (g₀ g₁ : κ ↪ ι)
    (hdisj : ∀ k k', g₀ k ≠ g₁ k') (hcov : ∀ i, (∃ k, g₀ k = i) ∨ ∃ k, g₁ k = i) :
    ∑ i, f i = ∑ k, f (g₀ k) + ∑ k, f (g₁ k) := by
  rw [univ_eq_disjUnion g₀ g₁ hdisj hcov, Finset.sum_disjUnion, Finset.sum_map, Finset.sum_map]

/-- A running minimum from `⊤` taken part by part is the minimum over the whole type. -/
theorem fold_min_univ_split (f : ι → EReal) (g₀ g₁ : κ ↪ ι) (hdisj : ∀ k k', g₀ k ≠ g₁ k')
    (hcov : ∀ i, (∃ k, g₀ k = i) ∨ ∃ k, g₁ k = i) :
    min (min ⊤ ((Finset.univ : Finset κ).fold min ⊤ fun k => f (g₀ k)))
        ((Finset.univ : Finset κ).fold min ⊤ fun k => f (g₁ k))
      = (Finset.univ : Finset ι).fold min ⊤ f := by
  rw [min_top_left, ← fold_univ_split min ⊤ ⊤ f g₀ g₁ hdisj hcov, min_self]

end Split

end Cert.Lib
-- ==== Proof.ChamferAlgebra.lean ====
/-
  The tiled form of the Chamfer loss agrees with the reference form on real-valued clouds.

  With real inputs every squared norm, inner product and cross term is the coercion of a real number, and the
  cross term with the factor -2 folded into x is -2 times the inner product.  The two halves of the 4096
  points are disjoint and cover them, so the running minimum from +∞ over tile 0 and then tile 1 is the
  minimum over all points, and a sum accumulated tile by tile is the sum over all points.  Adding the real
  squared norm of the point and clamping at 0 both commute with the minimum, and
  |x|² + (-2 x·y + |y|²) = |x|² + |y|² - 2 x·y in the reals, so each clamped minimum of the tiled form is the
  minimum of the clamped distances of the reference form.  The outer factor is the same on both sides and
  only changes side.
-/
import proofs.«114531_j51814485459453_2_alg».proof.Proof.ChamferSpec
import proofs.«114531_j51814485459453_2_alg».proof.Proof.LibFoldMin

noncomputable section

namespace Cert.Chamfer

open scoped BigOperators
open Cert.Lib

/-! ### The two tiles partition the points -/

/-- Within a tile, different offsets are different points. -/
theorem tl_injective (j : Fin 2) : Function.Injective (tl j) := by
  intro k k' h
  have hv := congrArg Fin.val h
  simp only [tl] at hv
  exact Fin.ext (by omega)

/-- A tile as an embedding of its offsets into the points. -/
def tlEmb (j : Fin 2) : Fin 2048 ↪ Fin 4096 := ⟨tl j, tl_injective j⟩

@[simp] theorem tlEmb_apply (j : Fin 2) (k : Fin 2048) : tlEmb j k = tl j k := rfl

/-- The two tiles have no point in common. -/
theorem tl_disj (k k' : Fin 2048) : tl 0 k ≠ tl 1 k' := by
  intro h
  have hv := congrArg Fin.val h
  have := k.isLt
  simp [tl] at hv
  omega

/-- Every point lies in tile 0 or in tile 1. -/
theorem tl_cover (i : Fin 4096) : (∃ k, tl 0 k = i) ∨ ∃ k, tl 1 k = i := by
  by_cases h : i.val < 2048
  · exact Or.inl ⟨⟨i.val, h⟩, Fin.ext (by simp [tl])⟩
  · have := i.isLt
    exact Or.inr ⟨⟨i.val - 2048, by omega⟩, Fin.ext (by simp [tl]; omega)⟩

/-- The running minimum from +∞ over tile 0 and then tile 1 is the minimum over all 4096 points. -/
theorem fold_tiles (f : Fin 4096 → EReal) :
    min (min ⊤ ((Finset.univ : Finset (Fin 2048)).fold min ⊤ fun k => f (tl 0 k)))
        ((Finset.univ : Finset (Fin 2048)).fold min ⊤ fun k => f (tl 1 k))
      = (Finset.univ : Finset (Fin 4096)).fold min ⊤ f :=
  fold_min_univ_split f (tlEmb 0) (tlEmb 1) tl_disj tl_cover

/-- A sum accumulated over tile 0 and then tile 1 is the sum over all 4096 points. -/
theorem sum_tiles {M : Type*} [AddCommMonoid M] (f : Fin 4096 → M) :
    (∑ k : Fin 2048, f (tl 0 k)) + ∑ k : Fin 2048, f (tl 1 k) = ∑ n : Fin 4096, f n :=
  (sum_univ_split f (tlEmb 0) (tlEmb 1) tl_disj tl_cover).symm

/-! ### (ii) The accumulators as a single minimum over all points (any inputs) -/

/-- The row accumulator is one minimum over all points of Y. -/
theorem rowAcc_eq (X Y : Pts) (c : EReal) (b : Fin 16) (n : Fin 4096) :
    rowAcc X Y c b n
      = (Finset.univ : Finset (Fin 4096)).fold min ⊤ (fun m => cross X Y c b n m + nrm Y b m) :=
  fold_tiles (fun m => cross X Y c b n m + nrm Y b m)

/-- The column accumulator is one minimum over all points of X. -/
theorem colAcc_eq (X Y : Pts) (c : EReal) (b : Fin 16) (m : Fin 4096) :
    colAcc X Y c b m
      = (Finset.univ : Finset (Fin 4096)).fold min ⊤ (fun n => cross X Y c b n m + nrm X b n) :=
  fold_tiles (fun n => cross X Y c b n m + nrm X b n)

/-! ### Real-valued clouds -/

/-- A real-valued batch of clouds, read in the extended reals. -/
abbrev up (x : Fin 16 → Fin 4096 → Fin 64 → ℝ) : Pts := fun b n d => ((x b n d : ℝ) : EReal)

/-- The squared norm of a real point. -/
def nrmR (x : Fin 16 → Fin 4096 → Fin 64 → ℝ) (b : Fin 16) (n : Fin 4096) : ℝ :=
  ∑ d : Fin 64, x b n d * x b n d

/-- The inner product of two real points. -/
def dotR (x y : Fin 16 → Fin 4096 → Fin 64 → ℝ) (b : Fin 16) (n m : Fin 4096) : ℝ :=
  ∑ d : Fin 64, x b n d * y b m d

/-- On real inputs the squared norm is a real number. -/
theorem nrm_up (x : Fin 16 → Fin 4096 → Fin 64 → ℝ) (b : Fin 16) (n : Fin 4096) :
    nrm (up x) b n = ((nrmR x b n : ℝ) : EReal) := by
  unfold nrm nrmR
  rw [coe_finset_sum]
  exact Finset.sum_congr rfl (fun d _ => (EReal.coe_mul _ _).symm)

/-- On real inputs the inner product is a real number. -/
theorem dot_up (x y : Fin 16 → Fin 4096 → Fin 64 → ℝ) (b : Fin 16) (n m : Fin 4096) :
    dot (up x) (up y) b n m = ((dotR x y b n m : ℝ) : EReal) := by
  unfold dot dotR
  rw [coe_finset_sum]
  exact Finset.sum_congr rfl (fun d _ => (EReal.coe_mul _ _).symm)

/-- (i) On real inputs the cross term with the factor -2 folded into x is the real -2 · (x·y). -/
theorem cross_up (x y : Fin 16 → Fin 4096 → Fin 64 → ℝ) (b : Fin 16) (n m : Fin 4096) :
    cross (up x) (up y) ((-2 : ℝ) : EReal) b n m = ((-2 * dotR x y b n m : ℝ) : EReal) := by
  unfold cross dotR
  rw [Finset.mul_sum, coe_finset_sum]
  refine Finset.sum_congr rfl (fun d _ => ?_)
  rw [← EReal.coe_mul, ← EReal.coe_mul, mul_assoc]

/-- (i) The same fact against the extended-real inner product: cross = -2 · dot on real inputs. -/
theorem cross_eq_neg_two_mul_dot (x y : Fin 16 → Fin 4096 → Fin 64 → ℝ) (b : Fin 16) (n m : Fin 4096) :
    cross (up x) (up y) ((-2 : ℝ) : EReal) b n m = ((-2 : ℝ) : EReal) * dot (up x) (up y) b n m := by
  rw [cross_up, dot_up, EReal.coe_mul]

/-- One pair of points, row direction: |x|² + (cross + |y|²), clamped, is the reference's clamped distance. -/
theorem row_term (x y : Fin 16 → Fin 4096 → Fin 64 → ℝ) (b : Fin 16) (n m : Fin 4096) :
    max (((nrmR x b n : ℝ) : EReal) + (cross (up x) (up y) ((-2 : ℝ) : EReal) b n m + nrm (up y) b m)) 0
      = dist (up x) (up y) ((2 : ℝ) : EReal) b n m := by
  unfold dist
  rw [nrm_up, nrm_up, cross_up, dot_up]
  congr 1
  rw [← EReal.coe_add, ← EReal.coe_add, ← EReal.coe_add, ← EReal.coe_mul, ← EReal.coe_sub]
  congr 1
  ring

/-- One pair of points, column direction: |y|² + (cross + |x|²), clamped, is the reference's clamped distance. -/
theorem col_term (x y : Fin 16 → Fin 4096 → Fin 64 → ℝ) (b : Fin 16) (n m : Fin 4096) :
    max (((nrmR y b m : ℝ) : EReal) + (cross (up x) (up y) ((-2 : ℝ) : EReal) b n m + nrm (up x) b n)) 0
      = dist (up x) (up y) ((2 : ℝ) : EReal) b n m := by
  unfold dist
  rw [nrm_up, nrm_up, cross_up, dot_up]
  congr 1
  rw [← EReal.coe_add, ← EReal.coe_add, ← EReal.coe_add, ← EReal.coe_mul, ← EReal.coe_sub]
  congr 1
  ring

/-! ### (iii) The clamp after the minimum -/

/-- (iii) Row direction: the point's own norm added and the clamp applied after the minimum give the
minimum of the reference's clamped distances. -/
theorem clamp_rowAcc (x y : Fin 16 → Fin 4096 → Fin 64 → ℝ) (b : Fin 16) (n : Fin 4096) :
    max (nrm (up x) b n + rowAcc (up x) (up y) ((-2 : ℝ) : EReal) b n) 0
      = (Finset.univ : Finset (Fin 4096)).fold min ⊤ (fun m => dist (up x) (up y) ((2 : ℝ) : EReal) b n m) := by
  rw [rowAcc_eq, nrm_up x b n, max_zero_coe_add_fold_min]
  exact Finset.fold_congr (fun m _ => row_term x y b n m)

/-- (iii) Column direction. -/
theorem clamp_colAcc (x y : Fin 16 → Fin 4096 → Fin 64 → ℝ) (b : Fin 16) (m : Fin 4096) :
    max (nrm (up y) b m + colAcc (up x) (up y) ((-2 : ℝ) : EReal) b m) 0
      = (Finset.univ : Finset (Fin 4096)).fold min ⊤ (fun n => dist (up x) (up y) ((2 : ℝ) : EReal) b n m) := by
  rw [colAcc_eq, nrm_up y b m, max_zero_coe_add_fold_min]
  exact Finset.fold_congr (fun n _ => col_term x y b n m)

/-! ### (iv) The two results of a batch as the reference's inner sums -/

/-- (iv) The first result of batch `b` is the reference's sum over the points of X. -/
theorem outXY_eq (x y : Fin 16 → Fin 4096 → Fin 64 → ℝ) (b : Fin 16) :
    outXY (up x) (up y) ((-2 : ℝ) : EReal) b
      = ∑ n : Fin 4096, (Finset.univ : Finset (Fin 4096)).fold min ⊤
          (fun m => dist (up x) (up y) ((2 : ℝ) : EReal) b n m) := by
  unfold outXY
  rw [zero_add]
  have h := sum_tiles (fun n => max (nrm (up x) b n + rowAcc (up x) (up y) ((-2 : ℝ) : EReal) b n) 0)
  exact h.trans (Finset.sum_congr rfl (fun n _ => clamp_rowAcc x y b n))

/-- (iv) The second result of batch `b` is the reference's sum over the points of Y. -/
theorem outYX_eq (x y : Fin 16 → Fin 4096 → Fin 64 → ℝ) (b : Fin 16) :
    outYX (up x) (up y) ((-2 : ℝ) : EReal) b
      = ∑ m : Fin 4096, (Finset.univ : Finset (Fin 4096)).fold min ⊤
          (fun n => dist (up x) (up y) ((2 : ℝ) : EReal) b n m) := by
  unfold outYX
  exact Finset.sum_congr rfl (fun m _ => clamp_colAcc x y b m)

/-! ### The two losses -/

/-- The tiled loss and the reference loss agree on real-valued clouds (stated with `up`). -/
theorem kerLoss_up (x y : Fin 16 → Fin 4096 → Fin 64 → ℝ) (half : EReal) :
    kerLoss (up x) (up y) ((-2 : ℝ) : EReal) half = refLoss (up x) (up y) ((2 : ℝ) : EReal) half := by
  unfold kerLoss refLoss
  rw [zero_add, zero_add, EReal.mul_comm half, EReal.mul_comm half]
  simp only [outXY_eq, outYX_eq]

/-- The tiled loss and the reference loss agree on real-valued clouds. -/
theorem kerLoss_eq_refLoss (x y : Fin 16 → Fin 4096 → Fin 64 → ℝ) (half : EReal) :
    kerLoss (fun b n d => ((x b n d : ℝ) : EReal)) (fun b n d => ((y b n d : ℝ) : EReal)) ((-2 : ℝ) : EReal) half
      = refLoss (fun b n d => ((x b n d : ℝ) : EReal)) (fun b n d => ((y b n d : ℝ) : EReal)) ((2 : ℝ) : EReal) half :=
  kerLoss_up x y half

end Cert.Chamfer

end
-- ==== Proof.KValCol.lean ====
/-
  The running column minimum after a batch.

  Within batch b the four points visit (row tile, column tile) = (0,0), (0,1), (1,0), (1,1). A point replaces its
  column tile's half of the running row by the minimum of what the half held and, for each column, the minimum
  over the rows of its row tile of (cross term + squared norm of the row's point); the other half is kept. The
  first point of the batch starts from the row of +∞. So after the first two points every column j holds
  min ⊤ (minimum over row tile 0), and after all four  min (min ⊤ (minimum over row tile 0)) (minimum over row
  tile 1): the specification's column accumulator.
-/
import proofs.«114531_j51814485459453_2_alg».proof.Proof.KPoint
import proofs.«114531_j51814485459453_2_alg».proof.Proof.KHalf
import proofs.«114531_j51814485459453_2_alg».proof.Proof.ChamferAlgebra

set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx
open Cert.Chamfer (tl nrm cross colAcc tl_cover)
open scoped BigOperators

variable (m : (ℓ : Loc nD τ sig) → Buf (Elt Ideal) ℓ)

/-- For point j of the second cloud: the minimum, over the points of row tile n of the first cloud, of the cross term
    plus the squared norm of the first cloud's point, from ⊤. -/
def colFold (c : Dev nD) (b : Fin 16) (n : Fin 2) (j : Fin 4096) : EReal :=
  (Finset.univ : Finset (Fin 2048)).fold min ⊤
    fun r => cross (cloudX m c) (cloudY m c) cc b (tl n r) j + nrm (cloudX m c) b (tl n r)

/-- The specification's column accumulator is the two tiles' minima taken in turn from ⊤. -/
theorem colAcc_eq_colFold (c : Dev nD) (b : Fin 16) (j : Fin 4096) :
    colAcc (cloudX m c) (cloudY m c) cc b j = min (min ⊤ (colFold m c b 0 j)) (colFold m c b 1 j) := rfl

/-- On its own column tile a point leaves the minimum of what the row held and the minimum over its row tile. -/
theorem nx8_own (c : Dev nD) (t : Fin cfg0.N) (B : Vec Ideal S1x4096 .f32) (b : Fin 16) (n mm : Fin 2)
    (hb : t.val / 4 = b.val) (hn : t.val / 2 % 2 = n.val) (hm : t.val % 2 = mm.val) (q : Fin 2048) :
    nx8 (grid0.coords t) B (iblk m c 0 t) (iblk m c 1 t) (ix2 (0 : Fin 1) (tl mm q))
      = min (B (ix2 (0 : Fin 1) (tl mm q))) (colFold m c b n (tl mm q)) := by
  obtain rfl : b = ptB t := Fin.ext hb.symm
  obtain rfl : n = ptN t := Fin.ext hn.symm
  obtain rfl : mm = ptM t := Fin.ext hm.symm
  unfold nx8
  refine (setHalf_tile_mem t B _ q).trans ?_
  refine (PayIdeal.k0_pay2_apply _ _ _ (0 : Fin 1) q).trans ?_
  refine congrArg₂ min (getHalf_tile t B q) (Finset.fold_congr fun r _ => ?_)
  exact congrArg₂ (· + ·) (pay14_pt m c t r q) (pay11_pt m c t r (0 : Fin 1))

/-- On the other column tile a point keeps the row. -/
theorem nx8_other (c : Dev nD) (t : Fin cfg0.N) (B : Vec Ideal S1x4096 .f32) (j : Fin 2) (hj : j.val ≠ t.val % 2) (q : Fin 2048) :
    nx8 (grid0.coords t) B (iblk m c 0 t) (iblk m c 1 t) (ix2 (0 : Fin 1) (tl j q)) = B (ix2 (0 : Fin 1) (tl j q)) := by
  unfold nx8
  exact setHalf_tile_not_mem t B _ j hj q

/-- Two consecutive points of one batch and one row tile, column tiles 0 then 1: every column ends at the minimum of
    what the row held before the two points and the minimum over the row tile. -/
theorem nx8_pair (c : Dev nD) (t t' : Fin cfg0.N) (B : Vec Ideal S1x4096 .f32) (b : Fin 16) (n : Fin 2)
    (hb : t.val / 4 = b.val) (hn : t.val / 2 % 2 = n.val) (hm : t.val % 2 = 0) (ht' : t'.val = t.val + 1) (j : Fin 4096) :
    nx8 (grid0.coords t') (nx8 (grid0.coords t) B (iblk m c 0 t) (iblk m c 1 t)) (iblk m c 0 t') (iblk m c 1 t') (ix2 (0 : Fin 1) j)
      = min (B (ix2 (0 : Fin 1) j)) (colFold m c b n j) := by
  rcases tl_cover j with ⟨q, rfl⟩ | ⟨q, rfl⟩
  · rw [nx8_other m c t' _ 0 (by show (0 : ℕ) ≠ t'.val % 2; omega) q]
    exact nx8_own m c t B b n 0 hb hn hm q
  · rw [nx8_own m c t' _ b n 1 (by omega) (by omega) (by show t'.val % 2 = 1; omega) q,
      nx8_other m c t B 1 (by show (1 : ℕ) ≠ t.val % 2; omega) q]

/-- The running column minimum after a point, from the one before it (the row of +∞ at the first point of a batch). -/
theorem canon_a8_succ (c : Dev nD) (t : Fin cfg0.N) :
    (canon m c (t.val + 1)).a8
      = nx8 (grid0.coords t) (if t.val % 4 = 0 then k0_pay6 else (canon m c t.val).a8) (iblk m c 0 t) (iblk m c 1 t) := by
  rw [canon_succ]; rfl

/-- After the first two points t0, t1 of batch b every column holds the minimum over row tile 0, from ⊤. -/
theorem a8_half_of (c : Dev nD) (b : Fin 16) (t0 t1 : Fin cfg0.N) (h0 : t0.val = 4 * b.val) (h1 : t1.val = 4 * b.val + 1)
    (j : Fin 4096) :
    (canon m c (t1.val + 1)).a8 (ix2 (0 : Fin 1) j) = min ⊤ (colFold m c b 0 j) := by
  have e : (canon m c t1.val).a8 = (canon m c (t0.val + 1)).a8 := by rw [h1, h0]
  rw [canon_a8_succ m c t1, if_neg (by omega), e, canon_a8_succ m c t0, if_pos (by omega)]
  have hb : t0.val / 4 = b.val := by omega
  have hn : t0.val / 2 % 2 = (0 : Fin 2).val := by show t0.val / 2 % 2 = 0; omega
  have hm : t0.val % 2 = 0 := by omega
  have ht : t1.val = t0.val + 1 := by omega
  have hp := nx8_pair m c t0 t1 (k0_pay6 (F := Ideal)) b 0 hb hn hm ht j
  rw [PayIdeal.k0_pay6_apply] at hp
  exact hp

/-- After the four points t0 … t3 of batch b every column holds the specification's column accumulator. -/
theorem a8_value_of (c : Dev nD) (b : Fin 16) (t0 t1 t2 t3 : Fin cfg0.N) (h0 : t0.val = 4 * b.val) (h1 : t1.val = 4 * b.val + 1)
    (h2 : t2.val = 4 * b.val + 2) (h3 : t3.val = 4 * b.val + 3) (j : Fin 4096) :
    (canon m c (t3.val + 1)).a8 (ix2 (0 : Fin 1) j) = colAcc (cloudX m c) (cloudY m c) cc b j := by
  have e : (canon m c t3.val).a8 = (canon m c (t2.val + 1)).a8 := by rw [h3, h2]
  have e' : (canon m c t2.val).a8 = (canon m c (t1.val + 1)).a8 := by rw [h2, h1]
  rw [canon_a8_succ m c t3, if_neg (by omega), e, canon_a8_succ m c t2, if_neg (by omega), e']
  have hb : t2.val / 4 = b.val := by omega
  have hn : t2.val / 2 % 2 = (1 : Fin 2).val := by show t2.val / 2 % 2 = 1; omega
  have hm : t2.val % 2 = 0 := by omega
  have ht : t3.val = t2.val + 1 := by omega
  have hp := nx8_pair m c t2 t3 (canon m c (t1.val + 1)).a8 b 1 hb hn hm ht j
  rw [a8_half_of m c b t0 t1 h0 h1 j] at hp
  rw [colAcc_eq_colFold]
  exact hp

/-- After the four points of batch b every column of the running column minimum holds the specification's column
    accumulator. -/
theorem a8_value_pt (c : Dev nD) (b : Fin 16) (j : Fin 4096) :
    (canon m c (4 * b.val + 4)).a8 (ix2 (0 : Fin 1) j) = colAcc (cloudX m c) (cloudY m c) cc b j := by
  have hb := b.isLt
  have hN : cfg0.N = 64 := N_0
  exact a8_value_of m c b ⟨4 * b.val, by omega⟩ ⟨4 * b.val + 1, by omega⟩ ⟨4 * b.val + 2, by omega⟩ ⟨4 * b.val + 3, by omega⟩
    rfl rfl rfl rfl j

/-- The same, at column q of column tile j. -/
theorem a8_value (c : Dev nD) (b : Fin 16) (j : Fin 2) (q : Fin 2048) :
    (canon m c (4 * b.val + 4)).a8 (ix2 (0 : Fin 1) (tl j q)) = colAcc (cloudX m c) (cloudY m c) cc b (tl j q) :=
  a8_value_pt m c b (tl j q)

end Cert.KernelIdeal.Glue

end
-- ==== Proof.KValNorm.lean ====
/-
  The row of squared norms of the second cloud, after a batch.

  Every point writes the squared norms of its block of the second cloud into the half of the row its column tile names
  and keeps the other half.  The last two points of a batch have column tiles 0 and 1: after them the row holds the
  squared norm of every point of the batch's second cloud.
-/
import proofs.«114531_j51814485459453_2_alg».proof.Proof.KHalf
import proofs.«114531_j51814485459453_2_alg».proof.Proof.KPoint

noncomputable section

namespace Cert.KernelIdeal.Glue

open Cert.KernelIdeal Cert.KernelIdeal.Gen
open Idealize.ShloMosaic Idealize.ShloMosaic.TcCoe Idealize.SL.Sem Idealize.ShloMosaic.ValueIdx
open Cert.Chamfer (tl nrm)

variable (m : (ℓ : Loc nD τ sig) → Buf (Elt Ideal) ℓ)

/-- The norm row after any point, on the point's own half: the block's squared norms. -/
theorem a9_own (c : Dev nD) (t : Fin cfg0.N) (q : Fin 2048) :
    (canon m c (t.val + 1)).a9 (ix2 (0 : Fin 1) (tl (ptHalf t) q)) = nrm (cloudY m c) (ptB t) (tl (ptM t) q) := by
  rw [canon_succ]
  show nx9 (grid0.coords t) (canon m c t.val).a9 (iblk m c 1 t) (ix2 (0 : Fin 1) (tl (ptHalf t) q)) = _
  unfold nx9
  rw [setHalf_tile_mem, pay13_pt]

/-- On the other half: what the row held before the point. -/
theorem a9_other (c : Dev nD) (t : Fin cfg0.N) (j : Fin 2) (hj : j.val ≠ t.val % 2) (q : Fin 2048) :
    (canon m c (t.val + 1)).a9 (ix2 (0 : Fin 1) (tl j q)) = (canon m c t.val).a9 (ix2 (0 : Fin 1) (tl j q)) := by
  rw [canon_succ]
  show nx9 (grid0.coords t) (canon m c t.val).a9 (iblk m c 1 t) (ix2 (0 : Fin 1) (tl j q)) = _
  unfold nx9
  rw [setHalf_tile_not_mem _ _ _ j hj]

/-- After the last point of batch `b` the row holds every squared norm of the batch's second cloud. -/
theorem a9_value (c : Dev nD) (b : Fin 16) (j : Fin 2) (q : Fin 2048) :
    (canon m c (4 * b.val + 4)).a9 (ix2 (0 : Fin 1) (tl j q)) = nrm (cloudY m c) b (tl j q) := by
  have hb := b.isLt
  have hN : cfg0.N = 64 := N_0
  let t3 : Fin cfg0.N := ⟨4 * b.val + 3, by omega⟩
  let t2 : Fin cfg0.N := ⟨4 * b.val + 2, by omega⟩
  have e3 : ptB t3 = b := Fin.ext (by show (4 * b.val + 3) / 4 = b.val; omega)
  have e2 : ptB t2 = b := Fin.ext (by show (4 * b.val + 2) / 4 = b.val; omega)
  match j with
  | ⟨0, _⟩ =>
    have h1 := a9_other m c t3 (0 : Fin 2) (by show (0 : ℕ) ≠ (4 * b.val + 3) % 2; omega) q
    have h2 := a9_own m c t2 q
    have hh : ptHalf t2 = (0 : Fin 2) := Fin.ext (by show (4 * b.val + 2) % 2 = 0; omega)
    have hm : ptM t2 = (0 : Fin 2) := Fin.ext (by show (4 * b.val + 2) % 2 = 0; omega)
    rw [hh, hm, e2] at h2
    exact (h1.trans h2)
  | ⟨1, _⟩ =>
    have h2 := a9_own m c t3 q
    have hh : ptHalf t3 = (1 : Fin 2) := Fin.ext (by show (4 * b.val + 3) % 2 = 1; omega)
    have hm : ptM t3 = (1 : Fin 2) := Fin.ext (by show (4 * b.val + 3) % 2 = 1; omega)
    rw [hh, hm, e3] at h2
    exact h2

end Cert.KernelIdeal.Glue

end
-- ==== Proof.KValColSum.lean ====
/-
  The column direction's last step of the tiled Chamfer value.

  After the four points of batch b the norm row holds the squared norms of the second cloud's 4096 points of the
  batch.  If the running column minimum then holds, at every point, the specification's column accumulator, the
  second result written out — the sum over the 4096 points of the clamped (squared norm + column minimum) — is the
  specification's second result of the batch.  Every one of the 4096 points lies in tile 0 or tile 1, so the two
  sums agree term by term.
-/
import proofs.«114531_j51814485459453_2_alg».proof.Proof.KValNorm
import proofs.«114531_j51814485459453_2_alg».proof.Proof.KPayIdeal
import proofs.«114531_j51814485459453_2_alg».proof.Proof.ChamferAlgebra

noncomputable section

namespace Cert.KernelIdeal.Glue

open Cert.KernelIdeal Cert.KernelIdeal.Gen
open Idealize.ShloMosaic Idealize.ShloMosaic.TcCoe Idealize.SL.Sem Idealize.ShloMosaic.ValueIdx
open Cert.Chamfer (tl nrm colAcc outYX)
open scoped BigOperators

variable (m : (ℓ : Loc nD τ sig) → Buf (Elt Ideal) ℓ)

/-- THE COLUMN DIRECTION, last step: given the running column minimum after batch b, the second result written out
is the specification's second result of the batch. -/
theorem col_value_of (c : Dev nD) (b : Fin 16)
    (h8 : ∀ (j : Fin 2) (q : Fin 2048),
      (canon m c (4 * b.val + 4)).a8 (ix2 (0 : Fin 1) (tl j q)) = colAcc (cloudX m c) (cloudY m c) cc b (tl j q)) :
    k0_pay5 (F := Ideal) (canon m c (4 * b.val + 4)).a9 (canon m c (4 * b.val + 4)).a8
        (ix3 (0 : Fin 1) (0 : Fin 1) (0 : Fin 1))
      = outYX (cloudX m c) (cloudY m c) cc b := by
  rw [PayIdeal.k0_pay5_apply]
  unfold Cert.Chamfer.outYX
  refine Finset.sum_congr rfl fun i _ => ?_
  rcases Cert.Chamfer.tl_cover i with ⟨q, rfl⟩ | ⟨q, rfl⟩
  · rw [a9_value m c b 0 q, h8 0 q]
  · rw [a9_value m c b 1 q, h8 1 q]

end Cert.KernelIdeal.Glue

end
-- ==== Proof.KFinal.lean ====
/-
  The kernel's result, as the specification's tiled formula.

  The two [16, 1, 1] arrays the region leaves hold, at batch b, what the last point of the batch stored: the running
  sum of the clamped row distances, and the sum of the clamped column distances.  The host lines after the region sum
  each over the batches from 0, halve, and add: the specification's `kerLoss` of the two clouds as the memory holds them.
-/
import proofs.«114531_j51814485459453_2_alg».proof.Proof.KBody
import proofs.«114531_j51814485459453_2_alg».proof.Proof.KArr
import proofs.«114531_j51814485459453_2_alg».proof.Proof.KGlueTail
import proofs.«114531_j51814485459453_2_alg».proof.Proof.KValRow
import proofs.«114531_j51814485459453_2_alg».proof.Proof.KValCol
import proofs.«114531_j51814485459453_2_alg».proof.Proof.KValColSum
import proofs.«114531_j51814485459453_2_alg».proof.Proof.KPayIdeal
import proofs.«114531_j51814485459453_2_alg».proof.Proof.ChamferSpec

noncomputable section

namespace Cert.KernelIdeal.Glue

open Cert.KernelIdeal Cert.KernelIdeal.Gen
open Idealize.ShloMosaic Idealize.ShloMosaic.TcCoe Idealize.SL.Sem Idealize.ShloMosaic.ValueIdx
open Idealize.ShloMosaic.Rounds
open Idealize.ShloMosaic.Pipeline (Dat Cfg Window)
open scoped BigOperators

variable (m : (ℓ : Loc nD τ sig) → Buf (Elt Ideal) ℓ) (ρ : Dev nD → PrngReg)

/-- Every weakly fair execution of the idealized kernel's @main terminates with the result at the tiled formula of the two
    clouds, and the argument arrays unchanged. -/
theorem kernel_value : θ_run defs (onTc (τ := τ) (main (F := Ideal))) ⟨m, fun _ => 0, ρ⟩ (fun r => ∀ c : Dev nD,
      r.2.mem ((c.tc : Thread nD τ).loc main_v6)
        = (fun _ => Cert.Chamfer.kerLoss (fun b n d => m ((c.tc : Thread nD τ).loc main_arg0) (ix3 b n d))
            (fun b n d => m ((c.tc : Thread nD τ).loc main_arg1) (ix3 b n d))
            (Ideal.ofBits .f32 0xC0000000#32) (Ideal.ofBits .f32 0x3F000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (Gen.run_main (F := Ideal) m ρ)
  · refine ((h c).2 main_v6 (Pipeline.mem_restRefs_of main_v6 (by decide) (by decide))).trans ?_
    rw [tail_eq m (Gen.dats m) c (G2 m c) (G3 m c) (arr2 m c) (arr3 m c)]
    funext _
    unfold Cert.Chamfer.kerLoss
    simp only [arr2_apply, arr3_apply, PayIdeal.k0_pay4_apply, row_value m c, fun b => col_value_of m c b (a8_value m c b)]
  · exact ((h c).1 0).trans (((Gen.dats m 0 c).arrAt_in 0 rfl _).trans ((Gen.A_eq m c 0).trans (Gen.V_main_arg0 m c)))
  · exact ((h c).2 main_arg1 (Pipeline.mem_restRefs_of main_arg1 (by decide) (by decide))).trans (Gen.W_main_arg1 m (Gen.dats m) c)

end Cert.KernelIdeal.Glue

end
-- ==== Proof.lean ====
/-
  The certificate of the tiled Chamfer-loss kernel against its reference.

  The kernel walks a grid of 16 batches × 2 row tiles × 2 column tiles.  At each point it forms the cross term
  u = (-2·x)·yᵀ of a [2048, 64] block of the first cloud and a [64, 2048] block of the second, keeps the running
  minimum over the column tiles of u + |y|² (per row) and over the row tiles of u + |x|² (per column) in scratch
  buffers, and only after the minima adds the point's own squared norm, clamps at 0 and sums.  The reference
  clamps every pairwise squared distance |x|² + |y|² - 2 x·y, takes the minima and sums.  On finite inputs the two
  agree over the extended reals: adding a real commutes with a minimum, the clamp is monotone so it commutes with a
  minimum too, the factor -2 moves out of the finite sum, and sums and minima may be taken tile by tile.

  The frames: the kernel's body is run case by case (the four positions of a point within its batch), the scratch
  buffers followed point by point; the reference's frame is its run with the result dropped.
-/
import proofs.«114531_j51814485459453_2_alg».proof.Defs
import proofs.«114531_j51814485459453_2_alg».proof.Proof.Gen.Kernel
import proofs.«114531_j51814485459453_2_alg».proof.Proof.Gen.KernelIdeal
import proofs.«114531_j51814485459453_2_alg».proof.Proof.Gen.ReferenceIdeal
import proofs.«114531_j51814485459453_2_alg».proof.Proof.Gen.Pre_finite_inputs
import proofs.«114531_j51814485459453_2_alg».proof.Proof.Gen.ReferenceIdeal.Read
import proofs.«114531_j51814485459453_2_alg».proof.Proof.WBody
import proofs.«114531_j51814485459453_2_alg».proof.Proof.KBody
import proofs.«114531_j51814485459453_2_alg».proof.Proof.RefClaims
import proofs.«114531_j51814485459453_2_alg».proof.Proof.RefValue
import proofs.«114531_j51814485459453_2_alg».proof.Proof.KGlueFinite
import proofs.«114531_j51814485459453_2_alg».proof.Proof.KFinal
import proofs.«114531_j51814485459453_2_alg».proof.Proof.ChamferAlgebra
import Idealize.ShloMosaic.Adequacy
import Idealize.ShloMosaic.Init

noncomputable section

namespace Cert.Proof

open Idealize.ShloMosaic Idealize.SL.Sem

/-- On finite inputs the idealized kernel's result, the tiled formula of the two clouds, is the reference's formula of the
    same clouds: the clouds are real-valued, the words of -2 and 2 are those reals, and the two formulas agree on reals. -/
theorem algebraic : Cert.algebraic_KernelIdeal_ReferenceIdeal := by
  intro m ρ m' ρ' hpre hagree
  refine ⟨_, Cert.KernelIdeal.Glue.kernel_value m ρ, ?_⟩
  refine (θ_run Cert.ReferenceIdeal.defs _ _).mono (fun r h c => ⟨?_, (h c).2⟩) (Cert.ReferenceIdeal.RefValue.ref_run m' ρ')
  rw [(h c).1, (hagree c).1, (hagree c).2]
  obtain ⟨x, y, hx, hy⟩ := Cert.KernelIdeal.Glue.finite_of_pre m hpre c
  funext _
  rw [hx, hy, Cert.KernelIdeal.PayIdeal.ofBits_neg_two, Cert.KernelIdeal.PayIdeal.ofBits_two]
  exact (Cert.Chamfer.kerLoss_eq_refLoss x y _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.RefClaims.frame_ri,
  trivial,
  algebraic⟩

end Cert.Proof

end
